-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S64x1024 : Shape := ⟨2, ![64, 1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S64x1024 : S_.BroadcastsInDim S64x1024 (![] : Fin 0 → Fin S64x1024.rank)
  reducesTo_S64x1024_S_d0_1 : S64x1024.ReducesTo [0, 1] S_

variable [Facts]

def fn_part1 {F : FTy → Type} [FloatOps F] (main_v13 : IVec S_ 1) (main_v16 : IVec S64x1024 1) : IVec S_ 1 :=
  let main_c_5 : IVec S_ 1 := constantI S_ 1 1#1
  let main_v17 : IVec S_ 1 := (fun x v => Host.reduce IntOp.andi x v reducesTo_S64x1024_S_d0_1 h_S_) main_v16 main_c_5
  let main_v18 : IVec S_ 1 := andi main_v13 main_v17
  main_v18

def fn {F : FTy → Type} [FloatOps F] (main_arg0 : FVec F S4x2048x1024 .f32) (main_arg1 : FVec F S64x1024 .f32) (main_arg2 : FVec F S64x1024 .f32) (main_arg3 : FVec F S64x1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S64x1024 .f32 := Host.absf main_arg1
  let main_cst_0 : FVec F S_ .f32 := constant S_ .f32 0x7F800000#32
  let main_v5 : FVec F S64x1024 .f32 := broadcastInDim S64x1024 ![] bcast_S_S64x1024 main_cst_0
  let main_v6 : IVec S64x1024 1 := cmpf .olt main_v4 main_v5
  let main_c_1 : IVec S_ 1 := constantI S_ 1 1#1
  let main_v7 : IVec S_ 1 := (fun x v => Host.reduce IntOp.andi x v reducesTo_S64x1024_S_d0_1 h_S_) main_v6 main_c_1
  let main_v8 : IVec S_ 1 := andi main_v3 main_v7
  let main_v9 : FVec F S64x1024 .f32 := Host.absf main_arg2
  let main_cst_2 : FVec F S_ .f32 := constant S_ .f32 0x7F800000#32
  let main_v10 : FVec F S64x1024 .f32 := broadcastInDim S64x1024 ![] bcast_S_S64x1024 main_cst_2
  let main_v11 : IVec S64x1024 1 := cmpf .olt main_v9 main_v10
  let main_c_3 : IVec S_ 1 := constantI S_ 1 1#1
  let main_v12 : IVec S_ 1 := (fun x v => Host.reduce IntOp.andi x v reducesTo_S64x1024_S_d0_1 h_S_) main_v11 main_c_3
  let main_v13 : IVec S_ 1 := andi main_v8 main_v12
  let main_v14 : FVec F S64x1024 .f32 := Host.absf main_arg3
  let main_cst_4 : FVec F S_ .f32 := constant S_ .f32 0x7F800000#32
  let main_v15 : FVec F S64x1024 .f32 := broadcastInDim S64x1024 ![] bcast_S_S64x1024 main_cst_4
  let main_v16 : IVec S64x1024 1 := cmpf .olt main_v14 main_v15
  fn_part1 (F := F) main_v13 main_v16
-- ==== Kernel.lean ====
abbrev S4x2048x1024 : Shape := ⟨3, ![4, 2048, 1024]⟩
abbrev S64x1024 : Shape := ⟨2, ![64, 1024]⟩
abbrev S4x2048x64 : Shape := ⟨3, ![4, 2048, 64]⟩
abbrev S1x1024x1024 : Shape := ⟨3, ![1, 1024, 1024]⟩
abbrev S1x1024x64 : Shape := ⟨3, ![1, 1024, 64]⟩
abbrev S1024x1024 : Shape := ⟨2, ![1024, 1024]⟩
abbrev S1024x64 : Shape := ⟨2, ![1024, 64]⟩
abbrev S1x1024x1 : Shape := ⟨3, ![1, 1024, 1]⟩
abbrev S1x1024 : Shape := ⟨2, ![1, 1024]⟩

abbrev nBuf : Space → Nat
  | .hbm => 8
  | .vmem => 22
  | .smem => 0
  | _ => 0

abbrev bufTy : (tb : Table) → Fin (tcTables nBuf tb) → BufTy
  | .hbm, ⟨0, _⟩ => ⟨S4x2048x1024, .f32⟩
  | .hbm, ⟨1, _⟩ => ⟨S64x1024, .f32⟩
  | .hbm, ⟨2, _⟩ => ⟨S64x1024, .f32⟩
  | .hbm, ⟨3, _⟩ => ⟨S64x1024, .f32⟩
  | .hbm, ⟨4, _⟩ => ⟨S4x2048x64, .bf16⟩
  | .hbm, ⟨5, _⟩ => ⟨S4x2048x64, .bf16⟩
  | .hbm, ⟨6, _⟩ => ⟨S4x2048x64, .bf16⟩
  | .hbm, ⟨7, _⟩ => ⟨S4x2048x64, .f32⟩
  | .local _ .vmem, ⟨0, _⟩ => ⟨S1x1024x1024, .f32⟩
  | .local _ .vmem, ⟨1, _⟩ => ⟨S1x1024x1024, .f32⟩
  | .local _ .vmem, ⟨2, _⟩ => ⟨S64x1024, .f32⟩
  | .local _ .vmem, ⟨3, _⟩ => ⟨S64x1024, .f32⟩
  | .local _ .vmem, ⟨4, _⟩ => ⟨S64x1024, .f32⟩
  | .local _ .vmem, ⟨5, _⟩ => ⟨S1x1024x64, .bf16⟩
  | .local _ .vmem, ⟨6, _⟩ => ⟨S1x1024x64, .bf16⟩
  | .local _ .vmem, ⟨7, _⟩ => ⟨S1x1024x64, .bf16⟩
  | .local _ .vmem, ⟨8, _⟩ => ⟨S1x1024x64, .bf16⟩
  | .local _ .vmem, ⟨9, _⟩ => ⟨S1x1024x64, .bf16⟩
  | .local _ .vmem, ⟨10, _⟩ => ⟨S1x1024x64, .bf16⟩
  | .local _ .vmem, ⟨11, _⟩ => ⟨S1x1024x64, .bf16⟩
  | .local _ .vmem, ⟨12, _⟩ => ⟨S1x1024x64, .bf16⟩
  | .local _ .vmem, ⟨13, _⟩ => ⟨S1x1024x64, .bf16⟩
  | .local _ .vmem, ⟨14, _⟩ => ⟨S1x1024x64, .bf16⟩
  | .local _ .vmem, ⟨15, _⟩ => ⟨S1x1024x64, .bf16⟩
  | .local _ .vmem, ⟨16, _⟩ => ⟨S1x1024x64, .bf16⟩
  | .local _ .vmem, ⟨17, _⟩ => ⟨S1x1024x64, .f32⟩
  | .local _ .vmem, ⟨18, _⟩ => ⟨S1x1024x64, .f32⟩
  | .local _ .vmem, ⟨19, _⟩ => ⟨S1x1024x1, .f32⟩
  | .local _ .vmem, ⟨20, _⟩ => ⟨S1x1024x1, .f32⟩
  | .local _ .vmem, ⟨21, _⟩ => ⟨S1x1024x64, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_scratch0 : Ref sig .tc := ⟨.vmem, 19, rfl⟩
abbrev cc1_scratch1 : Ref sig .tc := ⟨.vmem, 20, rfl⟩
abbrev cc1_scratch2 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem3_1 : DmaSem sig := 18

abbrev nD : Nat := 1
abbrev τ : Topo := Topo.v7x

variable {F : FTy → Type} [FloatOps F]

abbrev grid0 : Pipeline.Grid := ⟨2, ![4, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S64x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S64x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S64x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1024x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x64 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x64 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev grid1 : Pipeline.Grid := ⟨3, ![4, 2, 2], ![false, false, false]⟩

def k1_cond4 (i : grid1.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_3 : BitVec 32 := 0#32
  let v11 : BitVec 1 := Scalar.cmpi .ne v10 c0_i32_3
  v11

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.minsi arg2 arg1
  let c0_i32 : BitVec 32 := 0#32
  let c0_i32_0 : BitVec 32 := 0#32
  ![arg0.toNat, v0.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let v0 : BitVec 32 := Scalar.minsi arg2 arg1
  let c0_i32 : BitVec 32 := 0#32
  let c0_i32_0 : BitVec 32 := 0#32
  ![arg0.toNat, v0.toNat, c0_i32.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x1024x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x1024x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, true]

abbrev stage1_2 : Fin 2 → Memref sig .tc .vmem S1x1024x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, true]

abbrev stage1_3 : Fin 2 → Memref sig .tc .vmem S1x1024x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  bitsLt_bf16_f32 : FTy.bits .bf16 < FTy.bits .f32
  inb_S64x1024_S64x1024_0_0 : ∀ a, (![0, 0] : Fin 2 → Nat) a + S64x1024.size a ≤ S64x1024.size a
  h_S64x1024 : 0 < S64x1024.numel
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  shapeCasts_S1024x64_S1x1024x64 : S1024x64.ShapeCasts S1x1024x64
  packedbf16_S1x1024x64_S1x1024x64_0_0_0 : (Rect.unit (s := S1x1024x64) ![0, 0, 0] S1x1024x64.size inb_S1x1024x64_S1x1024x64_0_0_0).PackedRows (EltTy.packing .bf16)
  inb_S1x1024x1_S1x1024x1_0_0_0 : ∀ a, (![0, 0, 0] : Fin 3 → Nat) a + S1x1024x1.size a ≤ S1x1024x1.size a
  h_S1x1024x1 : 0 < S1x1024x1.numel
  shapeCasts_S1x1024x1_S1x1024x1 : S1x1024x1.ShapeCasts S1x1024x1
  shapeCasts_S1x1024x64_S1x1024x64 : S1x1024x64.ShapeCasts S1x1024x64
  reduces_S1x1024x1024_S1x1024 : S1x1024x1024.Reduces [2] S1x1024
  shapeCasts_S1x1024_S1x1024x1 : S1x1024.ShapeCasts S1x1024x1
  broadcasts_S1x1024x1_S1x1024x1024 : S1x1024x1.Broadcasts S1x1024x1024
  broadcasts_S1x1024x1_S1x1024x64 : S1x1024x1.Broadcasts S1x1024x64
  iota_S1x1024x1024_d1_w32 : S1x1024x1024.Iotas .tc 32 [1]
  iota_S1x1024x1024_d2_w32 : S1x1024x1024.Iotas .tc 32 [2]
  dot_S1024x1024_S64x1024_S1024x64_1_1_0_0_n_n_wf : DotDims.WF S1024x1024 S64x1024 S1024x64 [1] [1] [0] [0] [] []
  dot_S1x1024x64_S1x1024x64_S1x1024x1024_2_2_1_1_0_0_wf : DotDims.WF S1x1024x64 S1x1024x64 S1x1024x1024 [2] [2] [1] [1] [0] [0]
  dot_S1x1024x1024_S1x1024x64_S1x1024x64_2_1_1_2_0_0_wf : DotDims.WF S1x1024x1024 S1x1024x64 S1x1024x64 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S4x2048x1024.size a
  hwx0_0 : ∀ i : grid0.Coords, EltTy.bits .f32 = 32 ∨ (Rect.block (s := S4x2048x1024) S1x1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x1024.size a ≤ S64x1024.size a
  hwx0_1 : ∀ i : grid0.Coords, EltTy.bits .f32 = 32 ∨ (Rect.block (s := S64x1024) S64x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x1024.size a ≤ S64x1024.size a
  hwx0_2 : ∀ i : grid0.Coords, EltTy.bits .f32 = 32 ∨ (Rect.block (s := S64x1024) S64x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x1024.size a ≤ S64x1024.size a
  hwx0_3 : ∀ i : grid0.Coords, EltTy.bits .f32 = 32 ∨ (Rect.block (s := S64x1024) S64x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x64.size a ≤ S4x2048x64.size a
  hwx0_4 : ∀ i : grid0.Coords, EltTy.bits .bf16 = 32 ∨ (Rect.block (s := S4x2048x64) S1x1024x64.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024x64.size a ≤ S4x2048x64.size a
  hwx0_5 : ∀ i : grid0.Coords, EltTy.bits .bf16 = 32 ∨ (Rect.block (s := S4x2048x64) S1x1024x64.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1024x64.size a ≤ S4x2048x64.size a
  hwx0_6 : ∀ i : grid0.Coords, EltTy.bits .bf16 = 32 ∨ (Rect.block (s := S4x2048x64) S1x1024x64.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x64.size a ≤ S4x2048x64.size a
  hwx1_0 : ∀ i : grid1.Coords, EltTy.bits .bf16 = 32 ∨ (Rect.block (s := S4x2048x64) S1x1024x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024x64.size a ≤ S4x2048x64.size a
  hwx1_1 : ∀ i : grid1.Coords, EltTy.bits .bf16 = 32 ∨ (Rect.block (s := S4x2048x64) S1x1024x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024x64.size a ≤ S4x2048x64.size a
  hwx1_2 : ∀ i : grid1.Coords, EltTy.bits .bf16 = 32 ∨ (Rect.block (s := S4x2048x64) S1x1024x64.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024x64.size a ≤ S4x2048x64.size a
  hwx1_3 : ∀ i : grid1.Coords, EltTy.bits .f32 = 32 ∨ (Rect.block (s := S4x2048x64) S1x1024x64.size (cc1_transform_3 i) (hinb1_3 i)).WholeWords (EltTy.packing .f32)

variable [Facts₀]

def dot_S1024x1024_S64x1024_S1024x64_1_1_0_0_n_n : DotDims S1024x1024 S64x1024 S1024x64 where
  lhsContracting := [1]
  rhsContracting := [1]
  lhsNonContracting := [0]
  rhsNonContracting := [0]
  lhsBatch := []
  rhsBatch := []
  wf := dot_S1024x1024_S64x1024_S1024x64_1_1_0_0_n_n_wf
def dot_S1x1024x64_S1x1024x64_S1x1024x1024_2_2_1_1_0_0 : DotDims S1x1024x64 S1x1024x64 S1x1024x1024 where
  lhsContracting := [2]
  rhsContracting := [2]
  lhsNonContracting := [1]
  rhsNonContracting := [1]
  lhsBatch := [0]
  rhsBatch := [0]
  wf := dot_S1x1024x64_S1x1024x64_S1x1024x1024_2_2_1_1_0_0_wf
def dot_S1x1024x1024_S1x1024x64_S1x1024x64_2_1_1_2_0_0 : DotDims S1x1024x1024 S1x1024x64 S1x1024x64 where
  lhsContracting := [2]
  rhsContracting := [1]
  lhsNonContracting := [1]
  rhsNonContracting := [2]
  lhsBatch := [0]
  rhsBatch := [0]
  wf := dot_S1x1024x1024_S1x1024x64_S1x1024x64_2_1_1_2_0_0_wf

abbrev win0_0 : Pipeline.Window sig grid0 :=
  Pipeline.Window.ofSpec (Memref.whole main_arg0) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S1x1024x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S1x1024x64.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0_2) S1x1024x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v0_0) S1x1024x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_1) S1x1024x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0_2) S1x1024x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1) S1x1024x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond4 i == 1#1) | ⟨_ + 4, h⟩ => absurd h (Nat.not_lt.2 (Nat.le_add_left _ _))

class Facts : Prop extends Facts₀ where

variable [Facts]
-- ==== ReferenceIdeal.lean ====
abbrev S4x2048x1024 : Shape := ⟨3, ![4, 2048, 1024]⟩
abbrev S64x1024 : Shape := ⟨2, ![64, 1024]⟩
abbrev S4x2048x64 : Shape := ⟨3, ![4, 2048, 64]⟩
abbrev S4x2048x2048 : Shape := ⟨3, ![4, 2048, 2048]⟩
abbrev S_ : Shape := ⟨0, ![]⟩
abbrev S2048x2048 : Shape := ⟨2, ![2048, 2048]⟩
abbrev S4x2048 : Shape := ⟨2, ![4, 2048]⟩
abbrev S4x2048x1 : Shape := ⟨3, ![4, 2048, 1]⟩

abbrev nBuf : Space → Nat
  | .hbm => 41
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S64x1024, .f32⟩
  | .hbm, ⟨2, _⟩ => ⟨S64x1024, .f32⟩
  | .hbm, ⟨3, _⟩ => ⟨S64x1024, .f32⟩
  | .hbm, ⟨4, _⟩ => ⟨S4x2048x64, .f32⟩
  | .hbm, ⟨5, _⟩ => ⟨S4x2048x64, .f32⟩
  | .hbm, ⟨6, _⟩ => ⟨S4x2048x64, .f32⟩
  | .hbm, ⟨7, _⟩ => ⟨S4x2048x2048, .f32⟩
  | .hbm, ⟨8, _⟩ => ⟨S_, .f32⟩
  | .hbm, ⟨9, _⟩ => ⟨S4x2048x2048, .f32⟩
  | .hbm, ⟨10, _⟩ => ⟨S4x2048x2048, .f32⟩
  | .hbm, ⟨11, _⟩ => ⟨S_, .i1⟩
  | .hbm, ⟨12, _⟩ => ⟨S2048x2048, .i1⟩
  | .hbm, ⟨13, _⟩ => ⟨S2048x2048, .i32⟩
  | .hbm, ⟨14, _⟩ => ⟨S_, .i32⟩
  | .hbm, ⟨15, _⟩ => ⟨S2048x2048, .i32⟩
  | .hbm, ⟨16, _⟩ => ⟨S2048x2048, .i32⟩
  | .hbm, ⟨17, _⟩ => ⟨S2048x2048, .i32⟩
  | .hbm, ⟨18, _⟩ => ⟨S2048x2048, .i1⟩
  | .hbm, ⟨19, _⟩ => ⟨S_, .i1⟩
  | .hbm, ⟨20, _⟩ => ⟨S2048x2048, .i1⟩
  | .hbm, ⟨21, _⟩ => ⟨S2048x2048, .i1⟩
  | .hbm, ⟨22, _⟩ => ⟨S_, .f32⟩
  | .hbm, ⟨23, _⟩ => ⟨S4x2048x2048, .i1⟩
  | .hbm, ⟨24, _⟩ => ⟨S4x2048x2048, .f32⟩
  | .hbm, ⟨25, _⟩ => ⟨S4x2048x2048, .f32⟩
  | .hbm, ⟨26, _⟩ => ⟨S_, .f32⟩
  | .hbm, ⟨27, _⟩ => ⟨S4x2048, .f32⟩
  | .hbm, ⟨28, _⟩ => ⟨S_, .f32⟩
  | .hbm, ⟨29, _⟩ => ⟨S4x2048, .f32⟩
  | .hbm, ⟨30, _⟩ => ⟨S4x2048, .f32⟩
  | .hbm, ⟨31, _⟩ => ⟨S4x2048x1, .f32⟩
  | .hbm, ⟨32, _⟩ => ⟨S4x2048x2048, .f32⟩
  | .hbm, ⟨33, _⟩ => ⟨S4x2048x2048, .f32⟩
  | .hbm, ⟨34, _⟩ => ⟨S4x2048x2048, .f32⟩
  | .hbm, ⟨35, _⟩ => ⟨S_, .f32⟩
  | .hbm, ⟨36, _⟩ => ⟨S4x2048, .f32⟩
  | .hbm, ⟨37, _⟩ => ⟨S4x2048x1, .f32⟩
  | .hbm, ⟨38, _⟩ => ⟨S4x2048x2048, .f32⟩
  | .hbm, ⟨39, _⟩ => ⟨S4x2048x2048, .f32⟩
  | .hbm, ⟨40, _⟩ => ⟨S4x2048x64, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_call0_v0 : Ref sig .tc := ⟨.hbm, 13, rfl⟩
abbrev main_call0_c : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_c_0 : Ref sig .tc := ⟨.hbm, 19, rfl⟩
abbrev main_call0_v5 : Ref sig .tc := ⟨.hbm, 20, rfl⟩
abbrev main_v7 : Ref sig .tc := ⟨.hbm, 21, rfl⟩
abbrev main_cst_0 : Ref sig .tc := ⟨.hbm, 22, rfl⟩
abbrev main_call1_v0 : Ref sig .tc := ⟨.hbm, 23, rfl⟩
abbrev main_call1_v1 : Ref sig .tc := ⟨.hbm, 24, rfl⟩
abbrev main_v8 : Ref sig .tc := ⟨.hbm, 25, rfl⟩
abbrev main_cst_1 : Ref sig .tc := ⟨.hbm, 26, rfl⟩
abbrev main_v9 : Ref sig .tc := ⟨.hbm, 27, rfl⟩
abbrev main_cst_2 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_cst_3 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩

abbrev nD : Nat := 1
abbrev τ : Topo := Topo.v7x

variable {F : FTy → Type} [FloatOps F]

class Facts₀ : Prop where
  bcast_S_S4x2048x2048 : S_.BroadcastsInDim S4x2048x2048 (![] : Fin 0 → Fin S4x2048x2048.rank)
  bcast_S_S2048x2048 : S_.BroadcastsInDim S2048x2048 (![] : Fin 0 → Fin S2048x2048.rank)
  bcast_S2048x2048_S4x2048x2048_1_2 : S2048x2048.BroadcastsInDim S4x2048x2048 (![1, 2] : Fin 2 → Fin S4x2048x2048.rank)
  reducesTo_S4x2048x2048_S4x2048_d2 : S4x2048x2048.ReducesTo [2] S4x2048
  h_S_ : 0 < S_.numel
  bcast_S_S4x2048 : S_.BroadcastsInDim S4x2048 (![] : Fin 0 → Fin S4x2048.rank)
  bcast_S4x2048_S4x2048x1_0_1 : S4x2048.BroadcastsInDim S4x2048x1 (![0, 1] : Fin 2 → Fin S4x2048x1.rank)
  bcast_S4x2048x1_S4x2048x2048_0_1_2 : S4x2048x1.BroadcastsInDim S4x2048x2048 (![0, 1, 2] : Fin 3 → Fin S4x2048x2048.rank)
  dot_S4x2048x1024_S64x1024_S4x2048x64_2_1_01_0_n_n_wf : DotDims.WF S4x2048x1024 S64x1024 S4x2048x64 [2] [1] [0, 1] [0] [] []
  dot_S4x2048x64_S4x2048x64_S4x2048x2048_2_2_1_1_0_0_wf : DotDims.WF S4x2048x64 S4x2048x64 S4x2048x2048 [2] [2] [1] [1] [0] [0]
  dot_S4x2048x2048_S4x2048x64_S4x2048x64_2_1_1_2_0_0_wf : DotDims.WF S4x2048x2048 S4x2048x64 S4x2048x64 [2] [1] [1] [2] [0] [0]

variable [Facts₀]

def dot_S4x2048x1024_S64x1024_S4x2048x64_2_1_01_0_n_n : DotDims S4x2048x1024 S64x1024 S4x2048x64 where
  lhsContracting := [2]
  rhsContracting := [1]
  lhsNonContracting := [0, 1]
  rhsNonContracting := [0]
  lhsBatch := []
  rhsBatch := []
  wf := dot_S4x2048x1024_S64x1024_S4x2048x64_2_1_01_0_n_n_wf
def dot_S4x2048x64_S4x2048x64_S4x2048x2048_2_2_1_1_0_0 : DotDims S4x2048x64 S4x2048x64 S4x2048x2048 where
  lhsContracting := [2]
  rhsContracting := [2]
  lhsNonContracting := [1]
  rhsNonContracting := [1]
  lhsBatch := [0]
  rhsBatch := [0]
  wf := dot_S4x2048x64_S4x2048x64_S4x2048x2048_2_2_1_1_0_0_wf
def dot_S4x2048x2048_S4x2048x64_S4x2048x64_2_1_1_2_0_0 : DotDims S4x2048x2048 S4x2048x64 S4x2048x64 where
  lhsContracting := [2]
  rhsContracting := [1]
  lhsNonContracting := [1]
  rhsNonContracting := [2]
  lhsBatch := [0]
  rhsBatch := [0]
  wf := dot_S4x2048x2048_S4x2048x64_S4x2048x64_2_1_1_2_0_0_wf

class Facts : Prop extends Facts₀ where

variable [Facts]
-- ==== Proof.KProj.lean ====
/-
  The projection kernel's half of the frame, at any float instance, for region-entry contents `V`: each of the eight
  grid points loads the whole of its four input blocks (a [1, 1024, 1024] block of x and the three weight matrices),
  computes three [1024, 64] products and stores each, whole, into its output block. What an output block holds
  after the body is therefore the one stored payload; the inputs' buffers are left as found.
-/
import proofs.«180255_j27049704030330_2_alg».proof.Proof.Gen.Kernel.Launch
import proofs.«180255_j27049704030330_2_alg».proof.Proof.Gen.Kernel.Skeleton
import proofs.«180255_j27049704030330_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- The whole-block rectangles the body loads and stores through. -/
abbrev rX : Rect S1x1024x1024 := Rect.unit (s := S1x1024x1024) ![0, 0, 0] S1x1024x1024.size inb_S1x1024x1024_S1x1024x1024_0_0_0
abbrev rW : Rect S64x1024 := Rect.unit (s := S64x1024) ![0, 0] S64x1024.size inb_S64x1024_S64x1024_0_0
abbrev rO : Rect S1x1024x64 := Rect.unit (s := S1x1024x64) ![0, 0, 0] S1x1024x64.size inb_S1x1024x64_S1x1024x64_0_0_0

/-- What the body leaves in the three output blocks: the one whole store of each, over the loaded inputs. -/
def out0_4 (x0 : Vec F S1x1024x1024 .f32) (x2 : Vec F S64x1024 .f32) : Vec F S1x1024x64 .bf16 :=
  View.canon [⟨rO, k0_pay2 (View.ld x0 rX) (View.ld x2 rW)⟩]
def out0_5 (x0 : Vec F S1x1024x1024 .f32) (x1 : Vec F S64x1024 .f32) : Vec F S1x1024x64 .bf16 :=
  View.canon [⟨rO, k0_pay3 (View.ld x0 rX) (View.ld x1 rW)⟩]
def out0_6 (x0 : Vec F S1x1024x1024 .f32) (x3 : Vec F S64x1024 .f32) : Vec F S1x1024x64 .bf16 :=
  View.canon [⟨rO, k0_pay4 (View.ld x0 rX) (View.ld x3 rW)⟩]

/-- One whole store covers the block. -/
theorem coverO (p0 : Vec F S1x1024x64 .bf16) (y : S1x1024x64.Idx) :
    ∃ pc ∈ ([⟨rO, p0⟩] : List (View.Piece (Elt F) S1x1024x64 .bf16)), y ∈ pc.1.set :=
  View.cover_of_tiled [⟨rO, p0⟩] S1x1024x64.size (by rfl) y

set_option maxHeartbeats 4000000 in
/-- The body on whole staging memrefs, the inputs' at contents `xW` and the outputs' at anything, runs to the
    continuation holding the inputs' as they were and each output's at its stored payload. -/
theorem sound_kernel0 (c : Dev nD) (E : Set ℕ) (i : grid0.Coords)
    (arg2 : Memref sig .tc .vmem S1x1024x1024 .f32) (harg2 : arg2.IsWhole) (arg3 : Memref sig .tc .vmem S64x1024 .f32) (harg3 : arg3.IsWhole)
    (arg4 : Memref sig .tc .vmem S64x1024 .f32) (harg4 : arg4.IsWhole) (arg5 : Memref sig .tc .vmem S64x1024 .f32) (harg5 : arg5.IsWhole)
    (arg6 : Memref sig .tc .vmem S1x1024x64 .bf16) (harg6 : arg6.IsWhole) (arg7 : Memref sig .tc .vmem S1x1024x64 .bf16) (harg7 : arg7.IsWhole)
    (arg8 : Memref sig .tc .vmem S1x1024x64 .bf16) (harg8 : arg8.IsWhole)
    (x0 : Vec F S1x1024x1024 .f32) (x1 x2 x3 : Vec F S64x1024 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3
            ∗ owns (c : Thread nD τ) arg6 fullShare (out0_4 x0 x2) ∗ owns (c : Thread nD τ) arg7 fullShare (out0_5 x0 x1)
            ∗ owns (c : Thread nD τ) arg8 fullShare (out0_6 x0 x3)) -∗ K ⟨⟩))
      ⊢ wp frame (wpE (defs₀ (F := F)) Variants.none c none) E (cc0__proj_kernel i arg2 harg2 arg3 harg3 arg4 harg4 arg5 harg5 arg6 harg6 arg7 harg7 arg8 harg8) K := by
  simp only [cc0__proj_kernel_eq_skeleton]; unfold cc0__proj_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (coverO _)
  isplitl [H5]
  · iexists _; isplitr
    swap; · iexact H5
    ipureintro
    exact View.read_writes_eq_canon _ _ _ (coverO _)
  iexists _; isplitr
  swap; · iexact H6
  ipureintro
  exact View.read_writes_eq_canon _ _ _ (coverO _)

/-! ## The proof data and the body obligation -/

/-- The proof data of the projection pipeline on core `c`: the arrays as the region finds them; after the body at
    point `t` each input's buffer at its block and each output's at its stored payload over the input blocks; the
    invariant is the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 2 t)
    | ⟨5, _⟩ => out0_5 (iblk0 V c 0 t) (iblk0 V c 1 t)
    | ⟨6, _⟩ => out0_6 (iblk0 V c 0 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 2 t) := by dsimp only [dat0]
theorem after0_5 (c : Dev nD) (t : Fin cfg0.N) : (dat0 V c).after 5 t = out0_5 (iblk0 V c 0 t) (iblk0 V c 1 t) := by dsimp only [dat0]
theorem after0_6 (c : Dev nD) (t : Fin cfg0.N) : (dat0 V c).after 6 t = out0_6 (iblk0 V c 0 t) (iblk0 V c 3 t) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Frame

end
-- ==== Proof.KAttnRuns.lean ====
/-
  The attention kernel's frame, first part: what its runs share. The grid is (batch, query tile, key tile) = (4, 2, 2),
  sixteen points in row-major order, so a point's position modulo 4 says which tile pair it is: 0 is (query 0, key 0),
  1 is (0, 1), 2 is (1, 0), 3 is (1, 1). The body's four conditionals — reset the running maximum, denominator and
  numerator when the key tile is 0; accumulate an unmasked tile when the key tile is before the query tile; accumulate
  the masked diagonal tile when they are equal; divide and store the result when the key tile is the last — are
  therefore decided by that residue, and the body runs in one of four ways.
-/
import proofs.«180255_j27049704030330_2_alg».proof.Proof.Gen.Kernel.Launch
import proofs.«180255_j27049704030330_2_alg».proof.Proof.Gen.Kernel.Skeleton
import proofs.«180255_j27049704030330_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's four conditions, from the grid coordinates, and where they hold -/

/-- The key tile is the first. -/
abbrev cond1_0 (i : grid1.Coords) : Prop := (Scalar.cmpi .ne (Scalar.extui (Scalar.cmpi .eq (BitVec.ofNat 32 (i 2).val) 0#32)) 0#32) = 1#1
/-- The key tile is before the query tile. -/
abbrev cond1_1 (i : grid1.Coords) : Prop := (Scalar.cmpi .ne (Scalar.extui (Scalar.cmpi .slt (BitVec.ofNat 32 (i 2).val) (BitVec.ofNat 32 (i 1).val))) 0#32) = 1#1
/-- The key tile is the query tile. -/
abbrev cond1_2 (i : grid1.Coords) : Prop := (Scalar.cmpi .ne (Scalar.extui (Scalar.cmpi .eq (BitVec.ofNat 32 (i 2).val) (BitVec.ofNat 32 (i 1).val))) 0#32) = 1#1
/-- The key tile is the last. -/
abbrev cond1_3 (i : grid1.Coords) : Prop := k1_cond4 i = 1#1

theorem hcond1_0 : ∀ t : Fin cfg1.N, cond1_0 (grid1.coords t) ↔ t.val % 2 = 0 :=
  (by decide +kernel : ∀ t : Fin grid1.N, cond1_0 (grid1.coords t) ↔ t.val % 2 = 0)
theorem hcond1_1 : ∀ t : Fin cfg1.N, cond1_1 (grid1.coords t) ↔ t.val % 4 = 2 :=
  (by decide +kernel : ∀ t : Fin grid1.N, cond1_1 (grid1.coords t) ↔ t.val % 4 = 2)
theorem hcond1_2 : ∀ t : Fin cfg1.N, cond1_2 (grid1.coords t) ↔ (t.val % 4 = 0 ∨ t.val % 4 = 3) :=
  (by decide +kernel : ∀ t : Fin grid1.N, cond1_2 (grid1.coords t) ↔ (t.val % 4 = 0 ∨ t.val % 4 = 3))
theorem hcond1_3 : ∀ t : Fin cfg1.N, cond1_3 (grid1.coords t) ↔ t.val % 2 = 1 :=
  (by decide +kernel : ∀ t : Fin grid1.N, cond1_3 (grid1.coords t) ↔ t.val % 2 = 1)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Where the key tile is not the last the body stores nothing into the output block, and it is not written back. -/
theorem idleAt1_3 : ∀ t : Fin cfg1.N, ¬cond1_3 (grid1.coords t) → cfg1.idle 3 (grid1.coords t) = true := by decide +kernel
theorem noFlush1_3 : ∀ t : Fin cfg1.N, ¬cond1_3 (grid1.coords t) → (cfg1.win 3).flush t = false := by decide +kernel
theorem liveAt1_3 : ∀ t : Fin cfg1.N, cond1_3 (grid1.coords t) → cfg1.idle 3 (grid1.coords t) = false := by decide +kernel

/-! ## The memrefs the body is called with -/

abbrev VO1_3 : View sig .tc .vmem S1x1024x64 .f32 := (Memref.whole cc1_stg3_0 : Memref sig .tc .vmem S1x1024x64 .f32).view
abbrev ms1_0 (t : Fin cfg1.N) : Memref sig .tc .vmem S1x1024x64 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1024x64 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024x64 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024x64 .f32 := win1_3.stage (cfg1.slots t 3)
abbrev hs1_3 (t : Fin cfg1.N) : (ms1_3 t).IsWhole := hstage1_3 ((cfg1.slots t 3).cast nbuf1_3)
/-- The three scratch buffers the kernel carries from point to point: the running maximum, denominator, numerator. -/
abbrev scM1_0 : Memref sig .tc .vmem S1x1024x1 .f32 := Memref.whole cc1_scratch0
abbrev scM1_1 : Memref sig .tc .vmem S1x1024x1 .f32 := Memref.whole cc1_scratch1
abbrev scM1_2 : Memref sig .tc .vmem S1x1024x64 .f32 := Memref.whole cc1_scratch2
abbrev VS1_0 : View sig .tc .vmem S1x1024x1 .f32 := scM1_0.view
abbrev VS1_1 : View sig .tc .vmem S1x1024x1 .f32 := scM1_1.view
abbrev VS1_2 : View sig .tc .vmem S1x1024x64 .f32 := scM1_2.view

/-- The invariant the pipeline hands a region, with the scratch buffers as memrefs owned at some contents. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f)
          ∗ (∃ d, owns (c : Thread nD τ) scM1_0 fullShare d) ∗ (∃ d, owns (c : Thread nD τ) scM1_1 fullShare d) ∗ (∃ d, owns (c : Thread nD τ) scM1_2 fullShare d)) ∗ (∃ r, prngReg c r)) := by
  unfold Pipeline.ΦA; rw [scopedRest1_eq]; simp only [scM1_0, scM1_1, scM1_2, owns_whole]; try rfl

end Cert.Kernel.Frame

end
-- ==== Proof.KAttnRunA.lean ====
/-
  The attention kernel's body run in one of its four ways: query tile 0 against key tile 0 — the running maximum, denominator and numerator are reset, then the masked diagonal tile is accumulated; nothing is stored into the output block.
-/
import proofs.«180255_j27049704030330_2_alg».proof.Proof.KAttnRuns

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- On whole staging memrefs — the three inputs' at their contents, the output's at contents it hands back untouched,
    the three scratch buffers at anything — the body runs to the continuation holding the inputs' and the output's as
    they were and each scratch buffer with the run's stores written: the pieces are found by the run. -/
noncomputable def kernelRun1_A (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1x1024x64 .f32) (harg9 : arg9.IsWhole) (hc0 : cond1_0 i) (hc1 : ¬cond1_1 i) (hc2 : cond1_2 i) (hc3 : ¬cond1_3 i)
    (x0 x1 x2 : Vec F S1x1024x64 .bf16) :
    Σ' (LS0 : List (View.Piece (Elt F) S1x1024x1 .f32)) (LS1 : List (View.Piece (Elt F) S1x1024x1 .f32)), { LS2 : List (View.Piece (Elt F) S1x1024x64 .f32) //
      ∀ (xi3 : Vec F S1x1024x64 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨?_, ?_, ?_, fun xi3 E K => ?run⟩
  case run =>
    simp only [cc1__attn_kernel_eq_skeleton]; unfold cc1__attn_kernel_skel
    simp only [k1_part1_eq_skeleton, k1_part2_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.Kernel.Frame

end
-- ==== Proof.KAttnRunB.lean ====
/-
  The attention kernel's body run in one of its four ways: query tile 0 against key tile 1 — nothing is accumulated (every key is after every query); the numerator is divided by the denominator and stored.
-/
import proofs.«180255_j27049704030330_2_alg».proof.Proof.KAttnRunA

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- On whole staging memrefs — the inputs' at their contents, the output's at anything, the scratch buffers at the
    contents the point before left — the body runs to the continuation holding the inputs' and the scratch buffers'
    as they were and the output's with the run's store written. -/
noncomputable def kernelRun1_B (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1x1024x64 .f32) (harg9 : arg9.IsWhole) (hc0 : ¬cond1_0 i) (hc1 : ¬cond1_1 i) (hc2 : ¬cond1_2 i) (hc3 : cond1_3 i)
    (x0 x1 x2 : Vec F S1x1024x64 .bf16) (xs0 xs1 : Vec F S1x1024x1 .f32) (xs2 : Vec F S1x1024x64 .f32) :
    { L3 : List (View.Piece (Elt F) S1x1024x64 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ owns (c : Thread nD τ) arg7 fullShare xs0 ∗ owns (c : Thread nD τ) arg8 fullShare xs1 ∗ owns (c : Thread nD τ) arg9 fullShare xs2) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨?_, fun E K => ?run⟩
  case run =>
    simp only [cc1__attn_kernel_eq_skeleton]; unfold cc1__attn_kernel_skel
    simp only [k1_part1_eq_skeleton, k1_part2_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2
    obtain rfl := harg7.eq_unread hfs0; obtain rfl := harg8.eq_unread hfs1; obtain rfl := harg9.eq_unread hfs2
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]
    · iexists _; isplitr; · ipureintro; exact harg7.read_unread _
      iexact HS0
    isplitl [HS1]
    · iexists _; isplitr; · ipureintro; exact harg8.read_unread _
      iexact HS1
    iexists _; isplitr; · ipureintro; exact harg9.read_unread _
    iexact HS2

end Cert.Kernel.Frame

end
-- ==== Proof.KAttnRunC.lean ====
/-
  The attention kernel's body run in one of its four ways: query tile 1 against key tile 0 — the running maximum, denominator and numerator are reset, then the unmasked tile is accumulated; nothing is stored into the output block.
-/
import proofs.«180255_j27049704030330_2_alg».proof.Proof.KAttnRunB

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- On whole staging memrefs — the three inputs' at their contents, the output's at contents it hands back untouched,
    the three scratch buffers at anything — the body runs to the continuation holding the inputs' and the output's as
    they were and each scratch buffer with the run's stores written: the pieces are found by the run. -/
noncomputable def kernelRun1_C (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1x1024x64 .f32) (harg9 : arg9.IsWhole) (hc0 : cond1_0 i) (hc1 : cond1_1 i) (hc2 : ¬cond1_2 i) (hc3 : ¬cond1_3 i)
    (x0 x1 x2 : Vec F S1x1024x64 .bf16) :
    Σ' (LS0 : List (View.Piece (Elt F) S1x1024x1 .f32)) (LS1 : List (View.Piece (Elt F) S1x1024x1 .f32)), { LS2 : List (View.Piece (Elt F) S1x1024x64 .f32) //
      ∀ (xi3 : Vec F S1x1024x64 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨?_, ?_, ?_, fun xi3 E K => ?run⟩
  case run =>
    simp only [cc1__attn_kernel_eq_skeleton]; unfold cc1__attn_kernel_skel
    simp only [k1_part1_eq_skeleton, k1_part2_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.Kernel.Frame

end
-- ==== Proof.KAttnRunD.lean ====
/-
  The attention kernel's body run in one of its four ways: query tile 1 against key tile 1 — the masked diagonal tile is accumulated onto what key tile 0 left, then the numerator is divided by the denominator and stored.
-/
import proofs.«180255_j27049704030330_2_alg».proof.Proof.KAttnRunC

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- On whole staging memrefs — the inputs' at their contents, the output's at anything, the scratch buffers at the
    contents the point before left — the body runs to the continuation holding the inputs' as they were and the
    output's and each scratch buffer with the run's stores written. -/
noncomputable def kernelRun1_D (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1x1024x64 .f32) (harg9 : arg9.IsWhole) (hc0 : ¬cond1_0 i) (hc1 : ¬cond1_1 i) (hc2 : cond1_2 i) (hc3 : cond1_3 i)
    (x0 x1 x2 : Vec F S1x1024x64 .bf16) (xs0 xs1 : Vec F S1x1024x1 .f32) (xs2 : Vec F S1x1024x64 .f32) :
    Σ' (L3 : List (View.Piece (Elt F) S1x1024x64 .f32)) (LS0 : List (View.Piece (Elt F) S1x1024x1 .f32)) (LS1 : List (View.Piece (Elt F) S1x1024x1 .f32)), { LS2 : List (View.Piece (Elt F) S1x1024x64 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨?_, ?_, ?_, ?_, fun E K => ?run⟩
  case run =>
    simp only [cc1__attn_kernel_eq_skeleton]; unfold cc1__attn_kernel_skel
    simp only [k1_part1_eq_skeleton, k1_part2_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2
    obtain rfl := harg7.eq_unread hfs0; obtain rfl := harg8.eq_unread hfs1; obtain rfl := harg9.eq_unread hfs2
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]; · iexists _; iexact HS0
    isplitl [HS1]; · iexists _; iexact HS1
    iexists _; iexact HS2

end Cert.Kernel.Frame

end
-- ==== Proof.KAttn.lean ====
/-
  The attention kernel's frame, last part: what the output block and the three scratch buffers hold after every grid
  point, by recursion on the point; the proof data; and the body obligation. Points 0 and 2 modulo 4 (key tile 0)
  reset the scratch buffers and accumulate one tile; point 3 modulo 4 accumulates the diagonal tile onto what point
  2 left and stores the quotient; point 1 modulo 4 only stores the quotient of what point 0 left.
-/
import proofs.«180255_j27049704030330_2_alg».proof.Proof.KAttnRunD

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- After a point: the output block's staging buffer, and the running maximum, denominator and numerator. -/
abbrev St1 : Type := Vec F S1x1024x64 .f32 × Vec F S1x1024x1 .f32 × Vec F S1x1024x1 .f32 × Vec F S1x1024x64 .f32

/-! ## What each way of running leaves: the found pieces cover their buffers -/

theorem scover1_A_0 (c : Dev nD) (t : Fin cfg1.N) (hc0 : cond1_0 (grid1.coords t)) (hc1 : ¬cond1_1 (grid1.coords t)) (hc2 : cond1_2 (grid1.coords t)) (hc3 : ¬cond1_3 (grid1.coords t)) (y : S1x1024x1.Idx) : ∃ pc ∈ (kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 hc2 hc3 (iblk1 V c 0 t) (iblk1 V c 1 t) (iblk1 V c 2 t)).1, y ∈ pc.1.set :=
  View.cover_of_tiledL (kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 hc2 hc3 (iblk1 V c 0 t) (iblk1 V c 1 t) (iblk1 V c 2 t)).1 S1x1024x1.size (by sl_kernel_rfl) y
theorem scover1_A_1 (c : Dev nD) (t : Fin cfg1.N) (hc0 : cond1_0 (grid1.coords t)) (hc1 : ¬cond1_1 (grid1.coords t)) (hc2 : cond1_2 (grid1.coords t)) (hc3 : ¬cond1_3 (grid1.coords t)) (y : S1x1024x1.Idx) : ∃ pc ∈ (kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 hc2 hc3 (iblk1 V c 0 t) (iblk1 V c 1 t) (iblk1 V c 2 t)).2.1, y ∈ pc.1.set :=
  View.cover_of_tiledL (kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 hc2 hc3 (iblk1 V c 0 t) (iblk1 V c 1 t) (iblk1 V c 2 t)).2.1 S1x1024x1.size (by sl_kernel_rfl) y
theorem scover1_A_2 (c : Dev nD) (t : Fin cfg1.N) (hc0 : cond1_0 (grid1.coords t)) (hc1 : ¬cond1_1 (grid1.coords t)) (hc2 : cond1_2 (grid1.coords t)) (hc3 : ¬cond1_3 (grid1.coords t)) (y : S1x1024x64.Idx) : ∃ pc ∈ (kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 hc2 hc3 (iblk1 V c 0 t) (iblk1 V c 1 t) (iblk1 V c 2 t)).2.2.1, y ∈ pc.1.set :=
  View.cover_of_tiledL (kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 hc2 hc3 (iblk1 V c 0 t) (iblk1 V c 1 t) (iblk1 V c 2 t)).2.2.1 S1x1024x64.size (by sl_kernel_rfl) y
/-- After a point where key tile 0 is met: the scratch buffers hold the run's stores; the output block is not stored into. -/
def stepA (c : Dev nD) (t : Fin cfg1.N) (hc0 : cond1_0 (grid1.coords t)) (hc1 : ¬cond1_1 (grid1.coords t)) (hc2 : cond1_2 (grid1.coords t)) (hc3 : ¬cond1_3 (grid1.coords t)) : St1 (F := F) :=
  (VO1_3.read (Elt F) VO1_3.junk, VS1_0.read (Elt F) (VS1_0.writes (Elt F) VS1_0.junk (kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 hc2 hc3 (iblk1 V c 0 t) (iblk1 V c 1 t) (iblk1 V c 2 t)).1),
    VS1_1.read (Elt F) (VS1_1.writes (Elt F) VS1_1.junk (kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 hc2 hc3 (iblk1 V c 0 t) (iblk1 V c 1 t) (iblk1 V c 2 t)).2.1), VS1_2.read (Elt F) (VS1_2.writes (Elt F) VS1_2.junk (kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 hc2 hc3 (iblk1 V c 0 t) (iblk1 V c 1 t) (iblk1 V c 2 t)).2.2.1))

theorem scover1_C_0 (c : Dev nD) (t : Fin cfg1.N) (hc0 : cond1_0 (grid1.coords t)) (hc1 : cond1_1 (grid1.coords t)) (hc2 : ¬cond1_2 (grid1.coords t)) (hc3 : ¬cond1_3 (grid1.coords t)) (y : S1x1024x1.Idx) : ∃ pc ∈ (kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 hc2 hc3 (iblk1 V c 0 t) (iblk1 V c 1 t) (iblk1 V c 2 t)).1, y ∈ pc.1.set :=
  View.cover_of_tiledL (kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 hc2 hc3 (iblk1 V c 0 t) (iblk1 V c 1 t) (iblk1 V c 2 t)).1 S1x1024x1.size (by sl_kernel_rfl) y
theorem scover1_C_1 (c : Dev nD) (t : Fin cfg1.N) (hc0 : cond1_0 (grid1.coords t)) (hc1 : cond1_1 (grid1.coords t)) (hc2 : ¬cond1_2 (grid1.coords t)) (hc3 : ¬cond1_3 (grid1.coords t)) (y : S1x1024x1.Idx) : ∃ pc ∈ (kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 hc2 hc3 (iblk1 V c 0 t) (iblk1 V c 1 t) (iblk1 V c 2 t)).2.1, y ∈ pc.1.set :=
  View.cover_of_tiledL (kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 hc2 hc3 (iblk1 V c 0 t) (iblk1 V c 1 t) (iblk1 V c 2 t)).2.1 S1x1024x1.size (by sl_kernel_rfl) y
theorem scover1_C_2 (c : Dev nD) (t : Fin cfg1.N) (hc0 : cond1_0 (grid1.coords t)) (hc1 : cond1_1 (grid1.coords t)) (hc2 : ¬cond1_2 (grid1.coords t)) (hc3 : ¬cond1_3 (grid1.coords t)) (y : S1x1024x64.Idx) : ∃ pc ∈ (kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 hc2 hc3 (iblk1 V c 0 t) (iblk1 V c 1 t) (iblk1 V c 2 t)).2.2.1, y ∈ pc.1.set :=
  View.cover_of_tiledL (kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 hc2 hc3 (iblk1 V c 0 t) (iblk1 V c 1 t) (iblk1 V c 2 t)).2.2.1 S1x1024x64.size (by sl_kernel_rfl) y
/-- After a point where key tile 0 is met: the scratch buffers hold the run's stores; the output block is not stored into. -/
def stepC (c : Dev nD) (t : Fin cfg1.N) (hc0 : cond1_0 (grid1.coords t)) (hc1 : cond1_1 (grid1.coords t)) (hc2 : ¬cond1_2 (grid1.coords t)) (hc3 : ¬cond1_3 (grid1.coords t)) : St1 (F := F) :=
  (VO1_3.read (Elt F) VO1_3.junk, VS1_0.read (Elt F) (VS1_0.writes (Elt F) VS1_0.junk (kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 hc2 hc3 (iblk1 V c 0 t) (iblk1 V c 1 t) (iblk1 V c 2 t)).1),
    VS1_1.read (Elt F) (VS1_1.writes (Elt F) VS1_1.junk (kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 hc2 hc3 (iblk1 V c 0 t) (iblk1 V c 1 t) (iblk1 V c 2 t)).2.1), VS1_2.read (Elt F) (VS1_2.writes (Elt F) VS1_2.junk (kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 hc2 hc3 (iblk1 V c 0 t) (iblk1 V c 1 t) (iblk1 V c 2 t)).2.2.1))

theorem cover1_B_3 (c : Dev nD) (t : Fin cfg1.N) (hc0 : ¬cond1_0 (grid1.coords t)) (hc1 : ¬cond1_1 (grid1.coords t)) (hc2 : ¬cond1_2 (grid1.coords t)) (hc3 : cond1_3 (grid1.coords t)) (p : St1 (F := F)) (y : S1x1024x64.Idx) : ∃ pc ∈ (kernelRun1_B c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 hc2 hc3 (iblk1 V c 0 t) (iblk1 V c 1 t) (iblk1 V c 2 t) p.2.1 p.2.2.1 p.2.2.2).1, y ∈ pc.1.set :=
  View.cover_of_tiledL (kernelRun1_B c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 hc2 hc3 (iblk1 V c 0 t) (iblk1 V c 1 t) (iblk1 V c 2 t) p.2.1 p.2.2.1 p.2.2.2).1 S1x1024x64.size (by sl_kernel_rfl) y
/-- After the point that only stores the quotient: the scratch buffers as the point before left them. -/
def stepB (c : Dev nD) (t : Fin cfg1.N) (hc0 : ¬cond1_0 (grid1.coords t)) (hc1 : ¬cond1_1 (grid1.coords t)) (hc2 : ¬cond1_2 (grid1.coords t)) (hc3 : cond1_3 (grid1.coords t)) (p : St1 (F := F)) : St1 (F := F) :=
  (VO1_3.read (Elt F) (VO1_3.writes (Elt F) VO1_3.junk (kernelRun1_B c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 hc2 hc3 (iblk1 V c 0 t) (iblk1 V c 1 t) (iblk1 V c 2 t) p.2.1 p.2.2.1 p.2.2.2).1), p.2.1, p.2.2.1, p.2.2.2)

theorem cover1_D_3 (c : Dev nD) (t : Fin cfg1.N) (hc0 : ¬cond1_0 (grid1.coords t)) (hc1 : ¬cond1_1 (grid1.coords t)) (hc2 : cond1_2 (grid1.coords t)) (hc3 : cond1_3 (grid1.coords t)) (p : St1 (F := F)) (y : S1x1024x64.Idx) : ∃ pc ∈ (kernelRun1_D c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 hc2 hc3 (iblk1 V c 0 t) (iblk1 V c 1 t) (iblk1 V c 2 t) p.2.1 p.2.2.1 p.2.2.2).1, y ∈ pc.1.set :=
  View.cover_of_tiledL (kernelRun1_D c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 hc2 hc3 (iblk1 V c 0 t) (iblk1 V c 1 t) (iblk1 V c 2 t) p.2.1 p.2.2.1 p.2.2.2).1 S1x1024x64.size (by sl_kernel_rfl) y
theorem scover1_D_0 (c : Dev nD) (t : Fin cfg1.N) (hc0 : ¬cond1_0 (grid1.coords t)) (hc1 : ¬cond1_1 (grid1.coords t)) (hc2 : cond1_2 (grid1.coords t)) (hc3 : cond1_3 (grid1.coords t)) (p : St1 (F := F)) (y : S1x1024x1.Idx) : ∃ pc ∈ (kernelRun1_D c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 hc2 hc3 (iblk1 V c 0 t) (iblk1 V c 1 t) (iblk1 V c 2 t) p.2.1 p.2.2.1 p.2.2.2).2.1, y ∈ pc.1.set :=
  View.cover_of_tiledL (kernelRun1_D c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 hc2 hc3 (iblk1 V c 0 t) (iblk1 V c 1 t) (iblk1 V c 2 t) p.2.1 p.2.2.1 p.2.2.2).2.1 S1x1024x1.size (by sl_kernel_rfl) y
theorem scover1_D_1 (c : Dev nD) (t : Fin cfg1.N) (hc0 : ¬cond1_0 (grid1.coords t)) (hc1 : ¬cond1_1 (grid1.coords t)) (hc2 : cond1_2 (grid1.coords t)) (hc3 : cond1_3 (grid1.coords t)) (p : St1 (F := F)) (y : S1x1024x1.Idx) : ∃ pc ∈ (kernelRun1_D c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 hc2 hc3 (iblk1 V c 0 t) (iblk1 V c 1 t) (iblk1 V c 2 t) p.2.1 p.2.2.1 p.2.2.2).2.2.1, y ∈ pc.1.set :=
  View.cover_of_tiledL (kernelRun1_D c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 hc2 hc3 (iblk1 V c 0 t) (iblk1 V c 1 t) (iblk1 V c 2 t) p.2.1 p.2.2.1 p.2.2.2).2.2.1 S1x1024x1.size (by sl_kernel_rfl) y
theorem scover1_D_2 (c : Dev nD) (t : Fin cfg1.N) (hc0 : ¬cond1_0 (grid1.coords t)) (hc1 : ¬cond1_1 (grid1.coords t)) (hc2 : cond1_2 (grid1.coords t)) (hc3 : cond1_3 (grid1.coords t)) (p : St1 (F := F)) (y : S1x1024x64.Idx) : ∃ pc ∈ (kernelRun1_D c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 hc2 hc3 (iblk1 V c 0 t) (iblk1 V c 1 t) (iblk1 V c 2 t) p.2.1 p.2.2.1 p.2.2.2).2.2.2.1, y ∈ pc.1.set :=
  View.cover_of_tiledL (kernelRun1_D c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 hc2 hc3 (iblk1 V c 0 t) (iblk1 V c 1 t) (iblk1 V c 2 t) p.2.1 p.2.2.1 p.2.2.2).2.2.2.1 S1x1024x64.size (by sl_kernel_rfl) y
/-- After the point that accumulates the diagonal tile and stores the quotient. -/
def stepD (c : Dev nD) (t : Fin cfg1.N) (hc0 : ¬cond1_0 (grid1.coords t)) (hc1 : ¬cond1_1 (grid1.coords t)) (hc2 : cond1_2 (grid1.coords t)) (hc3 : cond1_3 (grid1.coords t)) (p : St1 (F := F)) : St1 (F := F) :=
  (VO1_3.read (Elt F) (VO1_3.writes (Elt F) VO1_3.junk (kernelRun1_D c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 hc2 hc3 (iblk1 V c 0 t) (iblk1 V c 1 t) (iblk1 V c 2 t) p.2.1 p.2.2.1 p.2.2.2).1), VS1_0.read (Elt F) (VS1_0.writes (Elt F) VS1_0.junk (kernelRun1_D c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 hc2 hc3 (iblk1 V c 0 t) (iblk1 V c 1 t) (iblk1 V c 2 t) p.2.1 p.2.2.1 p.2.2.2).2.1),
    VS1_1.read (Elt F) (VS1_1.writes (Elt F) VS1_1.junk (kernelRun1_D c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 hc2 hc3 (iblk1 V c 0 t) (iblk1 V c 1 t) (iblk1 V c 2 t) p.2.1 p.2.2.1 p.2.2.2).2.2.1), VS1_2.read (Elt F) (VS1_2.writes (Elt F) VS1_2.junk (kernelRun1_D c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 hc2 hc3 (iblk1 V c 0 t) (iblk1 V c 1 t) (iblk1 V c 2 t) p.2.1 p.2.2.1 p.2.2.2).2.2.2.1))

/-! ## The conditions at a point, from its position modulo 4 -/

theorem caseA (t : Fin cfg1.N) (h : t.val % 4 = 0) : cond1_0 (grid1.coords t) ∧ ¬cond1_1 (grid1.coords t) ∧ cond1_2 (grid1.coords t) ∧ ¬cond1_3 (grid1.coords t) :=
  ⟨(hcond1_0 t).mpr (by omega), fun hh => absurd ((hcond1_1 t).mp hh) (by omega), (hcond1_2 t).mpr (by omega), fun hh => absurd ((hcond1_3 t).mp hh) (by omega)⟩
theorem caseB (t : Fin cfg1.N) (h : t.val % 4 = 1) : ¬cond1_0 (grid1.coords t) ∧ ¬cond1_1 (grid1.coords t) ∧ ¬cond1_2 (grid1.coords t) ∧ cond1_3 (grid1.coords t) :=
  ⟨fun hh => absurd ((hcond1_0 t).mp hh) (by omega), fun hh => absurd ((hcond1_1 t).mp hh) (by omega), fun hh => absurd ((hcond1_2 t).mp hh) (by omega), (hcond1_3 t).mpr (by omega)⟩
theorem caseC (t : Fin cfg1.N) (h : t.val % 4 = 2) : cond1_0 (grid1.coords t) ∧ cond1_1 (grid1.coords t) ∧ ¬cond1_2 (grid1.coords t) ∧ ¬cond1_3 (grid1.coords t) :=
  ⟨(hcond1_0 t).mpr (by omega), (hcond1_1 t).mpr (by omega), fun hh => absurd ((hcond1_2 t).mp hh) (by omega), fun hh => absurd ((hcond1_3 t).mp hh) (by omega)⟩
theorem caseD (t : Fin cfg1.N) (h : t.val % 4 = 3) : ¬cond1_0 (grid1.coords t) ∧ ¬cond1_1 (grid1.coords t) ∧ cond1_2 (grid1.coords t) ∧ cond1_3 (grid1.coords t) :=
  ⟨fun hh => absurd ((hcond1_0 t).mp hh) (by omega), fun hh => absurd ((hcond1_1 t).mp hh) (by omega), (hcond1_2 t).mpr (by omega), (hcond1_3 t).mpr (by omega)⟩

/-! ## What the buffers hold after each point -/

/-- THE ACCUMULATION over the grid's points in order. -/
def outsAt1 (c : Dev nD) : (n : ℕ) → n < cfg1.N → St1 (F := F)
  | 0, hn => stepA V c ⟨0, hn⟩ (caseA ⟨0, hn⟩ rfl).1 (caseA ⟨0, hn⟩ rfl).2.1 (caseA ⟨0, hn⟩ rfl).2.2.1 (caseA ⟨0, hn⟩ rfl).2.2.2
  | n + 1, hn =>
    if h0 : (n + 1) % 4 = 0 then stepA V c ⟨n + 1, hn⟩ (caseA ⟨n + 1, hn⟩ h0).1 (caseA ⟨n + 1, hn⟩ h0).2.1 (caseA ⟨n + 1, hn⟩ h0).2.2.1 (caseA ⟨n + 1, hn⟩ h0).2.2.2
    else if h1 : (n + 1) % 4 = 1 then stepB V c ⟨n + 1, hn⟩ (caseB ⟨n + 1, hn⟩ h1).1 (caseB ⟨n + 1, hn⟩ h1).2.1 (caseB ⟨n + 1, hn⟩ h1).2.2.1 (caseB ⟨n + 1, hn⟩ h1).2.2.2 (outsAt1 c n (Nat.lt_of_succ_lt hn))
    else if h2 : (n + 1) % 4 = 2 then stepC V c ⟨n + 1, hn⟩ (caseC ⟨n + 1, hn⟩ h2).1 (caseC ⟨n + 1, hn⟩ h2).2.1 (caseC ⟨n + 1, hn⟩ h2).2.2.1 (caseC ⟨n + 1, hn⟩ h2).2.2.2
    else stepD V c ⟨n + 1, hn⟩ (caseD ⟨n + 1, hn⟩ (show (n + 1) % 4 = 3 by omega)).1 (caseD ⟨n + 1, hn⟩ (show (n + 1) % 4 = 3 by omega)).2.1 (caseD ⟨n + 1, hn⟩ (show (n + 1) % 4 = 3 by omega)).2.2.1 (caseD ⟨n + 1, hn⟩ (show (n + 1) % 4 = 3 by omega)).2.2.2 (outsAt1 c n (Nat.lt_of_succ_lt hn))

theorem outsAt1_A (c : Dev nD) (t : Fin cfg1.N) (h : t.val % 4 = 0) :
    outsAt1 V c t.val t.isLt = stepA V c t (caseA t h).1 (caseA t h).2.1 (caseA t h).2.2.1 (caseA t h).2.2.2 := by
  obtain ⟨n, hn⟩ := t
  cases n with
  | zero => rfl
  | succ n => exact dif_pos h
theorem outsAt1_B (c : Dev nD) (t : Fin cfg1.N) (h : t.val % 4 = 1) :
    outsAt1 V c t.val t.isLt = stepB V c t (caseB t h).1 (caseB t h).2.1 (caseB t h).2.2.1 (caseB t h).2.2.2
      (outsAt1 V c (t.val - 1) (Nat.lt_of_le_of_lt (Nat.sub_le _ _) t.isLt)) := by
  obtain ⟨n, hn⟩ := t
  cases n with
  | zero => exact absurd h (by show ¬ (0 % 4 = _); decide)
  | succ n => exact (dif_neg (by dsimp only at h; omega)).trans (dif_pos h)
theorem outsAt1_C (c : Dev nD) (t : Fin cfg1.N) (h : t.val % 4 = 2) :
    outsAt1 V c t.val t.isLt = stepC V c t (caseC t h).1 (caseC t h).2.1 (caseC t h).2.2.1 (caseC t h).2.2.2 := by
  obtain ⟨n, hn⟩ := t
  cases n with
  | zero => exact absurd h (by show ¬ (0 % 4 = _); decide)
  | succ n => exact (dif_neg (by dsimp only at h; omega)).trans ((dif_neg (by dsimp only at h; omega)).trans (dif_pos h))
theorem outsAt1_D (c : Dev nD) (t : Fin cfg1.N) (h : t.val % 4 = 3) :
    outsAt1 V c t.val t.isLt = stepD V c t (caseD t h).1 (caseD t h).2.1 (caseD t h).2.2.1 (caseD t h).2.2.2
      (outsAt1 V c (t.val - 1) (Nat.lt_of_le_of_lt (Nat.sub_le _ _) t.isLt)) := by
  obtain ⟨n, hn⟩ := t
  cases n with
  | zero => exact absurd h (by show ¬ (0 % 4 = _); decide)
  | succ n => exact (dif_neg (by dsimp only at h; omega)).trans ((dif_neg (by dsimp only at h; omega)).trans (dif_neg (by dsimp only at h; omega)))

/-! ## The invariant: the scratch buffers at what the point before left -/

def PhiS (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f)
      ∗ owns (c : Thread nD τ) scM1_0 fullShare (outsAt1 V c n hn).2.1 ∗ owns (c : Thread nD τ) scM1_1 fullShare (outsAt1 V c n hn).2.2.1
      ∗ owns (c : Thread nD τ) scM1_2 fullShare (outsAt1 V c n hn).2.2.2) ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f)
      ∗ owns (c : Thread nD τ) scM1_0 fullShare (outsAt1 V c n hn).2.1 ∗ owns (c : Thread nD τ) scM1_1 fullShare (outsAt1 V c n hn).2.2.1
      ∗ owns (c : Thread nD τ) scM1_2 fullShare (outsAt1 V c n hn).2.2.2) ∗ (∃ r, prngReg c r)) := rfl
theorem PhiS_pos (c : Dev nD) (n : ℕ) (h : n ≤ cfg1.N) (hz : n ≠ 0) :
    PhiS V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f)
      ∗ owns (c : Thread nD τ) scM1_0 fullShare (outsAt1 V c (n - 1) (by omega)).2.1 ∗ owns (c : Thread nD τ) scM1_1 fullShare (outsAt1 V c (n - 1) (by omega)).2.2.1
      ∗ owns (c : Thread nD τ) scM1_2 fullShare (outsAt1 V c (n - 1) (by omega)).2.2.2) ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS_castSucc (c : Dev nD) (t : Fin cfg1.N) :
    (dat1 V c).Φ t.castSucc = PhiS V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

end Cert.Kernel.Frame

end
-- ==== Proof.KAttnBody.lean ====
/-
  The attention kernel's body obligation: at every grid point the body, called on the current staging buffers and the
  scratch buffers, runs from the invariant before the point to the invariant after it, leaving each input block in
  place and the output block at what the accumulation says — by the point's position modulo 4.
-/
import proofs.«180255_j27049704030330_2_alg».proof.Proof.KAttn

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t ∗ (dat1 V c).leavesExact 3 t)

set_option maxHeartbeats 8000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  have hN : t.val < 16 := lt_of_lt_of_eq t.isLt (show cfg1.N = 16 from N_1)
  rcases (show t.val % 4 = 0 ∨ t.val % 4 = 1 ∨ t.val % 4 = 2 ∨ t.val % 4 = 3 by omega) with h | h | h | h
  · -- key tile 0 against query tile 0
    rw [Dat.leavesExact_idle (dat1 V c) 3 t (idleAt1_3 t (caseA t h).2.2.2) (noFlush1_3 t (caseA t h).2.2.2)]
    rw [outsAt1_A V c t h]
    unfold stepA; dsimp only
    by_cases hz : t.val = 0
    · rw [PhiS_castSucc V c t, PhiS_zero V c _ _ hz, PhiA1_eq]
      iintro ⟨⟨⟨R0, R1, R2, R3, R4, R5, R6, R7, R8, R9, R10, HS0, HS1, HS2⟩, Hg⟩, Ho, ⟨%d0, H0⟩, ⟨%d1, H1⟩, ⟨%d2, H2⟩, ⟨%d3, H3⟩⟩
      iapply ((kernelRun1_A c (grid1.coords t) _ _ _ _ _ _ _ _ _ _ _ _ _ _ (caseA t h).1 (caseA t h).2.1 (caseA t h).2.2.1 (caseA t h).2.2.2 (iblk1 V c 0 t) (iblk1 V c 1 t) (iblk1 V c 2 t)).2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%e0, HS0⟩, ⟨%e1, HS1⟩, ⟨%e2, HS2⟩⟩
      isplitl [R0 R1 R2 R3 R4 R5 R6 R7 R8 R9 R10 HS0 HS1 HS2 Hg]
      · isplitl [R0 R1 R2 R3 R4 R5 R6 R7 R8 R9 R10 HS0 HS1 HS2]
        ·
          isplitl [R0]; · iexact R0
          isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          isplitl [R9]; · iexact R9
          isplitl [R10]; · iexact R10
          isplitl [HS0]
          · unfold owns; iexists _; isplitr
            swap; · iexact HS0
            ipureintro; exact View.read_writes_of_cover _ _ _ _ _ (scover1_A_0 V c t _ _ _ _ )
          isplitl [HS1]
          · unfold owns; iexists _; isplitr
            swap; · iexact HS1
            ipureintro; exact View.read_writes_of_cover _ _ _ _ _ (scover1_A_1 V c t _ _ _ _ )
          unfold owns; iexists _; isplitr
          swap; · iexact HS2
          ipureintro; exact View.read_writes_of_cover _ _ _ _ _ (scover1_A_2 V c t _ _ _ _ )
        iexact Hg
      isplitl [Ho]; · iexact Ho
      isplitl [H0]; · iexact H0
      isplitl [H1]; · iexact H1
      isplitl [H2]; · iexact H2
      iexists _; iexact H3
    · rw [PhiS_castSucc V c t, PhiS_pos V c _ _ hz]
      iintro ⟨⟨⟨R0, R1, R2, R3, R4, R5, R6, R7, R8, R9, R10, HS0, HS1, HS2⟩, Hg⟩, Ho, ⟨%d0, H0⟩, ⟨%d1, H1⟩, ⟨%d2, H2⟩, ⟨%d3, H3⟩⟩
      iapply ((kernelRun1_A c (grid1.coords t) _ _ _ _ _ _ _ _ _ _ _ _ _ _ (caseA t h).1 (caseA t h).2.1 (caseA t h).2.2.1 (caseA t h).2.2.2 (iblk1 V c 0 t) (iblk1 V c 1 t) (iblk1 V c 2 t)).2.2.2 _ Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      isplitl [HS2]; · iexists _; iexact HS2
      iintro ⟨H0, H1, H2, H3, ⟨%e0, HS0⟩, ⟨%e1, HS1⟩, ⟨%e2, HS2⟩⟩
      isplitl [R0 R1 R2 R3 R4 R5 R6 R7 R8 R9 R10 HS0 HS1 HS2 Hg]
      · isplitl [R0 R1 R2 R3 R4 R5 R6 R7 R8 R9 R10 HS0 HS1 HS2]
        ·
          isplitl [R0]; · iexact R0
          isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          isplitl [R9]; · iexact R9
          isplitl [R10]; · iexact R10
          isplitl [HS0]
          · unfold owns; iexists _; isplitr
            swap; · iexact HS0
            ipureintro; exact View.read_writes_of_cover _ _ _ _ _ (scover1_A_0 V c t _ _ _ _ )
          isplitl [HS1]
          · unfold owns; iexists _; isplitr
            swap; · iexact HS1
            ipureintro; exact View.read_writes_of_cover _ _ _ _ _ (scover1_A_1 V c t _ _ _ _ )
          unfold owns; iexists _; isplitr
          swap; · iexact HS2
          ipureintro; exact View.read_writes_of_cover _ _ _ _ _ (scover1_A_2 V c t _ _ _ _ )
        iexact Hg
      isplitl [Ho]; · iexact Ho
      isplitl [H0]; · iexact H0
      isplitl [H1]; · iexact H1
      isplitl [H2]; · iexact H2
      iexists _; iexact H3
  · -- key tile 1 against query tile 0: only the quotient is stored
    rw [show (dat1 V c).leavesExact 3 t = owns (c : Thread nD τ) (ms1_3 t) fullShare ((dat1 V c).after 3 t) from by
      unfold Dat.leavesExact; rw [liveAt1_3 t (caseB t h).2.2.2], after1_3]
    rw [outsAt1_B V c t h]
    unfold stepB; dsimp only
    rw [PhiS_castSucc V c t, PhiS_pos V c _ _ (by omega)]
    iintro ⟨⟨⟨R0, R1, R2, R3, R4, R5, R6, R7, R8, R9, R10, HS0, HS1, HS2⟩, Hg⟩, Ho, ⟨%d0, H0⟩, ⟨%d1, H1⟩, ⟨%d2, H2⟩, ⟨%d3, H3⟩⟩
    iapply ((kernelRun1_B c (grid1.coords t) _ _ _ _ _ _ _ _ _ _ _ _ _ _ (caseB t h).1 (caseB t h).2.1 (caseB t h).2.2.1 (caseB t h).2.2.2 (iblk1 V c 0 t) (iblk1 V c 1 t) (iblk1 V c 2 t) _ _ _).2 Set.univ _)
    isplitl [H0]; · iexact H0
    isplitl [H1]; · iexact H1
    isplitl [H2]; · iexact H2
    isplitl [H3]; · iexists _; iexact H3
    isplitl [HS0]; · iexact HS0
    isplitl [HS1]; · iexact HS1
    isplitl [HS2]; · iexact HS2
    iintro ⟨H0, H1, H2, ⟨%e3, H3⟩, HS0, HS1, HS2⟩
    isplitl [R0 R1 R2 R3 R4 R5 R6 R7 R8 R9 R10 HS0 HS1 HS2 Hg]
    · isplitl [R0 R1 R2 R3 R4 R5 R6 R7 R8 R9 R10 HS0 HS1 HS2]
      ·
        isplitl [R0]; · iexact R0
        isplitl [R1]; · iexact R1
        isplitl [R2]; · iexact R2
        isplitl [R3]; · iexact R3
        isplitl [R4]; · iexact R4
        isplitl [R5]; · iexact R5
        isplitl [R6]; · iexact R6
        isplitl [R7]; · iexact R7
        isplitl [R8]; · iexact R8
        isplitl [R9]; · iexact R9
        isplitl [R10]; · iexact R10
        isplitl [HS0]; · iexact HS0
        isplitl [HS1]; · iexact HS1
        iexact HS2
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover1_B_3 V c t _ _ _ _ _)
  · -- key tile 0 against query tile 1
    rw [Dat.leavesExact_idle (dat1 V c) 3 t (idleAt1_3 t (caseC t h).2.2.2) (noFlush1_3 t (caseC t h).2.2.2)]
    rw [outsAt1_C V c t h]
    unfold stepC; dsimp only
    rw [PhiS_castSucc V c t, PhiS_pos V c _ _ (by omega)]
    iintro ⟨⟨⟨R0, R1, R2, R3, R4, R5, R6, R7, R8, R9, R10, HS0, HS1, HS2⟩, Hg⟩, Ho, ⟨%d0, H0⟩, ⟨%d1, H1⟩, ⟨%d2, H2⟩, ⟨%d3, H3⟩⟩
    iapply ((kernelRun1_C c (grid1.coords t) _ _ _ _ _ _ _ _ _ _ _ _ _ _ (caseC t h).1 (caseC t h).2.1 (caseC t h).2.2.1 (caseC t h).2.2.2 (iblk1 V c 0 t) (iblk1 V c 1 t) (iblk1 V c 2 t)).2.2.2 _ Set.univ _)
    isplitl [H0]; · iexact H0
    isplitl [H1]; · iexact H1
    isplitl [H2]; · iexact H2
    isplitl [H3]; · iexact H3
    isplitl [HS0]; · iexists _; iexact HS0
    isplitl [HS1]; · iexists _; iexact HS1
    isplitl [HS2]; · iexists _; iexact HS2
    iintro ⟨H0, H1, H2, H3, ⟨%e0, HS0⟩, ⟨%e1, HS1⟩, ⟨%e2, HS2⟩⟩
    isplitl [R0 R1 R2 R3 R4 R5 R6 R7 R8 R9 R10 HS0 HS1 HS2 Hg]
    · isplitl [R0 R1 R2 R3 R4 R5 R6 R7 R8 R9 R10 HS0 HS1 HS2]
      ·
        isplitl [R0]; · iexact R0
        isplitl [R1]; · iexact R1
        isplitl [R2]; · iexact R2
        isplitl [R3]; · iexact R3
        isplitl [R4]; · iexact R4
        isplitl [R5]; · iexact R5
        isplitl [R6]; · iexact R6
        isplitl [R7]; · iexact R7
        isplitl [R8]; · iexact R8
        isplitl [R9]; · iexact R9
        isplitl [R10]; · iexact R10
        isplitl [HS0]
        · unfold owns; iexists _; isplitr
          swap; · iexact HS0
          ipureintro; exact View.read_writes_of_cover _ _ _ _ _ (scover1_C_0 V c t _ _ _ _ )
        isplitl [HS1]
        · unfold owns; iexists _; isplitr
          swap; · iexact HS1
          ipureintro; exact View.read_writes_of_cover _ _ _ _ _ (scover1_C_1 V c t _ _ _ _ )
        unfold owns; iexists _; isplitr
        swap; · iexact HS2
        ipureintro; exact View.read_writes_of_cover _ _ _ _ _ (scover1_C_2 V c t _ _ _ _ )
      iexact Hg
    isplitl [Ho]; · iexact Ho
    isplitl [H0]; · iexact H0
    isplitl [H1]; · iexact H1
    isplitl [H2]; · iexact H2
    iexists _; iexact H3
  · -- key tile 1 against query tile 1
    rw [show (dat1 V c).leavesExact 3 t = owns (c : Thread nD τ) (ms1_3 t) fullShare ((dat1 V c).after 3 t) from by
      unfold Dat.leavesExact; rw [liveAt1_3 t (caseD t h).2.2.2], after1_3]
    rw [outsAt1_D V c t h]
    unfold stepD; dsimp only
    rw [PhiS_castSucc V c t, PhiS_pos V c _ _ (by omega)]
    iintro ⟨⟨⟨R0, R1, R2, R3, R4, R5, R6, R7, R8, R9, R10, HS0, HS1, HS2⟩, Hg⟩, Ho, ⟨%d0, H0⟩, ⟨%d1, H1⟩, ⟨%d2, H2⟩, ⟨%d3, H3⟩⟩
    iapply ((kernelRun1_D c (grid1.coords t) _ _ _ _ _ _ _ _ _ _ _ _ _ _ (caseD t h).1 (caseD t h).2.1 (caseD t h).2.2.1 (caseD t h).2.2.2 (iblk1 V c 0 t) (iblk1 V c 1 t) (iblk1 V c 2 t) _ _ _).2.2.2.2 Set.univ _)
    isplitl [H0]; · iexact H0
    isplitl [H1]; · iexact H1
    isplitl [H2]; · iexact H2
    isplitl [H3]; · iexists _; iexact H3
    isplitl [HS0]; · iexact HS0
    isplitl [HS1]; · iexact HS1
    isplitl [HS2]; · iexact HS2
    iintro ⟨H0, H1, H2, ⟨%e3, H3⟩, ⟨%e0, HS0⟩, ⟨%e1, HS1⟩, ⟨%e2, HS2⟩⟩
    isplitl [R0 R1 R2 R3 R4 R5 R6 R7 R8 R9 R10 HS0 HS1 HS2 Hg]
    · isplitl [R0 R1 R2 R3 R4 R5 R6 R7 R8 R9 R10 HS0 HS1 HS2]
      ·
        isplitl [R0]; · iexact R0
        isplitl [R1]; · iexact R1
        isplitl [R2]; · iexact R2
        isplitl [R3]; · iexact R3
        isplitl [R4]; · iexact R4
        isplitl [R5]; · iexact R5
        isplitl [R6]; · iexact R6
        isplitl [R7]; · iexact R7
        isplitl [R8]; · iexact R8
        isplitl [R9]; · iexact R9
        isplitl [R10]; · iexact R10
        isplitl [HS0]
        · unfold owns; iexists _; isplitr
          swap; · iexact HS0
          ipureintro; exact View.read_writes_of_cover _ _ _ _ _ (scover1_D_0 V c t _ _ _ _ _ )
        isplitl [HS1]
        · unfold owns; iexists _; isplitr
          swap; · iexact HS1
          ipureintro; exact View.read_writes_of_cover _ _ _ _ _ (scover1_D_1 V c t _ _ _ _ _ )
        unfold owns; iexists _; isplitr
        swap; · iexact HS2
        ipureintro; exact View.read_writes_of_cover _ _ _ _ _ (scover1_D_2 V c t _ _ _ _ _ )
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover1_D_3 V c t _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the pipeline hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives back what the pipeline takes: the scratch buffers' contents are forgotten. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 16 := N_1; omega), PhiA1_eq]
  iintro ⟨⟨R0, R1, R2, R3, R4, R5, R6, R7, R8, R9, R10, HS0, HS1, HS2⟩, Hg⟩
  isplitl [R0 R1 R2 R3 R4 R5 R6 R7 R8 R9 R10 HS0 HS1 HS2]
  ·
    isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [HS0]; · iexists _; iexact HS0
    isplitl [HS1]; · iexists _; iexact HS1
    iexists _; iexact HS2
  iexact Hg

end Cert.Kernel.Frame

end
-- ==== Proof.KRun.lean ====
/-
  The whole run of the two-kernel program at any float instance: @main is the projection region followed by the
  attention region, with no host operation between them. Every weakly fair execution terminates; the four argument
  arrays end as launched, and the result array holds what the attention pipeline's write-backs leave.
-/
import proofs.«180255_j27049704030330_2_alg».proof.Proof.KProj
import proofs.«180255_j27049704030330_2_alg».proof.Proof.KAttnBody

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch (the projection region's entry). -/
abbrev W0 : Dev nD → Valuation τ sig (Elt F) := fun c b => m (c, b)
abbrev V1 : (c : Dev nD) → (b : Ref sig .tc) → Buf (Elt F) ((c : Thread nD τ).loc b) := fun c b => W0 m c b
/-- After the projection region: q, k, v at what its write-backs leave, every other buffer as launched. -/
def W2 (c : Dev nD) : Valuation τ sig (Elt F) :=
  Pipeline.withArrays spec0 c (W0 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W0 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- After the attention region: the result at what its write-backs leave, every other buffer as entered. -/
def W4 (c : Dev nD) : Valuation τ sig (Elt F) :=
  Pipeline.withArrays spec1 c (W2 m c) fun w => (dat1 (V2 m) c).arrAt w cfg1.N
theorem W4_arr (c : Dev nD) (w : Fin cfg1.W) :
    W4 m c (Proc.devRef .tc (Pipeline.arrRef spec1 w)) = (dat1 (V2 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W2 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V2 m) c).arrAt w cfg1.N = V4 m c (Pipeline.arrRef spec1 w) :=
  (W4_arr m c w).symm
theorem hrest1 (c : Dev nD) : ∀ b, b ∉ Finset.univ.image (Pipeline.arrRef spec1) → V4 m c b = V2 m c b :=
  fun b hb => W4_of_ne m c b fun w e => hb (Finset.mem_image.mpr ⟨w, Finset.mem_univ _, e⟩)

/-! ### The arguments end as launched: each is an input window of the projection region and no array of the attention region -/

theorem W4_main_arg0 (c : Dev nD) : W4 m c (Proc.devRef .tc main_arg0) = m ((c : Thread nD τ).loc main_arg0) :=
  calc W4 m c (Proc.devRef .tc main_arg0)
    _ = W2 m c (Proc.devRef .tc main_arg0) := W4_of_ne m c main_arg0 (by decide)
    _ = W0 m c (Proc.devRef .tc main_arg0) := (W2_arr m c 0).trans (((dat0 (V1 m) c).arrAt_in 0 rfl _).trans (A_eq0 (V1 m) c 0))
    _ = m ((c : Thread nD τ).loc main_arg0) := rfl
theorem W4_main_arg1 (c : Dev nD) : W4 m c (Proc.devRef .tc main_arg1) = m ((c : Thread nD τ).loc main_arg1) :=
  calc W4 m c (Proc.devRef .tc main_arg1)
    _ = W2 m c (Proc.devRef .tc main_arg1) := W4_of_ne m c main_arg1 (by decide)
    _ = W0 m c (Proc.devRef .tc main_arg1) := (W2_arr m c 1).trans (((dat0 (V1 m) c).arrAt_in 1 rfl _).trans (A_eq0 (V1 m) c 1))
    _ = m ((c : Thread nD τ).loc main_arg1) := rfl
theorem W4_main_arg2 (c : Dev nD) : W4 m c (Proc.devRef .tc main_arg2) = m ((c : Thread nD τ).loc main_arg2) :=
  calc W4 m c (Proc.devRef .tc main_arg2)
    _ = W2 m c (Proc.devRef .tc main_arg2) := W4_of_ne m c main_arg2 (by decide)
    _ = W0 m c (Proc.devRef .tc main_arg2) := (W2_arr m c 2).trans (((dat0 (V1 m) c).arrAt_in 2 rfl _).trans (A_eq0 (V1 m) c 2))
    _ = m ((c : Thread nD τ).loc main_arg2) := rfl
theorem W4_main_arg3 (c : Dev nD) : W4 m c (Proc.devRef .tc main_arg3) = m ((c : Thread nD τ).loc main_arg3) :=
  calc W4 m c (Proc.devRef .tc main_arg3)
    _ = W2 m c (Proc.devRef .tc main_arg3) := W4_of_ne m c main_arg3 (by decide)
    _ = W0 m c (Proc.devRef .tc main_arg3) := (W2_arr m c 3).trans (((dat0 (V1 m) c).arrAt_in 3 rfl _).trans (A_eq0 (V1 m) c 3))
    _ = m ((c : Thread nD τ).loc main_arg3) := rfl

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0
/-- What rides beside the buffers through both regions: the generator register at some state, and nothing owed. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 (V2 m) c)
    unfold Pipeline.ΦA
    iintro ⟨Hp, -, Hr⟩
    isplitl [Hr]; · iexact Hr
    iexact Hp
  hout c := by
    rw [Pipeline.ownSems0_none]
    refine (hout1 (V2 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The launch -/

abbrev segs : List (Pipeline.Seg (pcfgs (F := F)) adm (pdats m) () defs₀ 𝒱₀ L lv) :=
  [ .region (reg0 m), .region (reg1 m) ]
theorem main_run (c : Dev nD) : main (F := F) c = Pipeline.Seg.run (segs m) := (main_chain c).trans (by chain_rfl)

set_option backward.isDefEq.respectTransparency.types false in
/-- THE RUN, at any float instance: from any memory with zero counters every weakly fair execution of @main terminates,
    nothing faulting; the result array ends at what the attention pipeline's write-backs leave and the four argument
    arrays end as launched. -/
theorem run_main : θ_run defs (onTc (τ := τ) (main (F := F))) ⟨m, fun _ => 0, ρ⟩ (fun r => ∀ c : Dev nD,
      r.2.mem ((c.tc : Thread nD τ).loc main_v1) = (dat1 (V2 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c =>
      ⟨(h c _ (mem_uc main_v1 (by decide))).trans (W4_arr m c 3),
       (h c _ (mem_uc main_arg0 (by decide))).trans (W4_main_arg0 m c),
       (h c _ (mem_uc main_arg1 (by decide))).trans (W4_main_arg1 m c),
       (h c _ (mem_uc main_arg2 (by decide))).trans (W4_main_arg2 m c),
       (h c _ (mem_uc main_arg3 (by decide))).trans (W4_main_arg3 m c)⟩)

/-- THE FRAME. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => (h c).2) (run_main m ρ)

end Cert.Kernel.Frame

end
-- ==== Proof.KIProj.lean ====
/-
  The projection kernel's half of the frame, at any float instance, for region-entry contents `V`: each of the eight
  grid points loads the whole of its four input blocks (a [1, 1024, 1024] block of x and the three weight matrices),
  computes three [1024, 64] products and stores each, whole, into its output block. What an output block holds
  after the body is therefore the one stored payload; the inputs' buffers are left as found.
-/
import proofs.«180255_j27049704030330_2_alg».proof.Proof.Gen.KernelIdeal.Launch
import proofs.«180255_j27049704030330_2_alg».proof.Proof.Gen.KernelIdeal.Skeleton
import proofs.«180255_j27049704030330_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- The whole-block rectangles the body loads and stores through. -/
abbrev rX : Rect S1x1024x1024 := Rect.unit (s := S1x1024x1024) ![0, 0, 0] S1x1024x1024.size inb_S1x1024x1024_S1x1024x1024_0_0_0
abbrev rW : Rect S64x1024 := Rect.unit (s := S64x1024) ![0, 0] S64x1024.size inb_S64x1024_S64x1024_0_0
abbrev rO : Rect S1x1024x64 := Rect.unit (s := S1x1024x64) ![0, 0, 0] S1x1024x64.size inb_S1x1024x64_S1x1024x64_0_0_0

/-- What the body leaves in the three output blocks: the one whole store of each, over the loaded inputs. -/
def out0_4 (x0 : Vec F S1x1024x1024 .f32) (x2 : Vec F S64x1024 .f32) : Vec F S1x1024x64 .bf16 :=
  View.canon [⟨rO, k0_pay2 (View.ld x0 rX) (View.ld x2 rW)⟩]
def out0_5 (x0 : Vec F S1x1024x1024 .f32) (x1 : Vec F S64x1024 .f32) : Vec F S1x1024x64 .bf16 :=
  View.canon [⟨rO, k0_pay3 (View.ld x0 rX) (View.ld x1 rW)⟩]
def out0_6 (x0 : Vec F S1x1024x1024 .f32) (x3 : Vec F S64x1024 .f32) : Vec F S1x1024x64 .bf16 :=
  View.canon [⟨rO, k0_pay4 (View.ld x0 rX) (View.ld x3 rW)⟩]

/-- One whole store covers the block. -/
theorem coverO (p0 : Vec F S1x1024x64 .bf16) (y : S1x1024x64.Idx) :
    ∃ pc ∈ ([⟨rO, p0⟩] : List (View.Piece (Elt F) S1x1024x64 .bf16)), y ∈ pc.1.set :=
  View.cover_of_tiled [⟨rO, p0⟩] S1x1024x64.size (by rfl) y

set_option maxHeartbeats 4000000 in
/-- The body on whole staging memrefs, the inputs' at contents `xW` and the outputs' at anything, runs to the
    continuation holding the inputs' as they were and each output's at its stored payload. -/
theorem sound_kernel0 (c : Dev nD) (E : Set ℕ) (i : grid0.Coords)
    (arg2 : Memref sig .tc .vmem S1x1024x1024 .f32) (harg2 : arg2.IsWhole) (arg3 : Memref sig .tc .vmem S64x1024 .f32) (harg3 : arg3.IsWhole)
    (arg4 : Memref sig .tc .vmem S64x1024 .f32) (harg4 : arg4.IsWhole) (arg5 : Memref sig .tc .vmem S64x1024 .f32) (harg5 : arg5.IsWhole)
    (arg6 : Memref sig .tc .vmem S1x1024x64 .bf16) (harg6 : arg6.IsWhole) (arg7 : Memref sig .tc .vmem S1x1024x64 .bf16) (harg7 : arg7.IsWhole)
    (arg8 : Memref sig .tc .vmem S1x1024x64 .bf16) (harg8 : arg8.IsWhole)
    (x0 : Vec F S1x1024x1024 .f32) (x1 x2 x3 : Vec F S64x1024 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3
            ∗ owns (c : Thread nD τ) arg6 fullShare (out0_4 x0 x2) ∗ owns (c : Thread nD τ) arg7 fullShare (out0_5 x0 x1)
            ∗ owns (c : Thread nD τ) arg8 fullShare (out0_6 x0 x3)) -∗ K ⟨⟩))
      ⊢ wp frame (wpE (defs₀ (F := F)) Variants.none c none) E (cc0__proj_kernel i arg2 harg2 arg3 harg3 arg4 harg4 arg5 harg5 arg6 harg6 arg7 harg7 arg8 harg8) K := by
  simp only [cc0__proj_kernel_eq_skeleton]; unfold cc0__proj_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (coverO _)
  isplitl [H5]
  · iexists _; isplitr
    swap; · iexact H5
    ipureintro
    exact View.read_writes_eq_canon _ _ _ (coverO _)
  iexists _; isplitr
  swap; · iexact H6
  ipureintro
  exact View.read_writes_eq_canon _ _ _ (coverO _)

/-! ## The proof data and the body obligation -/

/-- The proof data of the projection pipeline on core `c`: the arrays as the region finds them; after the body at
    point `t` each input's buffer at its block and each output's at its stored payload over the input blocks; the
    invariant is the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 2 t)
    | ⟨5, _⟩ => out0_5 (iblk0 V c 0 t) (iblk0 V c 1 t)
    | ⟨6, _⟩ => out0_6 (iblk0 V c 0 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 2 t) := by dsimp only [dat0]
theorem after0_5 (c : Dev nD) (t : Fin cfg0.N) : (dat0 V c).after 5 t = out0_5 (iblk0 V c 0 t) (iblk0 V c 1 t) := by dsimp only [dat0]
theorem after0_6 (c : Dev nD) (t : Fin cfg0.N) : (dat0 V c).after 6 t = out0_6 (iblk0 V c 0 t) (iblk0 V c 3 t) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Frame

end
-- ==== Proof.KIAttnRuns.lean ====
/-
  The attention kernel's frame, first part: what its runs share. The grid is (batch, query tile, key tile) = (4, 2, 2),
  sixteen points in row-major order, so a point's position modulo 4 says which tile pair it is: 0 is (query 0, key 0),
  1 is (0, 1), 2 is (1, 0), 3 is (1, 1). The body's four conditionals — reset the running maximum, denominator and
  numerator when the key tile is 0; accumulate an unmasked tile when the key tile is before the query tile; accumulate
  the masked diagonal tile when they are equal; divide and store the result when the key tile is the last — are
  therefore decided by that residue, and the body runs in one of four ways.
-/
import proofs.«180255_j27049704030330_2_alg».proof.Proof.Gen.KernelIdeal.Launch
import proofs.«180255_j27049704030330_2_alg».proof.Proof.Gen.KernelIdeal.Skeleton
import proofs.«180255_j27049704030330_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's four conditions, from the grid coordinates, and where they hold -/

/-- The key tile is the first. -/
abbrev cond1_0 (i : grid1.Coords) : Prop := (Scalar.cmpi .ne (Scalar.extui (Scalar.cmpi .eq (BitVec.ofNat 32 (i 2).val) 0#32)) 0#32) = 1#1
/-- The key tile is before the query tile. -/
abbrev cond1_1 (i : grid1.Coords) : Prop := (Scalar.cmpi .ne (Scalar.extui (Scalar.cmpi .slt (BitVec.ofNat 32 (i 2).val) (BitVec.ofNat 32 (i 1).val))) 0#32) = 1#1
/-- The key tile is the query tile. -/
abbrev cond1_2 (i : grid1.Coords) : Prop := (Scalar.cmpi .ne (Scalar.extui (Scalar.cmpi .eq (BitVec.ofNat 32 (i 2).val) (BitVec.ofNat 32 (i 1).val))) 0#32) = 1#1
/-- The key tile is the last. -/
abbrev cond1_3 (i : grid1.Coords) : Prop := k1_cond4 i = 1#1

theorem hcond1_0 : ∀ t : Fin cfg1.N, cond1_0 (grid1.coords t) ↔ t.val % 2 = 0 :=
  (by decide +kernel : ∀ t : Fin grid1.N, cond1_0 (grid1.coords t) ↔ t.val % 2 = 0)
theorem hcond1_1 : ∀ t : Fin cfg1.N, cond1_1 (grid1.coords t) ↔ t.val % 4 = 2 :=
  (by decide +kernel : ∀ t : Fin grid1.N, cond1_1 (grid1.coords t) ↔ t.val % 4 = 2)
theorem hcond1_2 : ∀ t : Fin cfg1.N, cond1_2 (grid1.coords t) ↔ (t.val % 4 = 0 ∨ t.val % 4 = 3) :=
  (by decide +kernel : ∀ t : Fin grid1.N, cond1_2 (grid1.coords t) ↔ (t.val % 4 = 0 ∨ t.val % 4 = 3))
theorem hcond1_3 : ∀ t : Fin cfg1.N, cond1_3 (grid1.coords t) ↔ t.val % 2 = 1 :=
  (by decide +kernel : ∀ t : Fin grid1.N, cond1_3 (grid1.coords t) ↔ t.val % 2 = 1)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Where the key tile is not the last the body stores nothing into the output block, and it is not written back. -/
theorem idleAt1_3 : ∀ t : Fin cfg1.N, ¬cond1_3 (grid1.coords t) → cfg1.idle 3 (grid1.coords t) = true := by decide +kernel
theorem noFlush1_3 : ∀ t : Fin cfg1.N, ¬cond1_3 (grid1.coords t) → (cfg1.win 3).flush t = false := by decide +kernel
theorem liveAt1_3 : ∀ t : Fin cfg1.N, cond1_3 (grid1.coords t) → cfg1.idle 3 (grid1.coords t) = false := by decide +kernel

/-! ## The memrefs the body is called with -/

abbrev VO1_3 : View sig .tc .vmem S1x1024x64 .f32 := (Memref.whole cc1_stg3_0 : Memref sig .tc .vmem S1x1024x64 .f32).view
abbrev ms1_0 (t : Fin cfg1.N) : Memref sig .tc .vmem S1x1024x64 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1024x64 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024x64 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024x64 .f32 := win1_3.stage (cfg1.slots t 3)
abbrev hs1_3 (t : Fin cfg1.N) : (ms1_3 t).IsWhole := hstage1_3 ((cfg1.slots t 3).cast nbuf1_3)
/-- The three scratch buffers the kernel carries from point to point: the running maximum, denominator, numerator. -/
abbrev scM1_0 : Memref sig .tc .vmem S1x1024x1 .f32 := Memref.whole cc1_scratch0
abbrev scM1_1 : Memref sig .tc .vmem S1x1024x1 .f32 := Memref.whole cc1_scratch1
abbrev scM1_2 : Memref sig .tc .vmem S1x1024x64 .f32 := Memref.whole cc1_scratch2
abbrev VS1_0 : View sig .tc .vmem S1x1024x1 .f32 := scM1_0.view
abbrev VS1_1 : View sig .tc .vmem S1x1024x1 .f32 := scM1_1.view
abbrev VS1_2 : View sig .tc .vmem S1x1024x64 .f32 := scM1_2.view

/-- The invariant the pipeline hands a region, with the scratch buffers as memrefs owned at some contents. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f)
          ∗ (∃ d, owns (c : Thread nD τ) scM1_0 fullShare d) ∗ (∃ d, owns (c : Thread nD τ) scM1_1 fullShare d) ∗ (∃ d, owns (c : Thread nD τ) scM1_2 fullShare d)) ∗ (∃ r, prngReg c r)) := by
  unfold Pipeline.ΦA; rw [scopedRest1_eq]; simp only [scM1_0, scM1_1, scM1_2, owns_whole]; try rfl

end Cert.KernelIdeal.Frame

end
-- ==== Proof.KIAttnRunA.lean ====
/-
  The attention kernel's body run in one of its four ways: query tile 0 against key tile 0 — the running maximum, denominator and numerator are reset, then the masked diagonal tile is accumulated; nothing is stored into the output block.
-/
import proofs.«180255_j27049704030330_2_alg».proof.Proof.KIAttnRuns

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 8000000 in
/-- On whole staging memrefs — the three inputs' at their contents, the output's at contents it hands back untouched,
    the three scratch buffers at anything — the body runs to the continuation holding the inputs' and the output's as
    they were and each scratch buffer with the run's stores written: the pieces are found by the run. -/
noncomputable def kernelRun1_A (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1x1024x64 .f32) (harg9 : arg9.IsWhole) (hc0 : cond1_0 i) (hc1 : ¬cond1_1 i) (hc2 : cond1_2 i) (hc3 : ¬cond1_3 i)
    (x0 x1 x2 : Vec F S1x1024x64 .bf16) :
    Σ' (LS0 : List (View.Piece (Elt F) S1x1024x1 .f32)) (LS1 : List (View.Piece (Elt F) S1x1024x1 .f32)), { LS2 : List (View.Piece (Elt F) S1x1024x64 .f32) //
      ∀ (xi3 : Vec F S1x1024x64 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨?_, ?_, ?_, fun xi3 E K => ?run⟩
  case run =>
    simp only [cc1__attn_kernel_eq_skeleton]; unfold cc1__attn_kernel_skel
    simp only [k1_part1_eq_skeleton, k1_part2_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.KernelIdeal.Frame

end
-- ==== Proof.KIAttnRunB.lean ====
/-
  The attention kernel's body run in one of its four ways: query tile 0 against key tile 1 — nothing is accumulated (every key is after every query); the numerator is divided by the denominator and stored.
-/
import proofs.«180255_j27049704030330_2_alg».proof.Proof.KIAttnRunA

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 8000000 in
/-- On whole staging memrefs — the inputs' at their contents, the output's at anything, the scratch buffers at the
    contents the point before left — the body runs to the continuation holding the inputs' and the scratch buffers'
    as they were and the output's with the run's store written. -/
noncomputable def kernelRun1_B (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1x1024x64 .f32) (harg9 : arg9.IsWhole) (hc0 : ¬cond1_0 i) (hc1 : ¬cond1_1 i) (hc2 : ¬cond1_2 i) (hc3 : cond1_3 i)
    (x0 x1 x2 : Vec F S1x1024x64 .bf16) (xs0 xs1 : Vec F S1x1024x1 .f32) (xs2 : Vec F S1x1024x64 .f32) :
    { L3 : List (View.Piece (Elt F) S1x1024x64 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ owns (c : Thread nD τ) arg7 fullShare xs0 ∗ owns (c : Thread nD τ) arg8 fullShare xs1 ∗ owns (c : Thread nD τ) arg9 fullShare xs2) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨?_, fun E K => ?run⟩
  case run =>
    simp only [cc1__attn_kernel_eq_skeleton]; unfold cc1__attn_kernel_skel
    simp only [k1_part1_eq_skeleton, k1_part2_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2
    obtain rfl := harg7.eq_unread hfs0; obtain rfl := harg8.eq_unread hfs1; obtain rfl := harg9.eq_unread hfs2
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]
    · iexists _; isplitr; · ipureintro; exact harg7.read_unread _
      iexact HS0
    isplitl [HS1]
    · iexists _; isplitr; · ipureintro; exact harg8.read_unread _
      iexact HS1
    iexists _; isplitr; · ipureintro; exact harg9.read_unread _
    iexact HS2

end Cert.KernelIdeal.Frame

end
-- ==== Proof.KIAttnRunC.lean ====
/-
  The attention kernel's body run in one of its four ways: query tile 1 against key tile 0 — the running maximum, denominator and numerator are reset, then the unmasked tile is accumulated; nothing is stored into the output block.
-/
import proofs.«180255_j27049704030330_2_alg».proof.Proof.KIAttnRunB

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 8000000 in
/-- On whole staging memrefs — the three inputs' at their contents, the output's at contents it hands back untouched,
    the three scratch buffers at anything — the body runs to the continuation holding the inputs' and the output's as
    they were and each scratch buffer with the run's stores written: the pieces are found by the run. -/
noncomputable def kernelRun1_C (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1x1024x64 .f32) (harg9 : arg9.IsWhole) (hc0 : cond1_0 i) (hc1 : cond1_1 i) (hc2 : ¬cond1_2 i) (hc3 : ¬cond1_3 i)
    (x0 x1 x2 : Vec F S1x1024x64 .bf16) :
    Σ' (LS0 : List (View.Piece (Elt F) S1x1024x1 .f32)) (LS1 : List (View.Piece (Elt F) S1x1024x1 .f32)), { LS2 : List (View.Piece (Elt F) S1x1024x64 .f32) //
      ∀ (xi3 : Vec F S1x1024x64 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨?_, ?_, ?_, fun xi3 E K => ?run⟩
  case run =>
    simp only [cc1__attn_kernel_eq_skeleton]; unfold cc1__attn_kernel_skel
    simp only [k1_part1_eq_skeleton, k1_part2_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg3.eq_unread hf0; obtain rfl := harg4.eq_unread hf1; obtain rfl := harg5.eq_unread hf2; obtain rfl := harg6.eq_unread hf3
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HS0]; · iexists _; iexact HS0
    isplitl [HS1]; · iexists _; iexact HS1
    iexists _; iexact HS2

end Cert.KernelIdeal.Frame

end
-- ==== Proof.KIAttnRunD.lean ====
/-
  The attention kernel's body run in one of its four ways: query tile 1 against key tile 1 — the masked diagonal tile is accumulated onto what key tile 0 left, then the numerator is divided by the denominator and stored.
-/
import proofs.«180255_j27049704030330_2_alg».proof.Proof.KIAttnRunC

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 8000000 in
/-- On whole staging memrefs — the inputs' at their contents, the output's at anything, the scratch buffers at the
    contents the point before left — the body runs to the continuation holding the inputs' as they were and the
    output's and each scratch buffer with the run's stores written. -/
noncomputable def kernelRun1_D (c : Dev nD) (i : grid1.Coords) (arg3 : Memref sig .tc .vmem S1x1024x64 .bf16) (harg3 : arg3.IsWhole) (arg4 : Memref sig .tc .vmem S1x1024x64 .bf16) (harg4 : arg4.IsWhole) (arg5 : Memref sig .tc .vmem S1x1024x64 .bf16) (harg5 : arg5.IsWhole) (arg6 : Memref sig .tc .vmem S1x1024x64 .f32) (harg6 : arg6.IsWhole) (arg7 : Memref sig .tc .vmem S1x1024x1 .f32) (harg7 : arg7.IsWhole) (arg8 : Memref sig .tc .vmem S1x1024x1 .f32) (harg8 : arg8.IsWhole) (arg9 : Memref sig .tc .vmem S1x1024x64 .f32) (harg9 : arg9.IsWhole) (hc0 : ¬cond1_0 i) (hc1 : ¬cond1_1 i) (hc2 : cond1_2 i) (hc3 : cond1_3 i)
    (x0 x1 x2 : Vec F S1x1024x64 .bf16) (xs0 xs1 : Vec F S1x1024x1 .f32) (xs2 : Vec F S1x1024x64 .f32) :
    Σ' (L3 : List (View.Piece (Elt F) S1x1024x64 .f32)) (LS0 : List (View.Piece (Elt F) S1x1024x1 .f32)) (LS1 : List (View.Piece (Elt F) S1x1024x1 .f32)), { LS2 : List (View.Piece (Elt F) S1x1024x64 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0 ∗ owns (c : Thread nD τ) arg8 fullShare xs1 ∗ owns (c : Thread nD τ) arg9 fullShare xs2
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc1__attn_kernel i arg3 harg3 arg4 harg4 arg5 harg5 arg6 harg6 arg7 harg7 arg8 harg8 arg9 harg9) K } := by
  refine ⟨?_, ?_, ?_, ?_, fun E K => ?run⟩
  case run =>
    simp only [cc1__attn_kernel_eq_skeleton]; unfold cc1__attn_kernel_skel
    simp only [k1_part1_eq_skeleton, k1_part2_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg3.eq_unread hf0; obtain rfl := harg4.eq_unread hf1; obtain rfl := harg5.eq_unread hf2
    obtain rfl := harg7.eq_unread hfs0; obtain rfl := harg8.eq_unread hfs1; obtain rfl := harg9.eq_unread hfs2
    sl_exec (disch := first | exact hc0 | exact hc1 | exact hc2 | exact hc3)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HS0]; · iexists _; iexact HS0
    isplitl [HS1]; · iexists _; iexact HS1
    iexists _; iexact HS2

end Cert.KernelIdeal.Frame

end
-- ==== Proof.KIAttn.lean ====
/-
  The attention kernel's frame, last part: what the output block and the three scratch buffers hold after every grid
  point, by recursion on the point; the proof data; and the body obligation. Points 0 and 2 modulo 4 (key tile 0)
  reset the scratch buffers and accumulate one tile; point 3 modulo 4 accumulates the diagonal tile onto what point
  2 left and stores the quotient; point 1 modulo 4 only stores the quotient of what point 0 left.
-/
import proofs.«180255_j27049704030330_2_alg».proof.Proof.KIAttnRunD

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- After a point: the output block's staging buffer, and the running maximum, denominator and numerator. -/
abbrev St1 : Type := Vec F S1x1024x64 .f32 × Vec F S1x1024x1 .f32 × Vec F S1x1024x1 .f32 × Vec F S1x1024x64 .f32

/-! ## What each way of running leaves: the found pieces cover their buffers -/

theorem scover1_A_0 (c : Dev nD) (t : Fin cfg1.N) (hc0 : cond1_0 (grid1.coords t)) (hc1 : ¬cond1_1 (grid1.coords t)) (hc2 : cond1_2 (grid1.coords t)) (hc3 : ¬cond1_3 (grid1.coords t)) (y : S1x1024x1.Idx) : ∃ pc ∈ (kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 hc2 hc3 (iblk1 V c 0 t) (iblk1 V c 1 t) (iblk1 V c 2 t)).1, y ∈ pc.1.set :=
  View.cover_of_tiledL (kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 hc2 hc3 (iblk1 V c 0 t) (iblk1 V c 1 t) (iblk1 V c 2 t)).1 S1x1024x1.size (by sl_kernel_rfl) y
theorem scover1_A_1 (c : Dev nD) (t : Fin cfg1.N) (hc0 : cond1_0 (grid1.coords t)) (hc1 : ¬cond1_1 (grid1.coords t)) (hc2 : cond1_2 (grid1.coords t)) (hc3 : ¬cond1_3 (grid1.coords t)) (y : S1x1024x1.Idx) : ∃ pc ∈ (kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 hc2 hc3 (iblk1 V c 0 t) (iblk1 V c 1 t) (iblk1 V c 2 t)).2.1, y ∈ pc.1.set :=
  View.cover_of_tiledL (kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 hc2 hc3 (iblk1 V c 0 t) (iblk1 V c 1 t) (iblk1 V c 2 t)).2.1 S1x1024x1.size (by sl_kernel_rfl) y
theorem scover1_A_2 (c : Dev nD) (t : Fin cfg1.N) (hc0 : cond1_0 (grid1.coords t)) (hc1 : ¬cond1_1 (grid1.coords t)) (hc2 : cond1_2 (grid1.coords t)) (hc3 : ¬cond1_3 (grid1.coords t)) (y : S1x1024x64.Idx) : ∃ pc ∈ (kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 hc2 hc3 (iblk1 V c 0 t) (iblk1 V c 1 t) (iblk1 V c 2 t)).2.2.1, y ∈ pc.1.set :=
  View.cover_of_tiledL (kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 hc2 hc3 (iblk1 V c 0 t) (iblk1 V c 1 t) (iblk1 V c 2 t)).2.2.1 S1x1024x64.size (by sl_kernel_rfl) y
/-- After a point where key tile 0 is met: the scratch buffers hold the run's stores; the output block is not stored into. -/
def stepA (c : Dev nD) (t : Fin cfg1.N) (hc0 : cond1_0 (grid1.coords t)) (hc1 : ¬cond1_1 (grid1.coords t)) (hc2 : cond1_2 (grid1.coords t)) (hc3 : ¬cond1_3 (grid1.coords t)) : St1 (F := F) :=
  (VO1_3.read (Elt F) VO1_3.junk, VS1_0.read (Elt F) (VS1_0.writes (Elt F) VS1_0.junk (kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 hc2 hc3 (iblk1 V c 0 t) (iblk1 V c 1 t) (iblk1 V c 2 t)).1),
    VS1_1.read (Elt F) (VS1_1.writes (Elt F) VS1_1.junk (kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 hc2 hc3 (iblk1 V c 0 t) (iblk1 V c 1 t) (iblk1 V c 2 t)).2.1), VS1_2.read (Elt F) (VS1_2.writes (Elt F) VS1_2.junk (kernelRun1_A c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 hc2 hc3 (iblk1 V c 0 t) (iblk1 V c 1 t) (iblk1 V c 2 t)).2.2.1))

theorem scover1_C_0 (c : Dev nD) (t : Fin cfg1.N) (hc0 : cond1_0 (grid1.coords t)) (hc1 : cond1_1 (grid1.coords t)) (hc2 : ¬cond1_2 (grid1.coords t)) (hc3 : ¬cond1_3 (grid1.coords t)) (y : S1x1024x1.Idx) : ∃ pc ∈ (kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 hc2 hc3 (iblk1 V c 0 t) (iblk1 V c 1 t) (iblk1 V c 2 t)).1, y ∈ pc.1.set :=
  View.cover_of_tiledL (kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 hc2 hc3 (iblk1 V c 0 t) (iblk1 V c 1 t) (iblk1 V c 2 t)).1 S1x1024x1.size (by sl_kernel_rfl) y
theorem scover1_C_1 (c : Dev nD) (t : Fin cfg1.N) (hc0 : cond1_0 (grid1.coords t)) (hc1 : cond1_1 (grid1.coords t)) (hc2 : ¬cond1_2 (grid1.coords t)) (hc3 : ¬cond1_3 (grid1.coords t)) (y : S1x1024x1.Idx) : ∃ pc ∈ (kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 hc2 hc3 (iblk1 V c 0 t) (iblk1 V c 1 t) (iblk1 V c 2 t)).2.1, y ∈ pc.1.set :=
  View.cover_of_tiledL (kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 hc2 hc3 (iblk1 V c 0 t) (iblk1 V c 1 t) (iblk1 V c 2 t)).2.1 S1x1024x1.size (by sl_kernel_rfl) y
theorem scover1_C_2 (c : Dev nD) (t : Fin cfg1.N) (hc0 : cond1_0 (grid1.coords t)) (hc1 : cond1_1 (grid1.coords t)) (hc2 : ¬cond1_2 (grid1.coords t)) (hc3 : ¬cond1_3 (grid1.coords t)) (y : S1x1024x64.Idx) : ∃ pc ∈ (kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 hc2 hc3 (iblk1 V c 0 t) (iblk1 V c 1 t) (iblk1 V c 2 t)).2.2.1, y ∈ pc.1.set :=
  View.cover_of_tiledL (kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 hc2 hc3 (iblk1 V c 0 t) (iblk1 V c 1 t) (iblk1 V c 2 t)).2.2.1 S1x1024x64.size (by sl_kernel_rfl) y
/-- After a point where key tile 0 is met: the scratch buffers hold the run's stores; the output block is not stored into. -/
def stepC (c : Dev nD) (t : Fin cfg1.N) (hc0 : cond1_0 (grid1.coords t)) (hc1 : cond1_1 (grid1.coords t)) (hc2 : ¬cond1_2 (grid1.coords t)) (hc3 : ¬cond1_3 (grid1.coords t)) : St1 (F := F) :=
  (VO1_3.read (Elt F) VO1_3.junk, VS1_0.read (Elt F) (VS1_0.writes (Elt F) VS1_0.junk (kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 hc2 hc3 (iblk1 V c 0 t) (iblk1 V c 1 t) (iblk1 V c 2 t)).1),
    VS1_1.read (Elt F) (VS1_1.writes (Elt F) VS1_1.junk (kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 hc2 hc3 (iblk1 V c 0 t) (iblk1 V c 1 t) (iblk1 V c 2 t)).2.1), VS1_2.read (Elt F) (VS1_2.writes (Elt F) VS1_2.junk (kernelRun1_C c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 hc2 hc3 (iblk1 V c 0 t) (iblk1 V c 1 t) (iblk1 V c 2 t)).2.2.1))

theorem cover1_B_3 (c : Dev nD) (t : Fin cfg1.N) (hc0 : ¬cond1_0 (grid1.coords t)) (hc1 : ¬cond1_1 (grid1.coords t)) (hc2 : ¬cond1_2 (grid1.coords t)) (hc3 : cond1_3 (grid1.coords t)) (p : St1 (F := F)) (y : S1x1024x64.Idx) : ∃ pc ∈ (kernelRun1_B c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 hc2 hc3 (iblk1 V c 0 t) (iblk1 V c 1 t) (iblk1 V c 2 t) p.2.1 p.2.2.1 p.2.2.2).1, y ∈ pc.1.set :=
  View.cover_of_tiledL (kernelRun1_B c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 hc2 hc3 (iblk1 V c 0 t) (iblk1 V c 1 t) (iblk1 V c 2 t) p.2.1 p.2.2.1 p.2.2.2).1 S1x1024x64.size (by sl_kernel_rfl) y
/-- After the point that only stores the quotient: the scratch buffers as the point before left them. -/
def stepB (c : Dev nD) (t : Fin cfg1.N) (hc0 : ¬cond1_0 (grid1.coords t)) (hc1 : ¬cond1_1 (grid1.coords t)) (hc2 : ¬cond1_2 (grid1.coords t)) (hc3 : cond1_3 (grid1.coords t)) (p : St1 (F := F)) : St1 (F := F) :=
  (VO1_3.read (Elt F) (VO1_3.writes (Elt F) VO1_3.junk (kernelRun1_B c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 hc2 hc3 (iblk1 V c 0 t) (iblk1 V c 1 t) (iblk1 V c 2 t) p.2.1 p.2.2.1 p.2.2.2).1), p.2.1, p.2.2.1, p.2.2.2)

theorem cover1_D_3 (c : Dev nD) (t : Fin cfg1.N) (hc0 : ¬cond1_0 (grid1.coords t)) (hc1 : ¬cond1_1 (grid1.coords t)) (hc2 : cond1_2 (grid1.coords t)) (hc3 : cond1_3 (grid1.coords t)) (p : St1 (F := F)) (y : S1x1024x64.Idx) : ∃ pc ∈ (kernelRun1_D c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 hc2 hc3 (iblk1 V c 0 t) (iblk1 V c 1 t) (iblk1 V c 2 t) p.2.1 p.2.2.1 p.2.2.2).1, y ∈ pc.1.set :=
  View.cover_of_tiledL (kernelRun1_D c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 hc2 hc3 (iblk1 V c 0 t) (iblk1 V c 1 t) (iblk1 V c 2 t) p.2.1 p.2.2.1 p.2.2.2).1 S1x1024x64.size (by sl_kernel_rfl) y
theorem scover1_D_0 (c : Dev nD) (t : Fin cfg1.N) (hc0 : ¬cond1_0 (grid1.coords t)) (hc1 : ¬cond1_1 (grid1.coords t)) (hc2 : cond1_2 (grid1.coords t)) (hc3 : cond1_3 (grid1.coords t)) (p : St1 (F := F)) (y : S1x1024x1.Idx) : ∃ pc ∈ (kernelRun1_D c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 hc2 hc3 (iblk1 V c 0 t) (iblk1 V c 1 t) (iblk1 V c 2 t) p.2.1 p.2.2.1 p.2.2.2).2.1, y ∈ pc.1.set :=
  View.cover_of_tiledL (kernelRun1_D c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 hc2 hc3 (iblk1 V c 0 t) (iblk1 V c 1 t) (iblk1 V c 2 t) p.2.1 p.2.2.1 p.2.2.2).2.1 S1x1024x1.size (by sl_kernel_rfl) y
theorem scover1_D_1 (c : Dev nD) (t : Fin cfg1.N) (hc0 : ¬cond1_0 (grid1.coords t)) (hc1 : ¬cond1_1 (grid1.coords t)) (hc2 : cond1_2 (grid1.coords t)) (hc3 : cond1_3 (grid1.coords t)) (p : St1 (F := F)) (y : S1x1024x1.Idx) : ∃ pc ∈ (kernelRun1_D c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 hc2 hc3 (iblk1 V c 0 t) (iblk1 V c 1 t) (iblk1 V c 2 t) p.2.1 p.2.2.1 p.2.2.2).2.2.1, y ∈ pc.1.set :=
  View.cover_of_tiledL (kernelRun1_D c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 hc2 hc3 (iblk1 V c 0 t) (iblk1 V c 1 t) (iblk1 V c 2 t) p.2.1 p.2.2.1 p.2.2.2).2.2.1 S1x1024x1.size (by sl_kernel_rfl) y
theorem scover1_D_2 (c : Dev nD) (t : Fin cfg1.N) (hc0 : ¬cond1_0 (grid1.coords t)) (hc1 : ¬cond1_1 (grid1.coords t)) (hc2 : cond1_2 (grid1.coords t)) (hc3 : cond1_3 (grid1.coords t)) (p : St1 (F := F)) (y : S1x1024x64.Idx) : ∃ pc ∈ (kernelRun1_D c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 hc2 hc3 (iblk1 V c 0 t) (iblk1 V c 1 t) (iblk1 V c 2 t) p.2.1 p.2.2.1 p.2.2.2).2.2.2.1, y ∈ pc.1.set :=
  View.cover_of_tiledL (kernelRun1_D c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 hc2 hc3 (iblk1 V c 0 t) (iblk1 V c 1 t) (iblk1 V c 2 t) p.2.1 p.2.2.1 p.2.2.2).2.2.2.1 S1x1024x64.size (by sl_kernel_rfl) y
/-- After the point that accumulates the diagonal tile and stores the quotient. -/
def stepD (c : Dev nD) (t : Fin cfg1.N) (hc0 : ¬cond1_0 (grid1.coords t)) (hc1 : ¬cond1_1 (grid1.coords t)) (hc2 : cond1_2 (grid1.coords t)) (hc3 : cond1_3 (grid1.coords t)) (p : St1 (F := F)) : St1 (F := F) :=
  (VO1_3.read (Elt F) (VO1_3.writes (Elt F) VO1_3.junk (kernelRun1_D c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 hc2 hc3 (iblk1 V c 0 t) (iblk1 V c 1 t) (iblk1 V c 2 t) p.2.1 p.2.2.1 p.2.2.2).1), VS1_0.read (Elt F) (VS1_0.writes (Elt F) VS1_0.junk (kernelRun1_D c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 hc2 hc3 (iblk1 V c 0 t) (iblk1 V c 1 t) (iblk1 V c 2 t) p.2.1 p.2.2.1 p.2.2.2).2.1),
    VS1_1.read (Elt F) (VS1_1.writes (Elt F) VS1_1.junk (kernelRun1_D c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 hc2 hc3 (iblk1 V c 0 t) (iblk1 V c 1 t) (iblk1 V c 2 t) p.2.1 p.2.2.1 p.2.2.2).2.2.1), VS1_2.read (Elt F) (VS1_2.writes (Elt F) VS1_2.junk (kernelRun1_D c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 hc2 hc3 (iblk1 V c 0 t) (iblk1 V c 1 t) (iblk1 V c 2 t) p.2.1 p.2.2.1 p.2.2.2).2.2.2.1))

/-! ## The conditions at a point, from its position modulo 4 -/

theorem caseA (t : Fin cfg1.N) (h : t.val % 4 = 0) : cond1_0 (grid1.coords t) ∧ ¬cond1_1 (grid1.coords t) ∧ cond1_2 (grid1.coords t) ∧ ¬cond1_3 (grid1.coords t) :=
  ⟨(hcond1_0 t).mpr (by omega), fun hh => absurd ((hcond1_1 t).mp hh) (by omega), (hcond1_2 t).mpr (by omega), fun hh => absurd ((hcond1_3 t).mp hh) (by omega)⟩
theorem caseB (t : Fin cfg1.N) (h : t.val % 4 = 1) : ¬cond1_0 (grid1.coords t) ∧ ¬cond1_1 (grid1.coords t) ∧ ¬cond1_2 (grid1.coords t) ∧ cond1_3 (grid1.coords t) :=
  ⟨fun hh => absurd ((hcond1_0 t).mp hh) (by omega), fun hh => absurd ((hcond1_1 t).mp hh) (by omega), fun hh => absurd ((hcond1_2 t).mp hh) (by omega), (hcond1_3 t).mpr (by omega)⟩
theorem caseC (t : Fin cfg1.N) (h : t.val % 4 = 2) : cond1_0 (grid1.coords t) ∧ cond1_1 (grid1.coords t) ∧ ¬cond1_2 (grid1.coords t) ∧ ¬cond1_3 (grid1.coords t) :=
  ⟨(hcond1_0 t).mpr (by omega), (hcond1_1 t).mpr (by omega), fun hh => absurd ((hcond1_2 t).mp hh) (by omega), fun hh => absurd ((hcond1_3 t).mp hh) (by omega)⟩
theorem caseD (t : Fin cfg1.N) (h : t.val % 4 = 3) : ¬cond1_0 (grid1.coords t) ∧ ¬cond1_1 (grid1.coords t) ∧ cond1_2 (grid1.coords t) ∧ cond1_3 (grid1.coords t) :=
  ⟨fun hh => absurd ((hcond1_0 t).mp hh) (by omega), fun hh => absurd ((hcond1_1 t).mp hh) (by omega), (hcond1_2 t).mpr (by omega), (hcond1_3 t).mpr (by omega)⟩

/-! ## What the buffers hold after each point -/

/-- THE ACCUMULATION over the grid's points in order. -/
def outsAt1 (c : Dev nD) : (n : ℕ) → n < cfg1.N → St1 (F := F)
  | 0, hn => stepA V c ⟨0, hn⟩ (caseA ⟨0, hn⟩ rfl).1 (caseA ⟨0, hn⟩ rfl).2.1 (caseA ⟨0, hn⟩ rfl).2.2.1 (caseA ⟨0, hn⟩ rfl).2.2.2
  | n + 1, hn =>
    if h0 : (n + 1) % 4 = 0 then stepA V c ⟨n + 1, hn⟩ (caseA ⟨n + 1, hn⟩ h0).1 (caseA ⟨n + 1, hn⟩ h0).2.1 (caseA ⟨n + 1, hn⟩ h0).2.2.1 (caseA ⟨n + 1, hn⟩ h0).2.2.2
    else if h1 : (n + 1) % 4 = 1 then stepB V c ⟨n + 1, hn⟩ (caseB ⟨n + 1, hn⟩ h1).1 (caseB ⟨n + 1, hn⟩ h1).2.1 (caseB ⟨n + 1, hn⟩ h1).2.2.1 (caseB ⟨n + 1, hn⟩ h1).2.2.2 (outsAt1 c n (Nat.lt_of_succ_lt hn))
    else if h2 : (n + 1) % 4 = 2 then stepC V c ⟨n + 1, hn⟩ (caseC ⟨n + 1, hn⟩ h2).1 (caseC ⟨n + 1, hn⟩ h2).2.1 (caseC ⟨n + 1, hn⟩ h2).2.2.1 (caseC ⟨n + 1, hn⟩ h2).2.2.2
    else stepD V c ⟨n + 1, hn⟩ (caseD ⟨n + 1, hn⟩ (show (n + 1) % 4 = 3 by omega)).1 (caseD ⟨n + 1, hn⟩ (show (n + 1) % 4 = 3 by omega)).2.1 (caseD ⟨n + 1, hn⟩ (show (n + 1) % 4 = 3 by omega)).2.2.1 (caseD ⟨n + 1, hn⟩ (show (n + 1) % 4 = 3 by omega)).2.2.2 (outsAt1 c n (Nat.lt_of_succ_lt hn))

theorem outsAt1_A (c : Dev nD) (t : Fin cfg1.N) (h : t.val % 4 = 0) :
    outsAt1 V c t.val t.isLt = stepA V c t (caseA t h).1 (caseA t h).2.1 (caseA t h).2.2.1 (caseA t h).2.2.2 := by
  obtain ⟨n, hn⟩ := t
  cases n with
  | zero => rfl
  | succ n => exact dif_pos h
theorem outsAt1_B (c : Dev nD) (t : Fin cfg1.N) (h : t.val % 4 = 1) :
    outsAt1 V c t.val t.isLt = stepB V c t (caseB t h).1 (caseB t h).2.1 (caseB t h).2.2.1 (caseB t h).2.2.2
      (outsAt1 V c (t.val - 1) (Nat.lt_of_le_of_lt (Nat.sub_le _ _) t.isLt)) := by
  obtain ⟨n, hn⟩ := t
  cases n with
  | zero => exact absurd h (by show ¬ (0 % 4 = _); decide)
  | succ n => exact (dif_neg (by dsimp only at h; omega)).trans (dif_pos h)
theorem outsAt1_C (c : Dev nD) (t : Fin cfg1.N) (h : t.val % 4 = 2) :
    outsAt1 V c t.val t.isLt = stepC V c t (caseC t h).1 (caseC t h).2.1 (caseC t h).2.2.1 (caseC t h).2.2.2 := by
  obtain ⟨n, hn⟩ := t
  cases n with
  | zero => exact absurd h (by show ¬ (0 % 4 = _); decide)
  | succ n => exact (dif_neg (by dsimp only at h; omega)).trans ((dif_neg (by dsimp only at h; omega)).trans (dif_pos h))
theorem outsAt1_D (c : Dev nD) (t : Fin cfg1.N) (h : t.val % 4 = 3) :
    outsAt1 V c t.val t.isLt = stepD V c t (caseD t h).1 (caseD t h).2.1 (caseD t h).2.2.1 (caseD t h).2.2.2
      (outsAt1 V c (t.val - 1) (Nat.lt_of_le_of_lt (Nat.sub_le _ _) t.isLt)) := by
  obtain ⟨n, hn⟩ := t
  cases n with
  | zero => exact absurd h (by show ¬ (0 % 4 = _); decide)
  | succ n => exact (dif_neg (by dsimp only at h; omega)).trans ((dif_neg (by dsimp only at h; omega)).trans (dif_neg (by dsimp only at h; omega)))

/-! ## The invariant: the scratch buffers at what the point before left -/

def PhiS (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f)
      ∗ owns (c : Thread nD τ) scM1_0 fullShare (outsAt1 V c n hn).2.1 ∗ owns (c : Thread nD τ) scM1_1 fullShare (outsAt1 V c n hn).2.2.1
      ∗ owns (c : Thread nD τ) scM1_2 fullShare (outsAt1 V c n hn).2.2.2) ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f)
      ∗ owns (c : Thread nD τ) scM1_0 fullShare (outsAt1 V c n hn).2.1 ∗ owns (c : Thread nD τ) scM1_1 fullShare (outsAt1 V c n hn).2.2.1
      ∗ owns (c : Thread nD τ) scM1_2 fullShare (outsAt1 V c n hn).2.2.2) ∗ (∃ r, prngReg c r)) := rfl
theorem PhiS_pos (c : Dev nD) (n : ℕ) (h : n ≤ cfg1.N) (hz : n ≠ 0) :
    PhiS V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f)
      ∗ owns (c : Thread nD τ) scM1_0 fullShare (outsAt1 V c (n - 1) (by omega)).2.1 ∗ owns (c : Thread nD τ) scM1_1 fullShare (outsAt1 V c (n - 1) (by omega)).2.2.1
      ∗ owns (c : Thread nD τ) scM1_2 fullShare (outsAt1 V c (n - 1) (by omega)).2.2.2) ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS_castSucc (c : Dev nD) (t : Fin cfg1.N) :
    (dat1 V c).Φ t.castSucc = PhiS V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

end Cert.KernelIdeal.Frame

end
-- ==== Proof.KIAttnBody.lean ====
/-
  The attention kernel's body obligation: at every grid point the body, called on the current staging buffers and the
  scratch buffers, runs from the invariant before the point to the invariant after it, leaving each input block in
  place and the output block at what the accumulation says — by the point's position modulo 4.
-/
import proofs.«180255_j27049704030330_2_alg».proof.Proof.KIAttn

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t ∗ (dat1 V c).leavesExact 3 t)

set_option maxHeartbeats 8000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  have hN : t.val < 16 := lt_of_lt_of_eq t.isLt (show cfg1.N = 16 from N_1)
  rcases (show t.val % 4 = 0 ∨ t.val % 4 = 1 ∨ t.val % 4 = 2 ∨ t.val % 4 = 3 by omega) with h | h | h | h
  · -- key tile 0 against query tile 0
    rw [Dat.leavesExact_idle (dat1 V c) 3 t (idleAt1_3 t (caseA t h).2.2.2) (noFlush1_3 t (caseA t h).2.2.2)]
    rw [outsAt1_A V c t h]
    unfold stepA; dsimp only
    by_cases hz : t.val = 0
    · rw [PhiS_castSucc V c t, PhiS_zero V c _ _ hz, PhiA1_eq]
      iintro ⟨⟨⟨R0, R1, R2, R3, R4, R5, R6, R7, R8, R9, R10, HS0, HS1, HS2⟩, Hg⟩, Ho, ⟨%d0, H0⟩, ⟨%d1, H1⟩, ⟨%d2, H2⟩, ⟨%d3, H3⟩⟩
      iapply ((kernelRun1_A c (grid1.coords t) _ _ _ _ _ _ _ _ _ _ _ _ _ _ (caseA t h).1 (caseA t h).2.1 (caseA t h).2.2.1 (caseA t h).2.2.2 (iblk1 V c 0 t) (iblk1 V c 1 t) (iblk1 V c 2 t)).2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%e0, HS0⟩, ⟨%e1, HS1⟩, ⟨%e2, HS2⟩⟩
      isplitl [R0 R1 R2 R3 R4 R5 R6 R7 R8 R9 R10 HS0 HS1 HS2 Hg]
      · isplitl [R0 R1 R2 R3 R4 R5 R6 R7 R8 R9 R10 HS0 HS1 HS2]
        ·
          isplitl [R0]; · iexact R0
          isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          isplitl [R9]; · iexact R9
          isplitl [R10]; · iexact R10
          isplitl [HS0]
          · unfold owns; iexists _; isplitr
            swap; · iexact HS0
            ipureintro; exact View.read_writes_of_cover _ _ _ _ _ (scover1_A_0 V c t _ _ _ _ )
          isplitl [HS1]
          · unfold owns; iexists _; isplitr
            swap; · iexact HS1
            ipureintro; exact View.read_writes_of_cover _ _ _ _ _ (scover1_A_1 V c t _ _ _ _ )
          unfold owns; iexists _; isplitr
          swap; · iexact HS2
          ipureintro; exact View.read_writes_of_cover _ _ _ _ _ (scover1_A_2 V c t _ _ _ _ )
        iexact Hg
      isplitl [Ho]; · iexact Ho
      isplitl [H0]; · iexact H0
      isplitl [H1]; · iexact H1
      isplitl [H2]; · iexact H2
      iexists _; iexact H3
    · rw [PhiS_castSucc V c t, PhiS_pos V c _ _ hz]
      iintro ⟨⟨⟨R0, R1, R2, R3, R4, R5, R6, R7, R8, R9, R10, HS0, HS1, HS2⟩, Hg⟩, Ho, ⟨%d0, H0⟩, ⟨%d1, H1⟩, ⟨%d2, H2⟩, ⟨%d3, H3⟩⟩
      iapply ((kernelRun1_A c (grid1.coords t) _ _ _ _ _ _ _ _ _ _ _ _ _ _ (caseA t h).1 (caseA t h).2.1 (caseA t h).2.2.1 (caseA t h).2.2.2 (iblk1 V c 0 t) (iblk1 V c 1 t) (iblk1 V c 2 t)).2.2.2 _ Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      isplitl [HS2]; · iexists _; iexact HS2
      iintro ⟨H0, H1, H2, H3, ⟨%e0, HS0⟩, ⟨%e1, HS1⟩, ⟨%e2, HS2⟩⟩
      isplitl [R0 R1 R2 R3 R4 R5 R6 R7 R8 R9 R10 HS0 HS1 HS2 Hg]
      · isplitl [R0 R1 R2 R3 R4 R5 R6 R7 R8 R9 R10 HS0 HS1 HS2]
        ·
          isplitl [R0]; · iexact R0
          isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          isplitl [R9]; · iexact R9
          isplitl [R10]; · iexact R10
          isplitl [HS0]
          · unfold owns; iexists _; isplitr
            swap; · iexact HS0
            ipureintro; exact View.read_writes_of_cover _ _ _ _ _ (scover1_A_0 V c t _ _ _ _ )
          isplitl [HS1]
          · unfold owns; iexists _; isplitr
            swap; · iexact HS1
            ipureintro; exact View.read_writes_of_cover _ _ _ _ _ (scover1_A_1 V c t _ _ _ _ )
          unfold owns; iexists _; isplitr
          swap; · iexact HS2
          ipureintro; exact View.read_writes_of_cover _ _ _ _ _ (scover1_A_2 V c t _ _ _ _ )
        iexact Hg
      isplitl [Ho]; · iexact Ho
      isplitl [H0]; · iexact H0
      isplitl [H1]; · iexact H1
      isplitl [H2]; · iexact H2
      iexists _; iexact H3
  · -- key tile 1 against query tile 0: only the quotient is stored
    rw [show (dat1 V c).leavesExact 3 t = owns (c : Thread nD τ) (ms1_3 t) fullShare ((dat1 V c).after 3 t) from by
      unfold Dat.leavesExact; rw [liveAt1_3 t (caseB t h).2.2.2], after1_3]
    rw [outsAt1_B V c t h]
    unfold stepB; dsimp only
    rw [PhiS_castSucc V c t, PhiS_pos V c _ _ (by omega)]
    iintro ⟨⟨⟨R0, R1, R2, R3, R4, R5, R6, R7, R8, R9, R10, HS0, HS1, HS2⟩, Hg⟩, Ho, ⟨%d0, H0⟩, ⟨%d1, H1⟩, ⟨%d2, H2⟩, ⟨%d3, H3⟩⟩
    iapply ((kernelRun1_B c (grid1.coords t) _ _ _ _ _ _ _ _ _ _ _ _ _ _ (caseB t h).1 (caseB t h).2.1 (caseB t h).2.2.1 (caseB t h).2.2.2 (iblk1 V c 0 t) (iblk1 V c 1 t) (iblk1 V c 2 t) _ _ _).2 Set.univ _)
    isplitl [H0]; · iexact H0
    isplitl [H1]; · iexact H1
    isplitl [H2]; · iexact H2
    isplitl [H3]; · iexists _; iexact H3
    isplitl [HS0]; · iexact HS0
    isplitl [HS1]; · iexact HS1
    isplitl [HS2]; · iexact HS2
    iintro ⟨H0, H1, H2, ⟨%e3, H3⟩, HS0, HS1, HS2⟩
    isplitl [R0 R1 R2 R3 R4 R5 R6 R7 R8 R9 R10 HS0 HS1 HS2 Hg]
    · isplitl [R0 R1 R2 R3 R4 R5 R6 R7 R8 R9 R10 HS0 HS1 HS2]
      ·
        isplitl [R0]; · iexact R0
        isplitl [R1]; · iexact R1
        isplitl [R2]; · iexact R2
        isplitl [R3]; · iexact R3
        isplitl [R4]; · iexact R4
        isplitl [R5]; · iexact R5
        isplitl [R6]; · iexact R6
        isplitl [R7]; · iexact R7
        isplitl [R8]; · iexact R8
        isplitl [R9]; · iexact R9
        isplitl [R10]; · iexact R10
        isplitl [HS0]; · iexact HS0
        isplitl [HS1]; · iexact HS1
        iexact HS2
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover1_B_3 V c t _ _ _ _ _)
  · -- key tile 0 against query tile 1
    rw [Dat.leavesExact_idle (dat1 V c) 3 t (idleAt1_3 t (caseC t h).2.2.2) (noFlush1_3 t (caseC t h).2.2.2)]
    rw [outsAt1_C V c t h]
    unfold stepC; dsimp only
    rw [PhiS_castSucc V c t, PhiS_pos V c _ _ (by omega)]
    iintro ⟨⟨⟨R0, R1, R2, R3, R4, R5, R6, R7, R8, R9, R10, HS0, HS1, HS2⟩, Hg⟩, Ho, ⟨%d0, H0⟩, ⟨%d1, H1⟩, ⟨%d2, H2⟩, ⟨%d3, H3⟩⟩
    iapply ((kernelRun1_C c (grid1.coords t) _ _ _ _ _ _ _ _ _ _ _ _ _ _ (caseC t h).1 (caseC t h).2.1 (caseC t h).2.2.1 (caseC t h).2.2.2 (iblk1 V c 0 t) (iblk1 V c 1 t) (iblk1 V c 2 t)).2.2.2 _ Set.univ _)
    isplitl [H0]; · iexact H0
    isplitl [H1]; · iexact H1
    isplitl [H2]; · iexact H2
    isplitl [H3]; · iexact H3
    isplitl [HS0]; · iexists _; iexact HS0
    isplitl [HS1]; · iexists _; iexact HS1
    isplitl [HS2]; · iexists _; iexact HS2
    iintro ⟨H0, H1, H2, H3, ⟨%e0, HS0⟩, ⟨%e1, HS1⟩, ⟨%e2, HS2⟩⟩
    isplitl [R0 R1 R2 R3 R4 R5 R6 R7 R8 R9 R10 HS0 HS1 HS2 Hg]
    · isplitl [R0 R1 R2 R3 R4 R5 R6 R7 R8 R9 R10 HS0 HS1 HS2]
      ·
        isplitl [R0]; · iexact R0
        isplitl [R1]; · iexact R1
        isplitl [R2]; · iexact R2
        isplitl [R3]; · iexact R3
        isplitl [R4]; · iexact R4
        isplitl [R5]; · iexact R5
        isplitl [R6]; · iexact R6
        isplitl [R7]; · iexact R7
        isplitl [R8]; · iexact R8
        isplitl [R9]; · iexact R9
        isplitl [R10]; · iexact R10
        isplitl [HS0]
        · unfold owns; iexists _; isplitr
          swap; · iexact HS0
          ipureintro; exact View.read_writes_of_cover _ _ _ _ _ (scover1_C_0 V c t _ _ _ _ )
        isplitl [HS1]
        · unfold owns; iexists _; isplitr
          swap; · iexact HS1
          ipureintro; exact View.read_writes_of_cover _ _ _ _ _ (scover1_C_1 V c t _ _ _ _ )
        unfold owns; iexists _; isplitr
        swap; · iexact HS2
        ipureintro; exact View.read_writes_of_cover _ _ _ _ _ (scover1_C_2 V c t _ _ _ _ )
      iexact Hg
    isplitl [Ho]; · iexact Ho
    isplitl [H0]; · iexact H0
    isplitl [H1]; · iexact H1
    isplitl [H2]; · iexact H2
    iexists _; iexact H3
  · -- key tile 1 against query tile 1
    rw [show (dat1 V c).leavesExact 3 t = owns (c : Thread nD τ) (ms1_3 t) fullShare ((dat1 V c).after 3 t) from by
      unfold Dat.leavesExact; rw [liveAt1_3 t (caseD t h).2.2.2], after1_3]
    rw [outsAt1_D V c t h]
    unfold stepD; dsimp only
    rw [PhiS_castSucc V c t, PhiS_pos V c _ _ (by omega)]
    iintro ⟨⟨⟨R0, R1, R2, R3, R4, R5, R6, R7, R8, R9, R10, HS0, HS1, HS2⟩, Hg⟩, Ho, ⟨%d0, H0⟩, ⟨%d1, H1⟩, ⟨%d2, H2⟩, ⟨%d3, H3⟩⟩
    iapply ((kernelRun1_D c (grid1.coords t) _ _ _ _ _ _ _ _ _ _ _ _ _ _ (caseD t h).1 (caseD t h).2.1 (caseD t h).2.2.1 (caseD t h).2.2.2 (iblk1 V c 0 t) (iblk1 V c 1 t) (iblk1 V c 2 t) _ _ _).2.2.2.2 Set.univ _)
    isplitl [H0]; · iexact H0
    isplitl [H1]; · iexact H1
    isplitl [H2]; · iexact H2
    isplitl [H3]; · iexists _; iexact H3
    isplitl [HS0]; · iexact HS0
    isplitl [HS1]; · iexact HS1
    isplitl [HS2]; · iexact HS2
    iintro ⟨H0, H1, H2, ⟨%e3, H3⟩, ⟨%e0, HS0⟩, ⟨%e1, HS1⟩, ⟨%e2, HS2⟩⟩
    isplitl [R0 R1 R2 R3 R4 R5 R6 R7 R8 R9 R10 HS0 HS1 HS2 Hg]
    · isplitl [R0 R1 R2 R3 R4 R5 R6 R7 R8 R9 R10 HS0 HS1 HS2]
      ·
        isplitl [R0]; · iexact R0
        isplitl [R1]; · iexact R1
        isplitl [R2]; · iexact R2
        isplitl [R3]; · iexact R3
        isplitl [R4]; · iexact R4
        isplitl [R5]; · iexact R5
        isplitl [R6]; · iexact R6
        isplitl [R7]; · iexact R7
        isplitl [R8]; · iexact R8
        isplitl [R9]; · iexact R9
        isplitl [R10]; · iexact R10
        isplitl [HS0]
        · unfold owns; iexists _; isplitr
          swap; · iexact HS0
          ipureintro; exact View.read_writes_of_cover _ _ _ _ _ (scover1_D_0 V c t _ _ _ _ _ )
        isplitl [HS1]
        · unfold owns; iexists _; isplitr
          swap; · iexact HS1
          ipureintro; exact View.read_writes_of_cover _ _ _ _ _ (scover1_D_1 V c t _ _ _ _ _ )
        unfold owns; iexists _; isplitr
        swap; · iexact HS2
        ipureintro; exact View.read_writes_of_cover _ _ _ _ _ (scover1_D_2 V c t _ _ _ _ _ )
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover1_D_3 V c t _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the pipeline hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives back what the pipeline takes: the scratch buffers' contents are forgotten. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 16 := N_1; omega), PhiA1_eq]
  iintro ⟨⟨R0, R1, R2, R3, R4, R5, R6, R7, R8, R9, R10, HS0, HS1, HS2⟩, Hg⟩
  isplitl [R0 R1 R2 R3 R4 R5 R6 R7 R8 R9 R10 HS0 HS1 HS2]
  ·
    isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [HS0]; · iexists _; iexact HS0
    isplitl [HS1]; · iexists _; iexact HS1
    iexists _; iexact HS2
  iexact Hg

end Cert.KernelIdeal.Frame

end
-- ==== Proof.KIRun.lean ====
/-
  The whole run of the two-kernel program at any float instance: @main is the projection region followed by the
  attention region, with no host operation between them. Every weakly fair execution terminates; the four argument
  arrays end as launched, and the result array holds what the attention pipeline's write-backs leave.
-/
import proofs.«180255_j27049704030330_2_alg».proof.Proof.KIProj
import proofs.«180255_j27049704030330_2_alg».proof.Proof.KIAttnBody

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch (the projection region's entry). -/
abbrev W0 : Dev nD → Valuation τ sig (Elt F) := fun c b => m (c, b)
abbrev V1 : (c : Dev nD) → (b : Ref sig .tc) → Buf (Elt F) ((c : Thread nD τ).loc b) := fun c b => W0 m c b
/-- After the projection region: q, k, v at what its write-backs leave, every other buffer as launched. -/
def W2 (c : Dev nD) : Valuation τ sig (Elt F) :=
  Pipeline.withArrays spec0 c (W0 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W0 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)
/-- After the attention region: the result at what its write-backs leave, every other buffer as entered. -/
def W4 (c : Dev nD) : Valuation τ sig (Elt F) :=
  Pipeline.withArrays spec1 c (W2 m c) fun w => (dat1 (V2 m) c).arrAt w cfg1.N
theorem W4_arr (c : Dev nD) (w : Fin cfg1.W) :
    W4 m c (Proc.devRef .tc (Pipeline.arrRef spec1 w)) = (dat1 (V2 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W2 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V2 m) c).arrAt w cfg1.N = V4 m c (Pipeline.arrRef spec1 w) :=
  (W4_arr m c w).symm
theorem hrest1 (c : Dev nD) : ∀ b, b ∉ Finset.univ.image (Pipeline.arrRef spec1) → V4 m c b = V2 m c b :=
  fun b hb => W4_of_ne m c b fun w e => hb (Finset.mem_image.mpr ⟨w, Finset.mem_univ _, e⟩)

/-! ### The arguments end as launched: each is an input window of the projection region and no array of the attention region -/

theorem W4_main_arg0 (c : Dev nD) : W4 m c (Proc.devRef .tc main_arg0) = m ((c : Thread nD τ).loc main_arg0) :=
  calc W4 m c (Proc.devRef .tc main_arg0)
    _ = W2 m c (Proc.devRef .tc main_arg0) := W4_of_ne m c main_arg0 (by decide)
    _ = W0 m c (Proc.devRef .tc main_arg0) := (W2_arr m c 0).trans (((dat0 (V1 m) c).arrAt_in 0 rfl _).trans (A_eq0 (V1 m) c 0))
    _ = m ((c : Thread nD τ).loc main_arg0) := rfl
theorem W4_main_arg1 (c : Dev nD) : W4 m c (Proc.devRef .tc main_arg1) = m ((c : Thread nD τ).loc main_arg1) :=
  calc W4 m c (Proc.devRef .tc main_arg1)
    _ = W2 m c (Proc.devRef .tc main_arg1) := W4_of_ne m c main_arg1 (by decide)
    _ = W0 m c (Proc.devRef .tc main_arg1) := (W2_arr m c 1).trans (((dat0 (V1 m) c).arrAt_in 1 rfl _).trans (A_eq0 (V1 m) c 1))
    _ = m ((c : Thread nD τ).loc main_arg1) := rfl
theorem W4_main_arg2 (c : Dev nD) : W4 m c (Proc.devRef .tc main_arg2) = m ((c : Thread nD τ).loc main_arg2) :=
  calc W4 m c (Proc.devRef .tc main_arg2)
    _ = W2 m c (Proc.devRef .tc main_arg2) := W4_of_ne m c main_arg2 (by decide)
    _ = W0 m c (Proc.devRef .tc main_arg2) := (W2_arr m c 2).trans (((dat0 (V1 m) c).arrAt_in 2 rfl _).trans (A_eq0 (V1 m) c 2))
    _ = m ((c : Thread nD τ).loc main_arg2) := rfl
theorem W4_main_arg3 (c : Dev nD) : W4 m c (Proc.devRef .tc main_arg3) = m ((c : Thread nD τ).loc main_arg3) :=
  calc W4 m c (Proc.devRef .tc main_arg3)
    _ = W2 m c (Proc.devRef .tc main_arg3) := W4_of_ne m c main_arg3 (by decide)
    _ = W0 m c (Proc.devRef .tc main_arg3) := (W2_arr m c 3).trans (((dat0 (V1 m) c).arrAt_in 3 rfl _).trans (A_eq0 (V1 m) c 3))
    _ = m ((c : Thread nD τ).loc main_arg3) := rfl

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c
abbrev 𝒱₀ : Variants := Variants.none
abbrev L : GSem nD τ sig → Finset Unit := fun _ => ∅
abbrev lv : GSem nD τ sig → Unit → ℕ := fun _ _ => 0
/-- What rides beside the buffers through both regions: the generator register at some state, and nothing owed. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 (V2 m) c)
    unfold Pipeline.ΦA
    iintro ⟨Hp, -, Hr⟩
    isplitl [Hr]; · iexact Hr
    iexact Hp
  hout c := by
    rw [Pipeline.ownSems0_none]
    refine (hout1 (V2 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V2 m c) (V4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The launch -/

abbrev segs : List (Pipeline.Seg (pcfgs (F := F)) adm (pdats m) () defs₀ 𝒱₀ L lv) :=
  [ .region (reg0 m), .region (reg1 m) ]
theorem main_run (c : Dev nD) : main (F := F) c = Pipeline.Seg.run (segs m) := (main_chain c).trans (by chain_rfl)

set_option backward.isDefEq.respectTransparency.types false in
/-- THE RUN, at any float instance: from any memory with zero counters every weakly fair execution of @main terminates,
    nothing faulting; the result array ends at what the attention pipeline's write-backs leave and the four argument
    arrays end as launched. -/
theorem run_main : θ_run defs (onTc (τ := τ) (main (F := F))) ⟨m, fun _ => 0, ρ⟩ (fun r => ∀ c : Dev nD,
      r.2.mem ((c.tc : Thread nD τ).loc main_v1) = (dat1 (V2 m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c =>
      ⟨(h c _ (mem_uc main_v1 (by decide))).trans (W4_arr m c 3),
       (h c _ (mem_uc main_arg0 (by decide))).trans (W4_main_arg0 m c),
       (h c _ (mem_uc main_arg1 (by decide))).trans (W4_main_arg1 m c),
       (h c _ (mem_uc main_arg2 (by decide))).trans (W4_main_arg2 m c),
       (h c _ (mem_uc main_arg3 (by decide))).trans (W4_main_arg3 m c)⟩)

/-- THE FRAME. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => (h c).2) (run_main m ρ)

end Cert.KernelIdeal.Frame

end
-- ==== Proof.AttnSpec.lean ====
/-
  Causal single-head attention with the scores scaled by 8, as ONE function of the four argument arrays over the
  extended reals, and the row-wise objects both programs are compared through.

  For an input x : [4, 2048, 1024] and weights W : [64, 1024] the projection is  proj x W b t h = ∑ d, x b t d · W h d.
  With q, k, v the projections by Wq, Wk, Wv, the score of query row i against key row j is
  (∑ h, q b i h · k b j h) · 8, kept for j ≤ i and replaced by ⊥ for j > i; the result's row i is the softmax of
  its masked scores (shifted by their largest value, taken from ⊥) weighting the rows of v.

  A row's softmax-weighted sum can also be accumulated tile by tile, keeping a running maximum m, a running
  denominator l and a running numerator acc (`St`, `upd`, `fin`); `ref` is the one-pass form.
-/
import Idealize.ShloMosaic.Lib.ValueIdx
import Idealize.ShloMosaic.PureOps.Ideal.Laws

noncomputable section

namespace Cert.Attn

open Idealize.ShloMosaic Idealize.ShloMosaic.ValueIdx

namespace Row

/-- The largest entry of a tile, taken from `⊥`. -/
def tmax {n : ℕ} (t : Fin n → EReal) : EReal := (Finset.univ : Finset (Fin n)).fold max ⊥ t

/-- A row's running state: the largest score met so far, the sum of the shifted exponentials, and per output
    column the sum of the shifted exponentials times the values. -/
structure St (H : ℕ) where
  m : EReal
  l : EReal
  acc : Fin H → EReal

/-- Before any tile. -/
def init {H : ℕ} : St H := ⟨⊥, 0, fun _ => 0⟩

/-- One more tile of scores `t` with values `u`: the maximum grows, what was accumulated is rescaled to it. -/
def upd {H n : ℕ} (s : St H) (t : Fin n → EReal) (u : Fin n → Fin H → EReal) : St H where
  m := max s.m (tmax t)
  l := Ideal.exp (s.m - max s.m (tmax t)) * s.l + ∑ j : Fin n, Ideal.exp (t j - max s.m (tmax t))
  acc := fun h => Ideal.exp (s.m - max s.m (tmax t)) * s.acc h
    + ∑ j : Fin n, Ideal.exp (t j - max s.m (tmax t)) * u j h

/-- The row's result: numerator over denominator. -/
def fin {H : ℕ} (s : St H) (h : Fin H) : EReal := Ideal.div (s.acc h) s.l

/-- The one-pass form over a whole row of `N` scores: the shifted softmax weighting the values. -/
def ref {H N : ℕ} (t : Fin N → EReal) (u : Fin N → Fin H → EReal) (h : Fin H) : EReal :=
  ∑ j : Fin N, Ideal.div (Ideal.exp (t j - max ⊥ (tmax t))) (∑ k : Fin N, Ideal.exp (t k - max ⊥ (tmax t))) * u j h

end Row

/-- The projection of `x` by a weight matrix. -/
def proj (x : (⟨3, ![4, 2048, 1024]⟩ : Shape).Idx → EReal) (w : (⟨2, ![64, 1024]⟩ : Shape).Idx → EReal)
    (b : Fin 4) (t : Fin 2048) (h : Fin 64) : EReal :=
  ∑ d : Fin 1024, x (ix3 b t d) * w (ix2 h d)

/-- The scaled score of query row `i` against key row `j` of batch `b`. -/
def score (x : (⟨3, ![4, 2048, 1024]⟩ : Shape).Idx → EReal) (wq wk : (⟨2, ![64, 1024]⟩ : Shape).Idx → EReal)
    (b : Fin 4) (i j : Fin 2048) : EReal :=
  (∑ h : Fin 64, proj x wq b i h * proj x wk b j h) * 8

/-- The causal mask: a key after the query scores `⊥`. -/
def mscore (x : (⟨3, ![4, 2048, 1024]⟩ : Shape).Idx → EReal) (wq wk : (⟨2, ![64, 1024]⟩ : Shape).Idx → EReal)
    (b : Fin 4) (i j : Fin 2048) : EReal :=
  if j.val ≤ i.val then score x wq wk b i j else ⊥

/-- THE RESULT, entry (b, i, h). The weights come in the programs' argument order: Wk, Wq, Wv. -/
def G (x : (⟨3, ![4, 2048, 1024]⟩ : Shape).Idx → EReal) (wk wq wv : (⟨2, ![64, 1024]⟩ : Shape).Idx → EReal)
    (b : Fin 4) (i : Fin 2048) (h : Fin 64) : EReal :=
  Row.ref (fun j : Fin 2048 => mscore x wq wk b i j) (fun j h' => proj x wv b j h') h

end Cert.Attn

end
-- ==== Proof.LibContract.lean ====
/-
  A contraction over ONE axis read at an output index, at the ideal values: whatever the operands' ranks and whichever
  axes are batched, kept or contracted, the product's entry is the sum over the contracted coordinate `k` of the left
  operand at an index `L k` times the right operand at an index `R k`, once the dimension numbers' two index maps are
  known at each `k` (`hL`, `hR`: for a literal record, coordinate by coordinate, by evaluation). Stated for the
  raw sum (`sum_contr`), for a kernel's product into the zero splat (`matmul_zero`) and for the host's (`dotGeneral`).
-/
import Idealize.ShloMosaic.Lib.ValueIdx
import Idealize.ShloMosaic.PureOps.Ideal.Laws

namespace Contract1

open Idealize.ShloMosaic Idealize.ShloMosaic.ValueIdx

variable {sl sr so : Shape} {φ₁ φ₂ : FTy}

/-- The contraction's sum re-indexed by the one contracted coordinate. -/
theorem sum_contr (D : DotDims sl sr so) (K : ℕ) (hr : D.contr.rank = 1) (hs : D.contr.size ⟨0, by omega⟩ = K)
    (x : sl.Idx → EReal) (w : sr.Idx → EReal) (j : so.Idx) (L : Fin K → sl.Idx) (R : Fin K → sr.Idx)
    (hL : ∀ (k : Fin K) (q : D.contr.Idx), (q ⟨0, by omega⟩).val = k.val → D.lhsIdx j q = L k)
    (hR : ∀ (k : Fin K) (q : D.contr.Idx), (q ⟨0, by omega⟩).val = k.val → D.rhsIdx j q = R k) :
    ∑ q : D.contr.Idx, x (D.lhsIdx j q) * w (D.rhsIdx j q) = ∑ k : Fin K, x (L k) * w (R k) := by
  rw [← Equiv.sum_comp (contrEquiv1 D K hr hs).symm]
  refine Finset.sum_congr rfl fun k _ => ?_
  have hk := contrEquiv1_symm_val D K hr hs k
  rw [hL k _ hk, hR k _ hk]

/-- A kernel's product into the zero splat at an output index. -/
theorem matmul_zero (D : DotDims sl sr so) (K : ℕ) (hr : D.contr.rank = 1) (hs : D.contr.size ⟨0, by omega⟩ = K)
    (prec : Option ContractPrecision) (x : FVec Ideal sl φ₁) (w : FVec Ideal sr φ₂) (j : so.Idx)
    (L : Fin K → sl.Idx) (R : Fin K → sr.Idx)
    (hL : ∀ (k : Fin K) (q : D.contr.Idx), (q ⟨0, by omega⟩).val = k.val → D.lhsIdx j q = L k)
    (hR : ∀ (k : Fin K) (q : D.contr.Idx), (q ⟨0, by omega⟩).val = k.val → D.rhsIdx j q = R k) :
    matmul D prec x w (constant (F := Ideal) so .f32 0x00000000#32) j = ∑ k : Fin K, x (L k) * w (R k) :=
  (Ideal.matmul_constant_zero_apply D prec x w j).trans (sum_contr D K hr hs x w j L R hL hR)

/-- The host's product at an output index: the same sum. -/
theorem dotGeneral (D : DotDims sl sr so) (K : ℕ) (hr : D.contr.rank = 1) (hs : D.contr.size ⟨0, by omega⟩ = K)
    (prec : Option ContractPrecision) (x : FVec Ideal sl φ₁) (w : FVec Ideal sr φ₂) (j : so.Idx)
    (L : Fin K → sl.Idx) (R : Fin K → sr.Idx)
    (hL : ∀ (k : Fin K) (q : D.contr.Idx), (q ⟨0, by omega⟩).val = k.val → D.lhsIdx j q = L k)
    (hR : ∀ (k : Fin K) (q : D.contr.Idx), (q ⟨0, by omega⟩).val = k.val → D.rhsIdx j q = R k) :
    Host.dotGeneral D prec x w j = ∑ k : Fin K, x (L k) * w (R k) :=
  (Ideal.dotGeneral_apply D prec .single x w j).trans (sum_contr D K hr hs x w j L R hL hR)

end Contract1
-- ==== Proof.LibLayout.lean ====
/-
  Three small readings of layout operations at an index given by coordinates, for the column forms a row reduction
  with kept dimensions produces: a vector of `a` entries cast to one column `[a, 1]`, a column broadcast along
  the rows `[a, 1] → [a, b]`, and the index a row sum inserts on the reduced axis.
-/
import Idealize.ShloMosaic.Lib.ValueLayout
import Idealize.ShloMosaic.PureOps.Ideal.Laws

namespace Cert.Attn.Layout

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index a sum along the rows inserts: row `p` with column `k` put back is `(p, k)`. -/
theorem lift_row {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- A sum along the rows of an `[a, b]` array of extended reals, read at row `p`: the sum of the row's entries. -/
theorem rowSum_apply {a b : ℕ} (src : FVec Ideal ⟨2, ![a, b]⟩ .f32) (h : (⟨2, ![a, b]⟩ : Shape).Reduces [1] (⟨1, ![a]⟩ : Shape))
    (hφ : FKind.Formats .f32) (hacc : (0x00000000#32 : BitVec 32) = FKind.add.neutral .f32 hφ) (p : Fin a) :
    multiReduction .add [1] (⟨1, ![a]⟩ : Shape) src 0x00000000#32 h hφ hacc (ix1 p) = ∑ k : Fin b, src (ix2 p k) := by
  refine (Ideal.multiReduction_add_single src 0x00000000#32 h hφ hacc (ix1 p)).trans ?_
  exact Finset.sum_congr rfl fun k _ => congrArg src (lift_row h p k)

end Cert.Attn.Layout
-- ==== Proof.LibLay3.lean ====
/-
  Readings, at an index given by coordinates, of the layout operations a normalisation over the last axis of a
  rank-three array and a split of a matrix's rows into groups produce; and a row maximum read as a fold.
-/
import Idealize.ShloMosaic.Lib.ValueLayout
import Idealize.ShloMosaic.PureOps.Ideal.Laws
import proofs.«180255_j27049704030330_2_alg».proof.Proof.LibLayout

namespace Cert.GQA.Lay

open Idealize.ShloMosaic Idealize.ShloMosaic.ValueIdx

variable {α : Type}

/-- Rows `0 … c - 1` with `c = a · b` split into `a` groups of `b`: entry `(p, q, k)` is entry `(p · b + q, k)` of the matrix. -/
theorem shapeCast_cd_abd_apply {a b c d : ℕ} (x : (⟨2, ![c, d]⟩ : Shape).Idx → α)
    (h : (⟨2, ![c, d]⟩ : Shape).ShapeCasts ⟨3, ![a, b, d]⟩) (p : Fin a) (q : Fin b) (k : Fin d) (r : Fin c)
    (hr : r.val = p.val * b + q.val) : shapeCast ⟨3, ![a, b, d]⟩ x h (ix3 p q k) = x (ix2 r k) :=
  shapeCast_apply x h _ _ (by
    rw [Shape.rowMajor_val_two, Shape.rowMajor_val_three]
    show r.val * d + k.val = (p.val * b + q.val) * d + k.val
    rw [hr])

/-- A rank-three array cut along its leading axis from `o` reads, at `(j, a, e)`, the source at `(o + j, a, e)`. -/
theorem slice3_axis0_apply {n0 n1 n2 m : ℕ} (o : ℕ) (X : (⟨3, ![n0, n1, n2]⟩ : Shape).Idx → α)
    (h : (⟨3, ![n0, n1, n2]⟩ : Shape).Slices ![o, 0, 0] ⟨3, ![m, n1, n2]⟩)
    (j : Fin m) (a : Fin n1) (e : Fin n2) (k : Fin n0) (hk : k.val = o + j.val) :
    extractStridedSlice ⟨3, ![m, n1, n2]⟩ ![o, 0, 0] X h (ix3 j a e) = X (ix3 k a e) :=
  extractStridedSlice_apply _ _ _ _ _ (fun ax => by
    match ax with
    | ⟨0, _⟩ => exact hk
    | ⟨1, _⟩ => exact (Nat.zero_add _).symm
    | ⟨2, _⟩ => exact (Nat.zero_add _).symm)

/-- A matrix given a trailing unit axis: entry `(p, q, u)` is entry `(p, q)`. -/
theorem shapeCast_ab_ab1_apply {a b : ℕ} (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) :=
  shapeCast_apply x h _ _ (by
    have hu : u.val = 0 := by omega
    rw [Shape.rowMajor_val_two, Shape.rowMajor_val_three]
    show p.val * b + q.val = (p.val * b + q.val) * 1 + u.val
    rw [hu, Nat.mul_one, Nat.add_zero])

/-- A trailing unit axis broadcast: entry `(p, q, k)` of the `[a, b, d]` array is entry `(p, q, 0)` of the `[a, b, 1]` one. -/
theorem broadcastTo_ab1_abd_apply {a b d : ℕ} (v : (⟨3, ![a, b, 1]⟩ : Shape).Idx → α)
    (h : (⟨3, ![a, b, 1]⟩ : Shape).Broadcasts ⟨3, ![a, b, d]⟩) (p : Fin a) (q : Fin b) (k : Fin d) :
    broadcastTo ⟨3, ![a, b, d]⟩ v h (ix3 p q k) = v (ix3 p q (0 : Fin 1)) := by
  refine broadcastTo_apply v h (ix3 p q k) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- A vector given two leading unit axes: entry `(u, v, k)` is entry `k`. -/
theorem shapeCast_d_11d_apply {d : ℕ} (x : (⟨1, ![d]⟩ : Shape).Idx → α)
    (h : (⟨1, ![d]⟩ : Shape).ShapeCasts ⟨3, ![1, 1, d]⟩) (u v : Fin 1) (k : Fin d) :
    shapeCast ⟨3, ![1, 1, d]⟩ x h (ix3 u v k) = x (ix1 k) :=
  shapeCast_apply x h _ _ (by
    have hu : u.val = 0 := by omega
    have hv : v.val = 0 := by omega
    rw [Shape.rowMajor_val_one, Shape.rowMajor_val_three]
    show k.val = (u.val * 1 + v.val) * d + k.val
    rw [hu, hv]; simp)

/-- Two leading unit axes broadcast: entry `(p, q, k)` of the `[a, b, d]` array is entry `(0, 0, k)` of the `[1, 1, d]` one. -/
theorem broadcastTo_11d_abd_apply {a b d : ℕ} (v : (⟨3, ![1, 1, d]⟩ : Shape).Idx → α)
    (h : (⟨3, ![1, 1, d]⟩ : Shape).Broadcasts ⟨3, ![a, b, d]⟩) (p : Fin a) (q : Fin b) (k : Fin d) :
    broadcastTo ⟨3, ![a, b, d]⟩ v h (ix3 p q k) = v (ix3 (0 : Fin 1) (0 : Fin 1) k) := by
  refine broadcastTo_apply v h (ix3 p q k) (ix3 (0 : Fin 1) (0 : Fin 1) k) fun ax => ?_
  match ax with
  | ⟨0, _⟩ => rfl
  | ⟨1, _⟩ => rfl
  | ⟨2, _⟩ =>
    show k.val = if d = 1 then 0 else k.val
    split
    · have := k.isLt; omega
    · rfl

/-- The largest entry of row `p` of an `[a, b]` array of extended reals, taken from the accumulator's value: the fold
    of `max` over the row's entries. -/
theorem rowMax_apply {a b : ℕ} (src : FVec Ideal ⟨2, ![a, b]⟩ .f32) (acc : BitVec 32)
    (h : (⟨2, ![a, b]⟩ : Shape).Reduces [1] (⟨1, ![a]⟩ : Shape)) (hφ : FKind.Formats .f32)
    (hacc : acc = FKind.maximumf.neutral .f32 hφ) (p : Fin a) :
    multiReduction .maximumf [1] (⟨1, ![a]⟩ : Shape) src acc h hφ hacc (ix1 p)
      = (Finset.univ : Finset (Fin b)).fold max (Ideal.ofBits .f32 acc) (fun k => src (ix2 p k)) := by
  refine (Ideal.multiReduction_maximumf_single src acc h hφ hacc (ix1 p)).trans ?_
  exact congrArg (Finset.fold max (Ideal.ofBits .f32 acc) · (Finset.univ : Finset (Fin b)))
    (funext fun k => congrArg src (Cert.Attn.Layout.lift_row h p k))

end Cert.GQA.Lay
-- ==== Proof.KIProjValue.lean ====
/-
  The projection region's value at the ideal instance: after its eight grid points the three output arrays hold the
  projections of x by the three weight matrices, q = x·Wqᵀ, k = x·Wkᵀ, v = x·Wvᵀ, entry by entry
  (b, t, h) ↦ ∑ d, x (b, t, d) · W (h, d).

  Each point multiplies its [1024, 1024] block of x (rows 1024·(t mod 2) … of batch t / 2) by a whole [64, 1024]
  weight matrix, contracting the last axis of both; the product's entry (r, h) is the sum over d of the block's (r, d)
  times the weight's (h, d). The block's row r is row index·1024 + r of x, and that is where the output's block puts
  its row r: what a point writes back is its block of the whole-array projection. The eight blocks tile the array.
-/
import proofs.«180255_j27049704030330_2_alg».proof.Proof.KIProj
import proofs.«180255_j27049704030330_2_alg».proof.Proof.AttnSpec
import proofs.«180255_j27049704030330_2_alg».proof.Proof.LibContract
import proofs.«180255_j27049704030330_2_alg».proof.Proof.LibLay3
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.ProjValue

open Cert.KernelIdeal Cert.KernelIdeal.Gen Cert.KernelIdeal.Frame
open Idealize.ShloMosaic Idealize.ShloMosaic.TcCoe Idealize.ShloMosaic.ValueIdx Idealize.SL.Sem
open Idealize.ShloMosaic.Pipeline (Dat)

/-! ## The product of a block by a weight matrix, at an index -/

/-- The left operand's row is the output's row, -/
theorem lhs_row (j : S1024x64.Idx) (q : dot_S1024x1024_S64x1024_S1024x64_1_1_0_0_n_n.contr.Idx) :
    (dot_S1024x1024_S64x1024_S1024x64_1_1_0_0_n_n.lhsIdx j q 0).val = (j 0).val := by
  unfold DotDims.lhsIdx
  rw [dif_neg (show ¬(0 : Fin S1024x1024.rank) ∈ dot_S1024x1024_S64x1024_S1024x64_1_1_0_0_n_n.lhsBatch by decide), dif_pos (show (0 : Fin S1024x1024.rank) ∈ dot_S1024x1024_S64x1024_S1024x64_1_1_0_0_n_n.lhsNonContracting by decide)]
  rfl
/-- its column the contracted coordinate; -/
theorem lhs_col (j : S1024x64.Idx) (q : dot_S1024x1024_S64x1024_S1024x64_1_1_0_0_n_n.contr.Idx) :
    (dot_S1024x1024_S64x1024_S1024x64_1_1_0_0_n_n.lhsIdx j q 1).val = (q ⟨0, by decide⟩).val :=
  dot_S1024x1024_S64x1024_S1024x64_1_1_0_0_n_n.lhsIdx_val_of_single rfl j q
/-- the right operand's row is the output's column, -/
theorem rhs_row (j : S1024x64.Idx) (q : dot_S1024x1024_S64x1024_S1024x64_1_1_0_0_n_n.contr.Idx) :
    (dot_S1024x1024_S64x1024_S1024x64_1_1_0_0_n_n.rhsIdx j q 0).val = (j 1).val := by
  unfold DotDims.rhsIdx
  rw [dif_neg (show ¬(0 : Fin S64x1024.rank) ∈ dot_S1024x1024_S64x1024_S1024x64_1_1_0_0_n_n.rhsBatch by decide), dif_pos (show (0 : Fin S64x1024.rank) ∈ dot_S1024x1024_S64x1024_S1024x64_1_1_0_0_n_n.rhsNonContracting by decide)]
  rfl
/-- its column the contracted coordinate. -/
theorem rhs_col (j : S1024x64.Idx) (q : dot_S1024x1024_S64x1024_S1024x64_1_1_0_0_n_n.contr.Idx) :
    (dot_S1024x1024_S64x1024_S1024x64_1_1_0_0_n_n.rhsIdx j q 1).val = (q ⟨0, by decide⟩).val :=
  dot_S1024x1024_S64x1024_S1024x64_1_1_0_0_n_n.rhsIdx_val_of_single rfl j q

/-- A [1024, 1024] matrix times the transpose of a [64, 1024] one, into the zero accumulator, at entry (r, h). -/
theorem matmul_apply (a : FVec Ideal S1024x1024 .bf16) (w : FVec Ideal S64x1024 .bf16) (r : Fin 1024) (h : Fin 64) :
    matmul dot_S1024x1024_S64x1024_S1024x64_1_1_0_0_n_n none a w (constant (F := Ideal) S1024x64 .f32 0x00000000#32) (ix2 r h)
      = ∑ d : Fin 1024, a (ix2 r d) * w (ix2 h d) := by
  refine Contract1.matmul_zero dot_S1024x1024_S64x1024_S1024x64_1_1_0_0_n_n 1024 rfl rfl none a w (ix2 r h)
    (fun d => ix2 r d) (fun d => ix2 h d) (fun d q hq => ?_) (fun d q hq => ?_)
  · funext ax; apply Fin.ext
    match ax with
    | ⟨0, _⟩ => exact lhs_row _ _
    | ⟨1, _⟩ => exact (lhs_col _ _).trans hq
  · funext ax; apply Fin.ext
    match ax with
    | ⟨0, _⟩ => exact rhs_row _ _
    | ⟨1, _⟩ => exact (rhs_col _ _).trans hq

/-- The stored payload at entry (u, r, h) of its [1, 1024, 64] block: row r of the x block against row h of the weight. -/
theorem pay2_apply (x0 : Vec Ideal S1x1024x1024 .f32) (w : Vec Ideal S64x1024 .f32) (u : Fin 1) (r : Fin 1024) (h : Fin 64) :
    k0_pay2 x0 w (ix3 u r h) = ∑ d : Fin 1024, x0 (ix3 (0 : Fin 1) r d) * w (ix2 h d) := by
  unfold k0_pay2 k0_pay1
  refine (shapeCast_ab_1ab_apply _ _ u r h).trans ?_
  refine (matmul_apply _ _ r h).trans ?_
  refine Finset.sum_congr rfl fun d _ => ?_
  exact congrArg (· * w (ix2 h d)) (shapeCast_1ab_ab_apply x0 _ r d)
theorem pay3_apply (x0 : Vec Ideal S1x1024x1024 .f32) (w : Vec Ideal S64x1024 .f32) (u : Fin 1) (r : Fin 1024) (h : Fin 64) :
    k0_pay3 x0 w (ix3 u r h) = ∑ d : Fin 1024, x0 (ix3 (0 : Fin 1) r d) * w (ix2 h d) := by
  unfold k0_pay3 k0_pay1
  refine (shapeCast_ab_1ab_apply _ _ u r h).trans ?_
  refine (matmul_apply _ _ r h).trans ?_
  refine Finset.sum_congr rfl fun d _ => ?_
  exact congrArg (· * w (ix2 h d)) (shapeCast_1ab_ab_apply x0 _ r d)
theorem pay4_apply (x0 : Vec Ideal S1x1024x1024 .f32) (w : Vec Ideal S64x1024 .f32) (u : Fin 1) (r : Fin 1024) (h : Fin 64) :
    k0_pay4 x0 w (ix3 u r h) = ∑ d : Fin 1024, x0 (ix3 (0 : Fin 1) r d) * w (ix2 h d) := by
  unfold k0_pay4 k0_pay1
  refine (shapeCast_ab_1ab_apply _ _ u r h).trans ?_
  refine (matmul_apply _ _ r h).trans ?_
  refine Finset.sum_congr rfl fun d _ => ?_
  exact congrArg (· * w (ix2 h d)) (shapeCast_1ab_ab_apply x0 _ r d)

/-! ## What a point writes back -/

variable (V : (c : Dev nD) → (b : Ref sig .tc) → Buf (Elt Ideal) ((c : Thread nD τ).loc b))

theorem hz3 : (![0, 0, 0] : Fin 3 → Nat) = fun _ => 0 := funext fun a => by fin_cases a <;> rfl
theorem hz2 : (![0, 0] : Fin 2 → Nat) = fun _ => 0 := funext fun a => by fin_cases a <;> rfl

/-- The whole-array projection by a weight matrix, as the contents of an output array. -/
abbrev P (X : S4x2048x1024.Idx → EReal) (W : S64x1024.Idx → EReal) : S4x2048x64.Idx → EReal :=
  fun idx => Cert.Attn.proj X W (idx 0) (idx 1) (idx 2)

/-- The index maps over the grid: the x block and the three output blocks sit at the same (batch, row-block) index,
    inside the 4 × 2 box, at lane block 0; every weight block is the whole matrix. -/
theorem idx_facts : ∀ t : Fin cfg0.N,
    win0_0.index t (0 : Fin 3) = win0_4.index t (0 : Fin 3) ∧ win0_0.index t (1 : Fin 3) = win0_4.index t (1 : Fin 3)
    ∧ win0_0.index t (2 : Fin 3) = 0 ∧ win0_4.index t (2 : Fin 3) = 0
    ∧ win0_4.index t (0 : Fin 3) ≤ 3 ∧ win0_4.index t (1 : Fin 3) ≤ 1
    ∧ win0_5.index t = win0_4.index t ∧ win0_6.index t = win0_4.index t
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

/-- Every (batch, row-block) pair is some point's. -/
theorem idx_onto : ∀ (q0 : Fin 4) (q1 : Fin 2), ∃ t : Fin cfg0.N, win0_4.index t = ![q0.val, q1.val, 0] :=
  (by decide +kernel : ∀ (q0 : Fin 4) (q1 : Fin 2), ∃ t : Fin grid0.N, win0_4.index t = ![q0.val, q1.val, 0])

/-- A point's block of x, entry by entry: row r of the block is row index·1024 + r of the batch the point is on. -/
theorem iblk_x (c : Dev nD) (t : Fin cfg0.N) (y : S1x1024x1024.Idx) (k : S4x2048x1024.Idx)
    (h0 : (k 0).val = win0_0.index t (0 : Fin 3) * 1 + (y 0).val) (h1 : (k 1).val = win0_0.index t (1 : Fin 3) * 1024 + (y 1).val)
    (h2 : (k 2).val = win0_0.index t (2 : Fin 3) * 1024 + (y 2).val) :
    (iblk0 V c 0 t : Vec Ideal S1x1024x1024 .f32) y = (V c main_arg0 : S4x2048x1024.Idx → EReal) k := by
  unfold iblk0
  show V c main_arg0 (((cfg0.win 0).blk t).view.emb y) = V c main_arg0 k
  congr 1
  funext a
  apply Fin.ext
  match a with
  | ⟨0, _⟩ => show win0_0.index t (0 : Fin 3) * 1 + 1 * (y 0).val = (k 0).val; omega
  | ⟨1, _⟩ => show win0_0.index t (1 : Fin 3) * 1024 + 1 * (y 1).val = (k 1).val; omega
  | ⟨2, _⟩ => show win0_0.index t (2 : Fin 3) * 1024 + 1 * (y 2).val = (k 2).val; omega

/-- A point's block of a weight matrix is the matrix. -/
theorem iblk_w1 (c : Dev nD) (t : Fin cfg0.N) : (iblk0 V c 1 t : Vec Ideal S64x1024 .f32) = (V c main_arg1 : S64x1024.Idx → EReal) := by
  obtain ⟨-, -, -, -, -, -, -, -, e0, e1, -, -, -, -⟩ := idx_facts t
  funext y
  unfold iblk0
  show V c main_arg1 (((cfg0.win 1).blk t).view.emb y) = V c main_arg1 y
  congr 1
  funext a
  apply Fin.ext
  match a with
  | ⟨0, _⟩ => show win0_1.index t (0 : Fin 2) * 64 + 1 * (y 0).val = (y 0).val; omega
  | ⟨1, _⟩ => show win0_1.index t (1 : Fin 2) * 1024 + 1 * (y 1).val = (y 1).val; omega
theorem iblk_w2 (c : Dev nD) (t : Fin cfg0.N) : (iblk0 V c 2 t : Vec Ideal S64x1024 .f32) = (V c main_arg2 : S64x1024.Idx → EReal) := by
  obtain ⟨-, -, -, -, -, -, -, -, -, -, e0, e1, -, -⟩ := idx_facts t
  funext y
  unfold iblk0
  show V c main_arg2 (((cfg0.win 2).blk t).view.emb y) = V c main_arg2 y
  congr 1
  funext a
  apply Fin.ext
  match a with
  | ⟨0, _⟩ => show win0_2.index t (0 : Fin 2) * 64 + 1 * (y 0).val = (y 0).val; omega
  | ⟨1, _⟩ => show win0_2.index t (1 : Fin 2) * 1024 + 1 * (y 1).val = (y 1).val; omega
theorem iblk_w3 (c : Dev nD) (t : Fin cfg0.N) : (iblk0 V c 3 t : Vec Ideal S64x1024 .f32) = (V c main_arg3 : S64x1024.Idx → EReal) := by
  obtain ⟨-, -, -, -, -, -, -, -, -, -, -, -, e0, e1⟩ := idx_facts t
  funext y
  unfold iblk0
  show V c main_arg3 (((cfg0.win 3).blk t).view.emb y) = V c main_arg3 y
  congr 1
  funext a
  apply Fin.ext
  match a with
  | ⟨0, _⟩ => show win0_3.index t (0 : Fin 2) * 64 + 1 * (y 0).val = (y 0).val; omega
  | ⟨1, _⟩ => show win0_3.index t (1 : Fin 2) * 1024 + 1 * (y 1).val = (y 1).val; omega

/-- A row-by-weight sum over a block of x whose rows are rows i1·1024 + r of batch i0 is the projection's entry there. -/
theorem sum_eq_proj (x0 : Vec Ideal S1x1024x1024 .f32) (X : S4x2048x1024.Idx → EReal) (W : S64x1024.Idx → EReal)
    (j : S1x1024x64.Idx) (k : S4x2048x64.Idx)
    (hx : ∀ d : Fin 1024, x0 (ix3 (0 : Fin 1) (j 1) d) = X (ix3 (k 0) (k 1) d)) (hk2 : (k 2).val = (j 2).val) :
    (∑ d : Fin 1024, x0 (ix3 (0 : Fin 1) (j 1) d) * W (ix2 (j 2) d)) = Cert.Attn.proj X W (k 0) (k 1) (k 2) := by
  unfold Cert.Attn.proj
  have e : k 2 = j 2 := Fin.ext hk2
  rw [e]
  exact Finset.sum_congr rfl fun d _ => by rw [hx d]

/-- A row-by-weight sum over blocks that read as X and W where the output's block says is the projection's entry. -/
theorem sum_eq_proj' (x0 : Vec Ideal S1x1024x1024 .f32) (w : Vec Ideal S64x1024 .f32)
    (X : S4x2048x1024.Idx → EReal) (W : S64x1024.Idx → EReal) (j : S1x1024x64.Idx) (k : S4x2048x64.Idx)
    (hx : ∀ d : Fin 1024, x0 (ix3 (0 : Fin 1) (j 1) d) = X (ix3 (k 0) (k 1) d))
    (hw : ∀ d : Fin 1024, w (ix2 (j 2) d) = W (ix2 (k 2) d)) :
    (∑ d : Fin 1024, x0 (ix3 (0 : Fin 1) (j 1) d) * w (ix2 (j 2) d)) = P X W k :=
  Finset.sum_congr rfl fun d _ => by rw [hx d, hw d]

/-- The payload over a point's blocks, at a block entry j, is the projection at the array index k the output's block
    puts j at: same batch, row index·1024 + r, same column. -/
theorem pay2_at (c : Dev nD) (t : Fin cfg0.N) (j : S1x1024x64.Idx) (k : S4x2048x64.Idx)
    (hk0 : (k 0).val = win0_4.index t (0 : Fin 3) * 1 + (j 0).val) (hk1 : (k 1).val = win0_4.index t (1 : Fin 3) * 1024 + (j 1).val)
    (hk2 : (k 2).val = (j 2).val) :
    k0_pay2 (iblk0 V c 0 t) (iblk0 V c 2 t) j = P (V c main_arg0) (V c main_arg2) k := by
  obtain ⟨e0, e1, e2, -⟩ := idx_facts t
  have hj0 : (j 0).val < 1 := (j 0).isLt
  refine (congrArg (k0_pay2 (iblk0 V c 0 t) (iblk0 V c 2 t)) (eq_ix3 j)).trans ?_
  refine (pay2_apply (iblk0 V c 0 t) (iblk0 V c 2 t) (j 0) (j 1) (j 2)).trans ?_
  refine sum_eq_proj' (iblk0 V c 0 t) (iblk0 V c 2 t) (V c main_arg0) (V c main_arg2) j k (fun d => ?_) (fun d => ?_)
  · refine iblk_x V c t _ _ ?_ ?_ ?_
    · show (k 0).val = win0_0.index t (0 : Fin 3) * 1 + 0; omega
    · show (k 1).val = win0_0.index t (1 : Fin 3) * 1024 + (j 1).val; omega
    · show d.val = win0_0.index t (2 : Fin 3) * 1024 + d.val; omega
  · exact (congrFun (iblk_w2 V c t) (ix2 (j 2) d)).trans (congrArg (V c main_arg2 : S64x1024.Idx → EReal) (congrArg (ix2 · d) (Fin.ext hk2.symm)))

/-- WHAT POINT t WRITES BACK to q's array is its block of the projection of x by Wq. -/
theorem flushed4_eq (c : Dev nD) (t : Fin cfg0.N) :
    (dat0 V c).flushed 4 t = ((cfg0.win 4).blk t).view.read (Elt Ideal) (P (V c main_arg0) (V c main_arg2)) := by
  show (cfg0.win 4).cut (grid0.coords t) ((dat0 V c).after 4 t) = _
  rw [after0_4]
  unfold out0_4
  rw [View.canon_unit_zero hz3]
  simp only [View.ld_unit_zero (S := S1x1024x1024) hz3, View.ld_unit_zero (S := S64x1024) hz2]
  funext j
  show k0_pay2 (iblk0 V c 0 t) (iblk0 V c 2 t) j = P (V c main_arg0) (V c main_arg2) (((cfg0.win 4).blk t).view.emb j)
  refine pay2_at V c t j _ ?_ ?_ ?_
  · show win0_4.index t (0 : Fin 3) * 1 + 1 * (j 0).val = win0_4.index t (0 : Fin 3) * 1 + (j 0).val; omega
  · show win0_4.index t (1 : Fin 3) * 1024 + 1 * (j 1).val = win0_4.index t (1 : Fin 3) * 1024 + (j 1).val; omega
  · obtain ⟨-, -, -, e3, -⟩ := idx_facts t
    show win0_4.index t (2 : Fin 3) * 64 + 1 * (j 2).val = (j 2).val; omega

/-- An index of q's array is in point t's block iff each coordinate is in the block's range on its axis. -/
theorem mem_blk4 (t : Fin cfg0.N) (i : S4x2048x64.Idx) :
    i ∈ ((cfg0.win 4).blk t).view.set ↔ ∀ a : Fin 3, win0_4.index t a * S1x1024x64.size a ≤ (i a).val ∧ (i a).val < win0_4.index t a * S1x1024x64.size a + S1x1024x64.size a := by
  show i ∈ ((View.whole main_v0_0).slice (win0_4.rect t)).set ↔ _
  rw [View.set_slice_whole, Rect.mem_set_unit]
  exact Iff.rfl

/-- The eight blocks tile the array: row (b, r) is in the block of the point at index (b, r / 1024). -/
theorem cover4 (i : S4x2048x64.Idx) : ∃ t : Fin cfg0.N, (cfg0.win 4).flush t = true ∧ i ∈ ((cfg0.win 4).blk t).view.set := by
  have hi0 : (i 0).val < 4 := (i 0).isLt
  have hi1 : (i 1).val < 2048 := (i 1).isLt
  have hi2 : (i 2).val < 64 := (i 2).isLt
  obtain ⟨t, ht⟩ := idx_onto ⟨(i 0).val, hi0⟩ ⟨(i 1).val / 1024, by omega⟩
  have q0 : win0_4.index t (0 : Fin 3) = (i 0).val := congrFun ht 0
  have q1 : win0_4.index t (1 : Fin 3) = (i 1).val / 1024 := congrFun ht 1
  have q2 : win0_4.index t (2 : Fin 3) = 0 := congrFun ht 2
  refine ⟨t, flush0_4 t, ?_⟩
  rw [mem_blk4]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 1024 ≤ (i 1).val ∧ (i 1).val < win0_4.index t (1 : Fin 3) * 1024 + 1024; omega
  | ⟨2, _⟩ => show win0_4.index t (2 : Fin 3) * 64 ≤ (i 2).val ∧ (i 2).val < win0_4.index t (2 : Fin 3) * 64 + 64; omega

/-- q = x·Wqᵀ: after the region the first output array holds the projection of x by the second weight argument. -/
theorem q_final (c : Dev nD) :
    (dat0 V c).arrAt 4 cfg0.N = fun idx => Cert.Attn.proj (V c main_arg0) (V c main_arg2) (idx 0) (idx 1) (idx 2) :=
  (dat0 V c).arrAt_eq_of_cover 4 (P (V c main_arg0) (V c main_arg2)) (fun t _ => flushed4_eq V c t) cover4

/-- The k payload over a point's blocks, at a block entry j, is the projection at the array index k the output's
    block puts j at. -/
theorem pay3_at (c : Dev nD) (t : Fin cfg0.N) (j : S1x1024x64.Idx) (k : S4x2048x64.Idx)
    (hk0 : (k 0).val = win0_4.index t (0 : Fin 3) * 1 + (j 0).val) (hk1 : (k 1).val = win0_4.index t (1 : Fin 3) * 1024 + (j 1).val)
    (hk2 : (k 2).val = (j 2).val) :
    k0_pay3 (iblk0 V c 0 t) (iblk0 V c 1 t) j = P (V c main_arg0) (V c main_arg1) k := by
  obtain ⟨e0, e1, e2, -⟩ := idx_facts t
  have hj0 : (j 0).val < 1 := (j 0).isLt
  refine (congrArg (k0_pay3 (iblk0 V c 0 t) (iblk0 V c 1 t)) (eq_ix3 j)).trans ?_
  refine (pay3_apply (iblk0 V c 0 t) (iblk0 V c 1 t) (j 0) (j 1) (j 2)).trans ?_
  refine sum_eq_proj' (iblk0 V c 0 t) (iblk0 V c 1 t) (V c main_arg0) (V c main_arg1) j k (fun d => ?_) (fun d => ?_)
  · refine iblk_x V c t _ _ ?_ ?_ ?_
    · show (k 0).val = win0_0.index t (0 : Fin 3) * 1 + 0; omega
    · show (k 1).val = win0_0.index t (1 : Fin 3) * 1024 + (j 1).val; omega
    · show d.val = win0_0.index t (2 : Fin 3) * 1024 + d.val; omega
  · exact (congrFun (iblk_w1 V c t) (ix2 (j 2) d)).trans (congrArg (V c main_arg1 : S64x1024.Idx → EReal) (congrArg (ix2 · d) (Fin.ext hk2.symm)))

/-- WHAT POINT t WRITES BACK to k's array is its block of the projection of x by Wk. -/
theorem flushed5_eq (c : Dev nD) (t : Fin cfg0.N) :
    (dat0 V c).flushed 5 t = ((cfg0.win 5).blk t).view.read (Elt Ideal) (P (V c main_arg0) (V c main_arg1)) := by
  show (cfg0.win 5).cut (grid0.coords t) ((dat0 V c).after 5 t) = _
  rw [after0_5]
  unfold out0_5
  rw [View.canon_unit_zero hz3]
  simp only [View.ld_unit_zero (S := S1x1024x1024) hz3, View.ld_unit_zero (S := S64x1024) hz2]
  funext j
  show k0_pay3 (iblk0 V c 0 t) (iblk0 V c 1 t) j = P (V c main_arg0) (V c main_arg1) (((cfg0.win 5).blk t).view.emb j)
  obtain ⟨-, -, -, e3, -, -, e5, e6, -⟩ := idx_facts t
  have q0 : win0_5.index t (0 : Fin 3) = win0_4.index t (0 : Fin 3) := congrFun e5 0
  have q1 : win0_5.index t (1 : Fin 3) = win0_4.index t (1 : Fin 3) := congrFun e5 1
  have q2 : win0_5.index t (2 : Fin 3) = win0_4.index t (2 : Fin 3) := congrFun e5 2
  refine pay3_at V c t j _ ?_ ?_ ?_
  · show win0_5.index t (0 : Fin 3) * 1 + 1 * (j 0).val = win0_4.index t (0 : Fin 3) * 1 + (j 0).val; omega
  · show win0_5.index t (1 : Fin 3) * 1024 + 1 * (j 1).val = win0_4.index t (1 : Fin 3) * 1024 + (j 1).val; omega
  · show win0_5.index t (2 : Fin 3) * 64 + 1 * (j 2).val = (j 2).val; omega

/-- An index of k's array is in point t's block iff each coordinate is in the block's range on its axis. -/
theorem mem_blk5 (t : Fin cfg0.N) (i : S4x2048x64.Idx) :
    i ∈ ((cfg0.win 5).blk t).view.set ↔ ∀ a : Fin 3, win0_5.index t a * S1x1024x64.size a ≤ (i a).val ∧ (i a).val < win0_5.index t a * S1x1024x64.size a + S1x1024x64.size a := by
  show i ∈ ((View.whole main_v0_1).slice (win0_5.rect t)).set ↔ _
  rw [View.set_slice_whole, Rect.mem_set_unit]
  exact Iff.rfl

/-- The eight blocks tile k's array. -/
theorem cover5 (i : S4x2048x64.Idx) : ∃ t : Fin cfg0.N, (cfg0.win 5).flush t = true ∧ i ∈ ((cfg0.win 5).blk t).view.set := by
  have hi0 : (i 0).val < 4 := (i 0).isLt
  have hi1 : (i 1).val < 2048 := (i 1).isLt
  have hi2 : (i 2).val < 64 := (i 2).isLt
  obtain ⟨t, ht⟩ := idx_onto ⟨(i 0).val, hi0⟩ ⟨(i 1).val / 1024, by omega⟩
  obtain ⟨-, -, -, -, -, -, e5, e6, -⟩ := idx_facts t
  have ht' : win0_5.index t = ![(i 0).val, (i 1).val / 1024, 0] := e5.trans ht
  have q0 : win0_5.index t (0 : Fin 3) = (i 0).val := congrFun ht' 0
  have q1 : win0_5.index t (1 : Fin 3) = (i 1).val / 1024 := congrFun ht' 1
  have q2 : win0_5.index t (2 : Fin 3) = 0 := congrFun ht' 2
  refine ⟨t, flush0_5 t, ?_⟩
  rw [mem_blk5]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 1024 ≤ (i 1).val ∧ (i 1).val < win0_5.index t (1 : Fin 3) * 1024 + 1024; omega
  | ⟨2, _⟩ => show win0_5.index t (2 : Fin 3) * 64 ≤ (i 2).val ∧ (i 2).val < win0_5.index t (2 : Fin 3) * 64 + 64; omega

/-- k = x·Wkᵀ: after the region the array holds the projection of x by that weight argument. -/
theorem k_final (c : Dev nD) :
    (dat0 V c).arrAt 5 cfg0.N = fun idx => Cert.Attn.proj (V c main_arg0) (V c main_arg1) (idx 0) (idx 1) (idx 2) :=
  (dat0 V c).arrAt_eq_of_cover 5 (P (V c main_arg0) (V c main_arg1)) (fun t _ => flushed5_eq V c t) cover5

/-- The v payload over a point's blocks, at a block entry j, is the projection at the array index k the output's
    block puts j at. -/
theorem pay4_at (c : Dev nD) (t : Fin cfg0.N) (j : S1x1024x64.Idx) (k : S4x2048x64.Idx)
    (hk0 : (k 0).val = win0_4.index t (0 : Fin 3) * 1 + (j 0).val) (hk1 : (k 1).val = win0_4.index t (1 : Fin 3) * 1024 + (j 1).val)
    (hk2 : (k 2).val = (j 2).val) :
    k0_pay4 (iblk0 V c 0 t) (iblk0 V c 3 t) j = P (V c main_arg0) (V c main_arg3) k := by
  obtain ⟨e0, e1, e2, -⟩ := idx_facts t
  have hj0 : (j 0).val < 1 := (j 0).isLt
  refine (congrArg (k0_pay4 (iblk0 V c 0 t) (iblk0 V c 3 t)) (eq_ix3 j)).trans ?_
  refine (pay4_apply (iblk0 V c 0 t) (iblk0 V c 3 t) (j 0) (j 1) (j 2)).trans ?_
  refine sum_eq_proj' (iblk0 V c 0 t) (iblk0 V c 3 t) (V c main_arg0) (V c main_arg3) j k (fun d => ?_) (fun d => ?_)
  · refine iblk_x V c t _ _ ?_ ?_ ?_
    · show (k 0).val = win0_0.index t (0 : Fin 3) * 1 + 0; omega
    · show (k 1).val = win0_0.index t (1 : Fin 3) * 1024 + (j 1).val; omega
    · show d.val = win0_0.index t (2 : Fin 3) * 1024 + d.val; omega
  · exact (congrFun (iblk_w3 V c t) (ix2 (j 2) d)).trans (congrArg (V c main_arg3 : S64x1024.Idx → EReal) (congrArg (ix2 · d) (Fin.ext hk2.symm)))

/-- WHAT POINT t WRITES BACK to v's array is its block of the projection of x by Wv. -/
theorem flushed6_eq (c : Dev nD) (t : Fin cfg0.N) :
    (dat0 V c).flushed 6 t = ((cfg0.win 6).blk t).view.read (Elt Ideal) (P (V c main_arg0) (V c main_arg3)) := by
  show (cfg0.win 6).cut (grid0.coords t) ((dat0 V c).after 6 t) = _
  rw [after0_6]
  unfold out0_6
  rw [View.canon_unit_zero hz3]
  simp only [View.ld_unit_zero (S := S1x1024x1024) hz3, View.ld_unit_zero (S := S64x1024) hz2]
  funext j
  show k0_pay4 (iblk0 V c 0 t) (iblk0 V c 3 t) j = P (V c main_arg0) (V c main_arg3) (((cfg0.win 6).blk t).view.emb j)
  obtain ⟨-, -, -, e3, -, -, e5, e6, -⟩ := idx_facts t
  have q0 : win0_6.index t (0 : Fin 3) = win0_4.index t (0 : Fin 3) := congrFun e6 0
  have q1 : win0_6.index t (1 : Fin 3) = win0_4.index t (1 : Fin 3) := congrFun e6 1
  have q2 : win0_6.index t (2 : Fin 3) = win0_4.index t (2 : Fin 3) := congrFun e6 2
  refine pay4_at V c t j _ ?_ ?_ ?_
  · show win0_6.index t (0 : Fin 3) * 1 + 1 * (j 0).val = win0_4.index t (0 : Fin 3) * 1 + (j 0).val; omega
  · show win0_6.index t (1 : Fin 3) * 1024 + 1 * (j 1).val = win0_4.index t (1 : Fin 3) * 1024 + (j 1).val; omega
  · show win0_6.index t (2 : Fin 3) * 64 + 1 * (j 2).val = (j 2).val; omega

/-- An index of v's array is in point t's block iff each coordinate is in the block's range on its axis. -/
theorem mem_blk6 (t : Fin cfg0.N) (i : S4x2048x64.Idx) :
    i ∈ ((cfg0.win 6).blk t).view.set ↔ ∀ a : Fin 3, win0_6.index t a * S1x1024x64.size a ≤ (i a).val ∧ (i a).val < win0_6.index t a * S1x1024x64.size a + S1x1024x64.size a := by
  show i ∈ ((View.whole main_v0_2).slice (win0_6.rect t)).set ↔ _
  rw [View.set_slice_whole, Rect.mem_set_unit]
  exact Iff.rfl

/-- The eight blocks tile v's array. -/
theorem cover6 (i : S4x2048x64.Idx) : ∃ t : Fin cfg0.N, (cfg0.win 6).flush t = true ∧ i ∈ ((cfg0.win 6).blk t).view.set := by
  have hi0 : (i 0).val < 4 := (i 0).isLt
  have hi1 : (i 1).val < 2048 := (i 1).isLt
  have hi2 : (i 2).val < 64 := (i 2).isLt
  obtain ⟨t, ht⟩ := idx_onto ⟨(i 0).val, hi0⟩ ⟨(i 1).val / 1024, by omega⟩
  obtain ⟨-, -, -, -, -, -, e5, e6, -⟩ := idx_facts t
  have ht' : win0_6.index t = ![(i 0).val, (i 1).val / 1024, 0] := e6.trans ht
  have q0 : win0_6.index t (0 : Fin 3) = (i 0).val := congrFun ht' 0
  have q1 : win0_6.index t (1 : Fin 3) = (i 1).val / 1024 := congrFun ht' 1
  have q2 : win0_6.index t (2 : Fin 3) = 0 := congrFun ht' 2
  refine ⟨t, flush0_6 t, ?_⟩
  rw [mem_blk6]
  intro a
  match a with
  | ⟨0, _⟩ => show win0_6.index t (0 : Fin 3) * 1 ≤ (i 0).val ∧ (i 0).val < win0_6.index t (0 : Fin 3) * 1 + 1; omega
  | ⟨1, _⟩ => show win0_6.index t (1 : Fin 3) * 1024 ≤ (i 1).val ∧ (i 1).val < win0_6.index t (1 : Fin 3) * 1024 + 1024; omega
  | ⟨2, _⟩ => show win0_6.index t (2 : Fin 3) * 64 ≤ (i 2).val ∧ (i 2).val < win0_6.index t (2 : Fin 3) * 64 + 64; omega

/-- v = x·Wvᵀ: after the region the array holds the projection of x by that weight argument. -/
theorem v_final (c : Dev nD) :
    (dat0 V c).arrAt 6 cfg0.N = fun idx => Cert.Attn.proj (V c main_arg0) (V c main_arg3) (idx 0) (idx 1) (idx 2) :=
  (dat0 V c).arrAt_eq_of_cover 6 (P (V c main_arg0) (V c main_arg3)) (fun t _ => flushed6_eq V c t) cover6

end Cert.KernelIdeal.ProjValue

end
-- ==== Proof.KIAttnBlocks.lean ====
/-
  The attention pipeline's blocks as coordinates. The grid is (batch, query tile, key tile) = (4, 2, 2) in row-major
  order, so point `t` has batch `t / 4`, query tile `(t / 2) % 2` and key tile `t % 2`. Every window cuts a
  [4, 2048, 64] array into blocks of [1, 1024, 64]: the query and result windows at (batch, query tile), the key and
  value windows at (batch, the smaller of the key and query tiles). A block's entry (0, r, h) is therefore the array's
  entry (batch, tile · 1024 + r, h); and the result's blocks at the points with key tile 1 cover the result array.
-/
import proofs.«180255_j27049704030330_2_alg».proof.Proof.KIAttnRuns
import Idealize.ShloMosaic.Lib.Pipeline.Value
import Idealize.ShloMosaic.Lib.ValueIdx

set_option maxRecDepth 16384

noncomputable section

namespace Cert.KernelIdeal.AttnBlocks

open Cert.KernelIdeal Cert.KernelIdeal.Gen Cert.KernelIdeal.Frame
open Idealize.ShloMosaic Idealize.ShloMosaic.TcCoe Idealize.ShloMosaic.ValueIdx Idealize.SL.Sem

variable {F : FTy → Type} [FloatOps F] [Named F]

/-! ## The block indices -/

/-- The four windows' block indices at grid point `t`, in closed form: the batch is `t / 4`, the query tile
    `(t / 2) % 2`, the key tile `t % 2`; the key and value windows sit at the smaller of the key and query tiles. -/
theorem idx_facts : ∀ t : Fin cfg1.N,
    win1_0.index t (0 : Fin 3) = t.val / 4 ∧ win1_0.index t (1 : Fin 3) = (t.val / 2) % 2 ∧ win1_0.index t (2 : Fin 3) = 0
    ∧ win1_1.index t (0 : Fin 3) = t.val / 4 ∧ win1_1.index t (1 : Fin 3) = min (t.val % 2) ((t.val / 2) % 2) ∧ win1_1.index t (2 : Fin 3) = 0
    ∧ win1_2.index t (0 : Fin 3) = t.val / 4 ∧ win1_2.index t (1 : Fin 3) = min (t.val % 2) ((t.val / 2) % 2) ∧ win1_2.index t (2 : Fin 3) = 0
    ∧ win1_3.index t (0 : Fin 3) = t.val / 4 ∧ win1_3.index t (1 : Fin 3) = (t.val / 2) % 2 ∧ win1_3.index t (2 : Fin 3) = 0 :=
  (by decide +kernel : ∀ t : Fin grid1.N, _)

/-! ## The input blocks, read at coordinates -/

section
variable (V : (c : Dev nD) → (b : Ref sig .tc) → Buf (Elt F) ((c : Thread nD τ).loc b)) (c : Dev nD) (t : Fin cfg1.N)
  (r : Fin 1024) (h : Fin 64) (b : Fin 4) (R : Fin 2048)

/-- Row `r`, column `h` of the query block at point `t` is the query array's entry at batch `t / 4`, row
    (query tile) · 1024 + `r`. -/
theorem iblk1_q (hb : b.val = t.val / 4) (hR : R.val = ((t.val / 2) % 2) * 1024 + r.val) :
    iblk1 V c 0 t (ix3 (0 : Fin 1) r h) = V c main_v0_0 (ix3 b R h) := by
  unfold iblk1
  show V c main_v0_0 (((cfg1.win 0).blk t).view.emb (ix3 (0 : Fin 1) r h)) = V c main_v0_0 (ix3 b R h)
  obtain ⟨e0, e1, e2, -⟩ := idx_facts t
  refine congrArg (V c main_v0_0) ?_
  funext a; apply Fin.ext
  match a with
  | ⟨0, _⟩ => show win1_0.index t (0 : Fin 3) * 1 + 1 * (0 : ℕ) = b.val; omega
  | ⟨1, _⟩ => show win1_0.index t (1 : Fin 3) * 1024 + 1 * r.val = R.val; omega
  | ⟨2, _⟩ => show win1_0.index t (2 : Fin 3) * 64 + 1 * h.val = h.val; omega

/-- Row `r`, column `h` of the key block at point `t` is the key array's entry at batch `t / 4`, row
    (the smaller of the key and query tiles) · 1024 + `r`. -/
theorem iblk1_k (hb : b.val = t.val / 4) (hR : R.val = (min (t.val % 2) ((t.val / 2) % 2)) * 1024 + r.val) :
    iblk1 V c 1 t (ix3 (0 : Fin 1) r h) = V c main_v0_1 (ix3 b R h) := by
  unfold iblk1
  show V c main_v0_1 (((cfg1.win 1).blk t).view.emb (ix3 (0 : Fin 1) r h)) = V c main_v0_1 (ix3 b R h)
  obtain ⟨-, -, -, e0, e1, e2, -⟩ := idx_facts t
  refine congrArg (V c main_v0_1) ?_
  funext a; apply Fin.ext
  match a with
  | ⟨0, _⟩ => show win1_1.index t (0 : Fin 3) * 1 + 1 * (0 : ℕ) = b.val; omega
  | ⟨1, _⟩ => show win1_1.index t (1 : Fin 3) * 1024 + 1 * r.val = R.val; rw [e1, hR, Nat.one_mul]
  | ⟨2, _⟩ => show win1_1.index t (2 : Fin 3) * 64 + 1 * h.val = h.val; omega

/-- Row `r`, column `h` of the value block at point `t` is the value array's entry at batch `t / 4`, row
    (the smaller of the key and query tiles) · 1024 + `r`. -/
theorem iblk1_v (hb : b.val = t.val / 4) (hR : R.val = (min (t.val % 2) ((t.val / 2) % 2)) * 1024 + r.val) :
    iblk1 V c 2 t (ix3 (0 : Fin 1) r h) = V c main_v0_2 (ix3 b R h) := by
  unfold iblk1
  show V c main_v0_2 (((cfg1.win 2).blk t).view.emb (ix3 (0 : Fin 1) r h)) = V c main_v0_2 (ix3 b R h)
  obtain ⟨-, -, -, -, -, -, e0, e1, e2, -⟩ := idx_facts t
  refine congrArg (V c main_v0_2) ?_
  funext a; apply Fin.ext
  match a with
  | ⟨0, _⟩ => show win1_2.index t (0 : Fin 3) * 1 + 1 * (0 : ℕ) = b.val; omega
  | ⟨1, _⟩ => show win1_2.index t (1 : Fin 3) * 1024 + 1 * r.val = R.val; rw [e1, hR, Nat.one_mul]
  | ⟨2, _⟩ => show win1_2.index t (2 : Fin 3) * 64 + 1 * h.val = h.val; omega

/-! ## The result's blocks -/

/-- Row `r`, column `h` of the result window's block at point `t`, read off a whole array `G`, is `G`'s entry at batch
    `t / 4`, row (query tile) · 1024 + `r`. -/
theorem blk3_read (G : S4x2048x64.Idx → Elt F .f32) (hb : b.val = t.val / 4) (hR : R.val = ((t.val / 2) % 2) * 1024 + r.val) :
    ((cfg1.win 3).blk t).view.read (Elt F) G (ix3 (0 : Fin 1) r h) = G (ix3 b R h) := by
  show G (((cfg1.win 3).blk t).view.emb (ix3 (0 : Fin 1) r h)) = G (ix3 b R h)
  obtain ⟨-, -, -, -, -, -, -, -, -, e0, e1, e2⟩ := idx_facts t
  refine congrArg G ?_
  funext a; apply Fin.ext
  match a with
  | ⟨0, _⟩ => show win1_3.index t (0 : Fin 3) * 1 + 1 * (0 : ℕ) = b.val; omega
  | ⟨1, _⟩ => show win1_3.index t (1 : Fin 3) * 1024 + 1 * r.val = R.val; omega
  | ⟨2, _⟩ => show win1_3.index t (2 : Fin 3) * 64 + 1 * h.val = h.val; omega
end

/-- An index of the result array is in point `t`'s block exactly when each coordinate is in the block's range. -/
theorem mem_blk3 (t : Fin cfg1.N) (i : S4x2048x64.Idx) :
    i ∈ ((cfg1.win 3).blk t).view.set ↔ ∀ a : Fin 3, win1_3.index t a * S1x1024x64.size a ≤ (i a).val
      ∧ (i a).val < win1_3.index t a * S1x1024x64.size a + S1x1024x64.size a := by
  show i ∈ ((View.whole main_v1).slice (win1_3.rect t)).set ↔ _
  rw [View.set_slice_whole, Rect.mem_set_unit]
  exact Iff.rfl

/-- Every index of the result array lies in the block of a point that writes back: batch `b`, row `R` is covered by
    the point 4 · `b` + 2 · (`R` / 1024) + 1, the last key tile of its query tile. -/
theorem cover3_idx (i : S4x2048x64.Idx) :
    ∃ t : Fin cfg1.N, (cfg1.win 3).flush t = true ∧ i ∈ ((cfg1.win 3).blk t).view.set := by
  have h0 : (i 0).val < 4 := (i 0).isLt
  have h1 : (i 1).val < 2048 := (i 1).isLt
  have h2 : (i 2).val < 64 := (i 2).isLt
  refine ⟨⟨4 * (i 0).val + 2 * ((i 1).val / 1024) + 1, by show _ < 16; omega⟩, ?_, ?_⟩
  · rw [flush1_3]
    show (4 * (i 0).val + 2 * ((i 1).val / 1024) + 1) % 2 = 1
    omega
  · rw [mem_blk3]
    obtain ⟨-, -, -, -, -, -, -, -, -, e0, e1, e2⟩ := idx_facts ⟨4 * (i 0).val + 2 * ((i 1).val / 1024) + 1, by show _ < 16; omega⟩
    have e0' : win1_3.index ⟨4 * (i 0).val + 2 * ((i 1).val / 1024) + 1, by show _ < 16; omega⟩ (0 : Fin 3) = (4 * (i 0).val + 2 * ((i 1).val / 1024) + 1) / 4 := e0
    have e1' : win1_3.index ⟨4 * (i 0).val + 2 * ((i 1).val / 1024) + 1, by show _ < 16; omega⟩ (1 : Fin 3) = ((4 * (i 0).val + 2 * ((i 1).val / 1024) + 1) / 2) % 2 := e1
    intro a
    match a with
    | ⟨0, _⟩ =>
      show win1_3.index _ (0 : Fin 3) * 1 ≤ (i 0).val ∧ (i 0).val < win1_3.index _ (0 : Fin 3) * 1 + 1
      rw [e0']; omega
    | ⟨1, _⟩ =>
      show win1_3.index _ (1 : Fin 3) * 1024 ≤ (i 1).val ∧ (i 1).val < win1_3.index _ (1 : Fin 3) * 1024 + 1024
      rw [e1']; omega
    | ⟨2, _⟩ =>
      show win1_3.index _ (2 : Fin 3) * 64 ≤ (i 2).val ∧ (i 2).val < win1_3.index _ (2 : Fin 3) * 64 + 64
      rw [e2]; omega

/-- The same, over the result array's own index type. -/
theorem cover3 (c : Dev nD) : ∀ i : ((cfg1.win 3).arr.view.loc (c.tc : Thread nD τ)).2.ty.Idx,
    ∃ t : Fin cfg1.N, (cfg1.win 3).flush t = true ∧ i ∈ ((cfg1.win 3).blk t).view.set :=
  fun i => cover3_idx i

end Cert.KernelIdeal.AttnBlocks

end
-- ==== Proof.KIAttnFinal.lean ====
/-
  From the attention pipeline's blocks to its result array. The result window is written back at the odd grid points,
  the last key tile of each (batch, query tile): point t holds batch t / 4 and query tile (t / 2) mod 2, so at
  t ≡ 1 (mod 4) its block is rows 0 … 1023 of the batch and at t ≡ 3 (mod 4) rows 1024 … 2047. If what those points
  leave in the output block's buffer is, entry by entry, a whole-array function Gf read at those rows, then each point
  writes back its block of Gf; the blocks tile the array, which therefore ends holding Gf.
-/
import proofs.«180255_j27049704030330_2_alg».proof.Proof.KIAttn
import proofs.«180255_j27049704030330_2_alg».proof.Proof.KIAttnBlocks
import Idealize.ShloMosaic.Lib.Pipeline.Value
import Idealize.ShloMosaic.Lib.ValueIdx

set_option maxRecDepth 16384

noncomputable section

namespace Cert.KernelIdeal.AttnFinal

open Cert.KernelIdeal Cert.KernelIdeal.Gen Cert.KernelIdeal.Frame Cert.KernelIdeal.AttnBlocks
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b)) (c : Dev nD)

/-- WHAT A WRITING POINT t WRITES BACK is its block of Gf, once the output block's buffer after t is Gf at the block's
    rows: rows r of the batch at the points ≡ 1 (mod 4), rows 1024 + r at the points ≡ 3 (mod 4). -/
theorem flushed3_eq (Gf : S4x2048x64.Idx → EReal)
    (hlo : ∀ (t : Fin cfg1.N), t.val % 4 = 1 → ∀ (r : Fin 1024) (h : Fin 64) (b : Fin 4) (R : Fin 2048), b.val = t.val / 4 → R.val = r.val →
      (outsAt1 V c t.val t.isLt).1 (ix3 (0 : Fin 1) r h) = Gf (ix3 b R h))
    (hhi : ∀ (t : Fin cfg1.N), t.val % 4 = 3 → ∀ (r : Fin 1024) (h : Fin 64) (b : Fin 4) (R : Fin 2048), b.val = t.val / 4 → R.val = 1024 + r.val →
      (outsAt1 V c t.val t.isLt).1 (ix3 (0 : Fin 1) r h) = Gf (ix3 b R h))
    (t : Fin cfg1.N) (hf : (cfg1.win 3).flush t = true) :
    (dat1 V c).flushed 3 t = ((cfg1.win 3).blk t).view.read (Elt Ideal) Gf := by
  have hodd : t.val % 2 = 1 := (flush1_3 t).mp hf
  have hN : t.val < 16 := t.isLt
  show (cfg1.win 3).cut (grid1.coords t) ((dat1 V c).after 3 t) = _
  rw [after1_3]
  refine funext fun (y : S1x1024x64.Idx) => ?_
  show (outsAt1 V c t.val t.isLt).1 y = ((cfg1.win 3).blk t).view.read (Elt Ideal) Gf y
  have hy0 : (y 0).val < 1 := (y 0).isLt
  have hr : (y 1).val < 1024 := (y 1).isLt
  have ey : y = ix3 (0 : Fin 1) (y 1) (y 2) :=
    (eq_ix3 y).trans (congrArg (fun u : Fin 1 => ix3 u (y 1) (y 2)) (Fin.ext (by show (y 0).val = 0; omega)))
  have hb : t.val / 4 < 4 := by omega
  have hR : ((t.val / 2) % 2) * 1024 + (y 1).val < 2048 := by omega
  refine (congrArg (outsAt1 V c t.val t.isLt).1 ey).trans ?_
  refine Eq.trans ?_ (congrArg (((cfg1.win 3).blk t).view.read (Elt Ideal) Gf) ey).symm
  refine Eq.trans ?_ (blk3_read (F := Ideal) t (y 1) (y 2) ⟨t.val / 4, hb⟩ ⟨((t.val / 2) % 2) * 1024 + (y 1).val, hR⟩ Gf rfl rfl).symm
  rcases (by omega : t.val % 4 = 1 ∨ t.val % 4 = 3) with h1 | h3
  · exact hlo t h1 (y 1) (y 2) ⟨t.val / 4, hb⟩ ⟨((t.val / 2) % 2) * 1024 + (y 1).val, hR⟩ rfl
      (by show ((t.val / 2) % 2) * 1024 + (y 1).val = (y 1).val; omega)
  · exact hhi t h3 (y 1) (y 2) ⟨t.val / 4, hb⟩ ⟨((t.val / 2) % 2) * 1024 + (y 1).val, hR⟩ rfl
      (by show ((t.val / 2) % 2) * 1024 + (y 1).val = 1024 + (y 1).val; omega)

/-- THE RESULT ARRAY after the attention pipeline is Gf, for any whole-array Gf the writing points' output blocks
    agree with at their rows. -/
theorem attn_final_of (Gf : S4x2048x64.Idx → EReal)
    (hlo : ∀ (t : Fin cfg1.N), t.val % 4 = 1 → ∀ (r : Fin 1024) (h : Fin 64) (b : Fin 4) (R : Fin 2048), b.val = t.val / 4 → R.val = r.val →
      (outsAt1 V c t.val t.isLt).1 (ix3 (0 : Fin 1) r h) = Gf (ix3 b R h))
    (hhi : ∀ (t : Fin cfg1.N), t.val % 4 = 3 → ∀ (r : Fin 1024) (h : Fin 64) (b : Fin 4) (R : Fin 2048), b.val = t.val / 4 → R.val = 1024 + r.val →
      (outsAt1 V c t.val t.isLt).1 (ix3 (0 : Fin 1) r h) = Gf (ix3 b R h)) :
    (dat1 V c).arrAt 3 cfg1.N = Gf :=
  (dat1 V c).arrAt_eq_of_cover 3 Gf (fun t hf => flushed3_eq V c Gf hlo hhi t hf) (cover3 c)

end Cert.KernelIdeal.AttnFinal

end
-- ==== Proof.LibWhole.lean ====
/-
  Loads and stores of a WHOLE rank-2 buffer, read back: a store through the rectangle at offsets zero of the buffer's
  own sizes leaves its payload whatever was stored before it; a load through that rectangle reads the contents — of a
  buffer as it stands, or of one whose last store was such a store.
-/
import Idealize.ShloMosaic.Lib.Pipeline.FrameBody
import Idealize.ShloMosaic.Lib.Pipeline.Value

namespace Cert.Lib.Whole

open Idealize.ShloMosaic

variable {Val : EltTy → Type} [∀ e, Nonempty (Val e)] {sg : RefSig} {κ : Kind} {sp : Space} {S : Shape} {e : EltTy}

/-- A store of the whole buffer, made last, leaves its payload, whatever was stored before. -/
theorem read_writes_whole (v : View sg κ sp S e) (f : v.ty.Contents Val) {off : Fin S.rank → Nat} (hoff : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon _ _ _ (fun y => ⟨_, List.mem_cons_self, View.mem_set_unit_zero hoff inb y⟩),
    View.canon_cons_unit_zero hoff]

/-- A load of the whole buffer after such a store reads the payload. -/
theorem readCov_whole (v : View sg κ sp S e) {off : Fin S.rank → Nat} (hoff : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  rw [View.readCov_eq_canon_ld _ _ _ (fun y => ⟨_, List.mem_cons_self, View.mem_set_unit_zero hoff inb y⟩),
    View.canon_cons_unit_zero hoff, View.ld_unit_zero hoff]

/-- A load of the whole buffer reads its contents. -/
theorem readAt_whole (v : View sg κ sp S e) (f : v.ty.Contents Val) {off : Fin S.rank → Nat} (hoff : off = fun _ => 0)
    (inb : ∀ a, off a + S.size a ≤ S.size a) :
    v.readAt Val (Rect.unit off S.size inb).toLoadRect f = v.read Val f := by
  rw [View.readAt_eq_ld, View.ld_unit_zero hoff]

/-- The offsets `![0, 0]` are zero on both axes. -/
theorem zero2 : (![0, 0] : Fin 2 → Nat) = fun _ => 0 := funext fun a => by fin_cases a <;> rfl

end Cert.Lib.Whole
-- ==== Proof.KIAttnPieces.lean ====
/-
  What the found stores amount to, at any float instance: after each way of running the attention body, the output
  block and the three scratch buffers hold the body's payload terms over the point's input blocks and over what the
  scratch buffers held before — a whole-buffer store leaves its payload, a whole-buffer load reads what the last
  store left.
-/
import proofs.«180255_j27049704030330_2_alg».proof.Proof.KIAttn
import proofs.«180255_j27049704030330_2_alg».proof.Proof.LibWhole

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

theorem hz3 : (![0, 0, 0] : Fin 3 → Nat) = fun _ => 0 := funext fun a => by fin_cases a <;> rfl

/-- A whole load after a whole store reads the stored payload (the two scratch shapes). -/
theorem rc1 (v : View sig .tc .vmem S1x1024x1 .f32) (w : S1x1024x1.Idx → Elt F .f32) (L : List (View.Piece (Elt F) S1x1024x1 .f32)) :
    v.readCov ((⟨Rect.unit (s := S1x1024x1) ![0, 0, 0] ![1, 1024, 1] inb_S1x1024x1_S1x1024x1_0_0_0, w⟩ : View.Piece (Elt F) S1x1024x1 .f32) :: L)
      (Rect.unit (s := S1x1024x1) ![0, 0, 0] ![1, 1024, 1] inb_S1x1024x1_S1x1024x1_0_0_0).toLoadRect = w :=
  Cert.Lib.Whole.readCov_whole (S := S1x1024x1) v hz3 inb_S1x1024x1_S1x1024x1_0_0_0 w L
theorem rc64 (v : View sig .tc .vmem S1x1024x64 .f32) (w : S1x1024x64.Idx → Elt F .f32) (L : List (View.Piece (Elt F) S1x1024x64 .f32)) :
    v.readCov ((⟨Rect.unit (s := S1x1024x64) ![0, 0, 0] ![1, 1024, 64] inb_S1x1024x64_S1x1024x64_0_0_0, w⟩ : View.Piece (Elt F) S1x1024x64 .f32) :: L)
      (Rect.unit (s := S1x1024x64) ![0, 0, 0] ![1, 1024, 64] inb_S1x1024x64_S1x1024x64_0_0_0).toLoadRect = w :=
  Cert.Lib.Whole.readCov_whole (S := S1x1024x64) v hz3 inb_S1x1024x64_S1x1024x64_0_0_0 w L

/-- A scratch buffer read whole holds what it was handed at. -/
theorem ru0 (h : (scM1_0).IsWhole) (x : Vec F S1x1024x1 .f32) :
    View.read (Elt F) (View.whole cc1_scratch0 : View sig .tc .vmem S1x1024x1 .f32) (h.unread x) = x := h.read_unread x
theorem ru1 (h : (scM1_1).IsWhole) (x : Vec F S1x1024x1 .f32) :
    View.read (Elt F) (View.whole cc1_scratch1 : View sig .tc .vmem S1x1024x1 .f32) (h.unread x) = x := h.read_unread x
theorem ru2 (h : (scM1_2).IsWhole) (x : Vec F S1x1024x64 .f32) :
    View.read (Elt F) (View.whole cc1_scratch2 : View sig .tc .vmem S1x1024x64 .f32) (h.unread x) = x := h.read_unread x

/-! ## Key tile 0 against query tile 0: reset, then the masked diagonal tile -/
theorem stepA_m (c : Dev nD) (t : Fin cfg1.N) (hc0 : cond1_0 (grid1.coords t)) (hc1 : ¬cond1_1 (grid1.coords t)) (hc2 : cond1_2 (grid1.coords t)) (hc3 : ¬cond1_3 (grid1.coords t)) :
    (stepA V c t hc0 hc1 hc2 hc3).2.1 = k1_pay8 (k1_pay19 (BitVec.ofNat 32 (grid1.coords t 1).val) (BitVec.ofNat 32 (grid1.coords t 2).val) (iblk1 V c 0 t) (iblk1 V c 1 t) k1_pay1) := by
  unfold stepA; dsimp only
  rw [View.read_writes_eq_canon _ _ _ (scover1_A_0 V c t hc0 hc1 hc2 hc3)]
  unfold kernelRun1_A; dsimp only
  sl_unfold_words
  rw [View.canon_cons_unit_zero hz3]
  simp only [View.readAt_eq_ld, View.ld_unit_zero (S := S1x1024x64) hz3, View.ld_unit_zero (S := S1x1024x1) hz3, Memref.IsWhole.read_unread, rc1, rc64, ru0, ru1, ru2]

theorem stepA_l (c : Dev nD) (t : Fin cfg1.N) (hc0 : cond1_0 (grid1.coords t)) (hc1 : ¬cond1_1 (grid1.coords t)) (hc2 : cond1_2 (grid1.coords t)) (hc3 : ¬cond1_3 (grid1.coords t)) :
    (stepA V c t hc0 hc1 hc2 hc3).2.2.1 = k1_pay6 (k1_pay22 (BitVec.ofNat 32 (grid1.coords t 1).val) (BitVec.ofNat 32 (grid1.coords t 2).val) (iblk1 V c 0 t) (iblk1 V c 1 t) k1_pay1 k1_pay1 k1_pay2) := by
  unfold stepA; dsimp only
  rw [View.read_writes_eq_canon _ _ _ (scover1_A_1 V c t hc0 hc1 hc2 hc3)]
  unfold kernelRun1_A; dsimp only
  sl_unfold_words
  rw [View.canon_cons_unit_zero hz3]
  simp only [View.readAt_eq_ld, View.ld_unit_zero (S := S1x1024x64) hz3, View.ld_unit_zero (S := S1x1024x1) hz3, Memref.IsWhole.read_unread, rc1, rc64, ru0, ru1, ru2]

theorem stepA_acc (c : Dev nD) (t : Fin cfg1.N) (hc0 : cond1_0 (grid1.coords t)) (hc1 : ¬cond1_1 (grid1.coords t)) (hc2 : cond1_2 (grid1.coords t)) (hc3 : ¬cond1_3 (grid1.coords t)) :
    (stepA V c t hc0 hc1 hc2 hc3).2.2.2 = k1_pay7 (k1_pay20 (BitVec.ofNat 32 (grid1.coords t 1).val) (BitVec.ofNat 32 (grid1.coords t 2).val) (iblk1 V c 0 t) (iblk1 V c 1 t) k1_pay1 k1_pay1) (k1_pay21 (BitVec.ofNat 32 (grid1.coords t 1).val) (BitVec.ofNat 32 (grid1.coords t 2).val) (iblk1 V c 0 t) (iblk1 V c 1 t) k1_pay1) (iblk1 V c 2 t) k1_pay3 := by
  unfold stepA; dsimp only
  rw [View.read_writes_eq_canon _ _ _ (scover1_A_2 V c t hc0 hc1 hc2 hc3)]
  unfold kernelRun1_A; dsimp only
  sl_unfold_words
  rw [View.canon_cons_unit_zero hz3]
  simp only [View.readAt_eq_ld, View.ld_unit_zero (S := S1x1024x64) hz3, View.ld_unit_zero (S := S1x1024x1) hz3, Memref.IsWhole.read_unread, rc1, rc64, ru0, ru1, ru2]

/-! ## Key tile 0 against query tile 1: reset, then the unmasked tile -/
theorem stepC_m (c : Dev nD) (t : Fin cfg1.N) (hc0 : cond1_0 (grid1.coords t)) (hc1 : cond1_1 (grid1.coords t)) (hc2 : ¬cond1_2 (grid1.coords t)) (hc3 : ¬cond1_3 (grid1.coords t)) :
    (stepC V c t hc0 hc1 hc2 hc3).2.1 = k1_pay5 (k1_pay11 (iblk1 V c 0 t) (iblk1 V c 1 t) k1_pay1) := by
  unfold stepC; dsimp only
  rw [View.read_writes_eq_canon _ _ _ (scover1_C_0 V c t hc0 hc1 hc2 hc3)]
  unfold kernelRun1_C; dsimp only
  sl_unfold_words
  rw [View.canon_cons_unit_zero hz3]
  simp only [View.readAt_eq_ld, View.ld_unit_zero (S := S1x1024x64) hz3, View.ld_unit_zero (S := S1x1024x1) hz3, Memref.IsWhole.read_unread, rc1, rc64, ru0, ru1, ru2]

theorem stepC_l (c : Dev nD) (t : Fin cfg1.N) (hc0 : cond1_0 (grid1.coords t)) (hc1 : cond1_1 (grid1.coords t)) (hc2 : ¬cond1_2 (grid1.coords t)) (hc3 : ¬cond1_3 (grid1.coords t)) :
    (stepC V c t hc0 hc1 hc2 hc3).2.2.1 = k1_pay14 (iblk1 V c 0 t) (iblk1 V c 1 t) k1_pay1 k1_pay1 k1_pay2 := by
  unfold stepC; dsimp only
  rw [View.read_writes_eq_canon _ _ _ (scover1_C_1 V c t hc0 hc1 hc2 hc3)]
  unfold kernelRun1_C; dsimp only
  sl_unfold_words
  rw [View.canon_cons_unit_zero hz3]
  simp only [View.readAt_eq_ld, View.ld_unit_zero (S := S1x1024x64) hz3, View.ld_unit_zero (S := S1x1024x1) hz3, Memref.IsWhole.read_unread, rc1, rc64, ru0, ru1, ru2]

theorem stepC_acc (c : Dev nD) (t : Fin cfg1.N) (hc0 : cond1_0 (grid1.coords t)) (hc1 : cond1_1 (grid1.coords t)) (hc2 : ¬cond1_2 (grid1.coords t)) (hc3 : ¬cond1_3 (grid1.coords t)) :
    (stepC V c t hc0 hc1 hc2 hc3).2.2.2 = k1_pay4 (k1_pay15 (iblk1 V c 2 t)) (k1_pay16 (iblk1 V c 0 t) (iblk1 V c 1 t) k1_pay1 k1_pay1 k1_pay3) (k1_pay17 (iblk1 V c 0 t) (iblk1 V c 1 t) k1_pay1) := by
  unfold stepC; dsimp only
  rw [View.read_writes_eq_canon _ _ _ (scover1_C_2 V c t hc0 hc1 hc2 hc3)]
  unfold kernelRun1_C; dsimp only
  sl_unfold_words
  rw [View.canon_cons_unit_zero hz3]
  simp only [View.readAt_eq_ld, View.ld_unit_zero (S := S1x1024x64) hz3, View.ld_unit_zero (S := S1x1024x1) hz3, Memref.IsWhole.read_unread, rc1, rc64, ru0, ru1, ru2]

/-! ## Key tile 1 against query tile 0: the quotient of what the point before left -/
theorem stepB_out (c : Dev nD) (t : Fin cfg1.N) (hc0 : ¬cond1_0 (grid1.coords t)) (hc1 : ¬cond1_1 (grid1.coords t)) (hc2 : ¬cond1_2 (grid1.coords t)) (hc3 : cond1_3 (grid1.coords t)) (p : St1 (F := F)) :
    (stepB V c t hc0 hc1 hc2 hc3 p).1 = k1_pay9 p.2.2.2 p.2.2.1 := by
  unfold stepB; dsimp only
  rw [View.read_writes_eq_canon _ _ _ (cover1_B_3 V c t hc0 hc1 hc2 hc3 p)]
  unfold kernelRun1_B; dsimp only
  sl_unfold_words
  rw [View.canon_unit_zero hz3]
  simp only [View.readAt_eq_ld, View.ld_unit_zero (S := S1x1024x64) hz3, View.ld_unit_zero (S := S1x1024x1) hz3, Memref.IsWhole.read_unread, rc1, rc64, ru0, ru1, ru2]

/-! ## Key tile 1 against query tile 1: the masked diagonal tile onto what the point before left, then the quotient -/
theorem stepD_out (c : Dev nD) (t : Fin cfg1.N) (hc0 : ¬cond1_0 (grid1.coords t)) (hc1 : ¬cond1_1 (grid1.coords t)) (hc2 : cond1_2 (grid1.coords t)) (hc3 : cond1_3 (grid1.coords t)) (p : St1 (F := F)) :
    (stepD V c t hc0 hc1 hc2 hc3 p).1 = k1_pay9 (k1_pay7 (k1_pay20 (BitVec.ofNat 32 (grid1.coords t 1).val) (BitVec.ofNat 32 (grid1.coords t 2).val) (iblk1 V c 0 t) (iblk1 V c 1 t) p.2.1 p.2.1) (k1_pay21 (BitVec.ofNat 32 (grid1.coords t 1).val) (BitVec.ofNat 32 (grid1.coords t 2).val) (iblk1 V c 0 t) (iblk1 V c 1 t) p.2.1) (iblk1 V c 2 t) p.2.2.2) (k1_pay6 (k1_pay22 (BitVec.ofNat 32 (grid1.coords t 1).val) (BitVec.ofNat 32 (grid1.coords t 2).val) (iblk1 V c 0 t) (iblk1 V c 1 t) p.2.1 p.2.1 p.2.2.1)) := by
  unfold stepD; dsimp only
  rw [View.read_writes_eq_canon _ _ _ (cover1_D_3 V c t hc0 hc1 hc2 hc3 p)]
  unfold kernelRun1_D; dsimp only
  sl_unfold_words
  rw [View.canon_unit_zero hz3]
  simp only [View.readAt_eq_ld, View.ld_unit_zero (S := S1x1024x64) hz3, View.ld_unit_zero (S := S1x1024x1) hz3, Memref.IsWhole.read_unread, rc1, rc64, ru0, ru1, ru2]

end Cert.KernelIdeal.Frame

end
-- ==== Proof.KIAttnPay.lean ====
/-
  The attention kernel's payloads read at an index, at the ideal values, as the row-wise objects of the
  softmax-weighted sum accumulated tile by tile: the three initial arrays are the empty state's fields; a tile's
  payloads are the fields of the state after one more tile of scores; the last payload is the read-out quotient.

  Row r of a [1, 1024, ·] block is the index (0, r, ·). The scores of a tile against the row are the contraction
  over the 64 columns of the query row, scaled by 8, with the key rows; the diagonal tile keeps the keys j ≤ r
  and masks the others with ⊥.
-/
import proofs.«180255_j27049704030330_2_alg».proof.Proof.Gen.KernelIdeal.Skeleton
import proofs.«180255_j27049704030330_2_alg».proof.Proof.AttnSpec
import proofs.«180255_j27049704030330_2_alg».proof.Proof.LibContract
import proofs.«180255_j27049704030330_2_alg».proof.Proof.LibLay3
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.AttnPay

open Idealize.ShloMosaic Idealize.ShloMosaic.ValueIdx Cert.KernelIdeal Cert.KernelIdeal.Gen Cert.Attn

/-! ### The constants -/

theorem ofBits_neg_inf : Ideal.ofBits .f32 0xFF800000#32 = ⊥ := by simp [Ideal.ofBits, Ideal.ieee]

theorem ofBits_zero : Ideal.ofBits .f32 0x00000000#32 = 0 := Ideal.ofBits_zero_f32

/-- The bf16 pattern `0x4100` denotes 8. -/
theorem ofBits_eight : Ideal.ofBits .bf16 0x4100#16 = 8 := by
  simp [Ideal.ofBits, Ideal.ieee, -EReal.coe_mul]; norm_num; rfl

/-- The masking constant is `⊥` at the ideal values. -/
theorem neg_big : (Named.named (F := Ideal) κ "neg_big" (φ := .f32) 0xFF333332#32) = ⊥ := rfl

/-! ### The row-wise objects -/

/-- Row `r`'s running state as the three scratch arrays hold it. -/
def st (mS lS : Vec Ideal S1x1024x1 .f32) (aS : Vec Ideal S1x1024x64 .f32) (r : Fin 1024) : Row.St 64 :=
  ⟨mS (ix3 (0 : Fin 1) r (0 : Fin 1)), lS (ix3 (0 : Fin 1) r (0 : Fin 1)), fun h => aS (ix3 (0 : Fin 1) r h)⟩

/-- The tile's values: key row `j`, column `h`. -/
def uV (x2 : Vec Ideal S1x1024x64 .bf16) (j : Fin 1024) (h : Fin 64) : EReal := x2 (ix3 (0 : Fin 1) j h)

/-- The tile's scores against query row `r`: the contraction of the row scaled by 8 with key row `j`. -/
def tI (x0 x1 : Vec Ideal S1x1024x64 .bf16) (r j : Fin 1024) : EReal :=
  ∑ h : Fin 64, (x0 (ix3 (0 : Fin 1) r h) * 8) * x1 (ix3 (0 : Fin 1) j h)

/-- The diagonal tile's scores: the keys after the query are masked. -/
def tD (x0 x1 : Vec Ideal S1x1024x64 .bf16) (r j : Fin 1024) : EReal :=
  if j.val ≤ r.val then tI x0 x1 r j else ⊥

/-! ### The empty state -/

theorem pay1_apply (r : Fin 1024) : k1_pay1 (F := Ideal) (ix3 (0 : Fin 1) r (0 : Fin 1)) = ⊥ := by
  simp only [k1_pay1, shapeCast_self, broadcast_apply]
  exact ofBits_neg_inf

theorem pay2_apply (r : Fin 1024) : k1_pay2 (F := Ideal) (ix3 (0 : Fin 1) r (0 : Fin 1)) = 0 := by
  simp only [k1_pay2, shapeCast_self, broadcast_apply]
  exact ofBits_zero

theorem pay3_apply (r : Fin 1024) (h : Fin 64) : k1_pay3 (F := Ideal) (ix3 (0 : Fin 1) r h) = 0 := by
  simp only [k1_pay3, shapeCast_self, broadcast_apply]
  exact ofBits_zero

/-- The three initial arrays are the empty state's fields. -/
theorem init_eq (r : Fin 1024) :
    (⟨k1_pay1 (F := Ideal) (ix3 (0 : Fin 1) r (0 : Fin 1)), k1_pay2 (F := Ideal) (ix3 (0 : Fin 1) r (0 : Fin 1)),
      fun h => k1_pay3 (F := Ideal) (ix3 (0 : Fin 1) r h)⟩ : Row.St 64) = Row.init := by
  rw [pay1_apply, pay2_apply]
  simp only [pay3_apply]
  rfl

/-! ### The read-out -/

theorem pay9_apply (mS lS : Vec Ideal S1x1024x1 .f32) (aS : Vec Ideal S1x1024x64 .f32) (r : Fin 1024) (h : Fin 64) :
    k1_pay9 (F := Ideal) aS lS (ix3 (0 : Fin 1) r h) = Row.fin (st mS lS aS r) h := by
  simp only [k1_pay9]
  exact congrArg (Ideal.div (aS (ix3 (0 : Fin 1) r h)))
    (Cert.GQA.Lay.broadcastTo_ab1_abd_apply lS broadcasts_S1x1024x1_S1x1024x64 (0 : Fin 1) r h)

/-! ### Layout readings at rank three -/

/-- The index a reduction over the last axis inserts: `(p, q)` with `k` put back is `(p, q, k)`. -/
theorem lift3 {a b c : ℕ} (h : (⟨3, ![a, b, c]⟩ : Shape).Reduces [2] (⟨2, ![a, b]⟩ : Shape)) (p : Fin a) (q : Fin b)
    (k : Fin ((⟨3, ![a, b, c]⟩ : Shape).size 2)) : h.lift (ix2 p q) k = ix3 p q (⟨k.val, k.isLt⟩ : Fin c) := by
  funext d; apply Fin.ext
  fin_cases d <;> rfl

/-- The largest entry along the last axis, taken from the accumulator's value: the fold of `max` over that axis. -/
theorem rowMax3 {a b c : ℕ} (src : FVec Ideal ⟨3, ![a, b, c]⟩ .f32) (acc : BitVec 32)
    (h : (⟨3, ![a, b, c]⟩ : Shape).Reduces [2] (⟨2, ![a, b]⟩ : Shape)) (hφ : FKind.Formats .f32)
    (hacc : acc = FKind.maximumf.neutral .f32 hφ) (p : Fin a) (q : Fin b) :
    multiReduction .maximumf [2] (⟨2, ![a, b]⟩ : Shape) src acc h hφ hacc (ix2 p q)
      = (Finset.univ : Finset (Fin c)).fold max (Ideal.ofBits .f32 acc) (fun k => src (ix3 p q k)) := by
  refine (Ideal.multiReduction_maximumf_single src acc h hφ hacc (ix2 p q)).trans ?_
  exact congrArg (Finset.fold max (Ideal.ofBits .f32 acc) · (Finset.univ : Finset (Fin c)))
    (funext fun k => congrArg src (lift3 h p q k))

/-- The sum along the last axis. -/
theorem rowSum3 {a b c : ℕ} (src : FVec Ideal ⟨3, ![a, b, c]⟩ .f32)
    (h : (⟨3, ![a, b, c]⟩ : Shape).Reduces [2] (⟨2, ![a, b]⟩ : Shape)) (hφ : FKind.Formats .f32)
    (hacc : (0x00000000#32 : BitVec 32) = FKind.add.neutral .f32 hφ) (p : Fin a) (q : Fin b) :
    multiReduction .add [2] (⟨2, ![a, b]⟩ : Shape) src 0x00000000#32 h hφ hacc (ix2 p q)
      = ∑ k : Fin c, src (ix3 p q k) := by
  refine (Ideal.multiReduction_add_single src 0x00000000#32 h hφ hacc (ix2 p q)).trans ?_
  exact Finset.sum_congr rfl fun k _ => congrArg src (lift3 h p q k)

/-! ### The two contractions at an index -/

section Dots
variable (j : S1x1024x1024.Idx) (q : dot_S1x1024x64_S1x1024x64_S1x1024x1024_2_2_1_1_0_0.contr.Idx)

theorem qk_lhs0 : (dot_S1x1024x64_S1x1024x64_S1x1024x1024_2_2_1_1_0_0.lhsIdx j q 0).val = (j 0).val := by
  unfold DotDims.lhsIdx
  rw [dif_pos (show (0 : Fin S1x1024x64.rank) ∈ dot_S1x1024x64_S1x1024x64_S1x1024x1024_2_2_1_1_0_0.lhsBatch by decide)]
  rfl
theorem qk_lhs1 : (dot_S1x1024x64_S1x1024x64_S1x1024x1024_2_2_1_1_0_0.lhsIdx j q 1).val = (j 1).val := by
  unfold DotDims.lhsIdx
  rw [dif_neg (show ¬(1 : Fin S1x1024x64.rank) ∈ dot_S1x1024x64_S1x1024x64_S1x1024x1024_2_2_1_1_0_0.lhsBatch by decide),
    dif_pos (show (1 : Fin S1x1024x64.rank) ∈ dot_S1x1024x64_S1x1024x64_S1x1024x1024_2_2_1_1_0_0.lhsNonContracting by decide)]
  rfl
theorem qk_lhs2 : (dot_S1x1024x64_S1x1024x64_S1x1024x1024_2_2_1_1_0_0.lhsIdx j q 2).val = (q ⟨0, by decide⟩).val :=
  dot_S1x1024x64_S1x1024x64_S1x1024x1024_2_2_1_1_0_0.lhsIdx_val_of_single rfl j q
theorem qk_rhs0 : (dot_S1x1024x64_S1x1024x64_S1x1024x1024_2_2_1_1_0_0.rhsIdx j q 0).val = (j 0).val := by
  unfold DotDims.rhsIdx
  rw [dif_pos (show (0 : Fin S1x1024x64.rank) ∈ dot_S1x1024x64_S1x1024x64_S1x1024x1024_2_2_1_1_0_0.rhsBatch by decide)]
  rfl
theorem qk_rhs1 : (dot_S1x1024x64_S1x1024x64_S1x1024x1024_2_2_1_1_0_0.rhsIdx j q 1).val = (j 2).val := by
  unfold DotDims.rhsIdx
  rw [dif_neg (show ¬(1 : Fin S1x1024x64.rank) ∈ dot_S1x1024x64_S1x1024x64_S1x1024x1024_2_2_1_1_0_0.rhsBatch by decide),
    dif_pos (show (1 : Fin S1x1024x64.rank) ∈ dot_S1x1024x64_S1x1024x64_S1x1024x1024_2_2_1_1_0_0.rhsNonContracting by decide)]
  rfl
theorem qk_rhs2 : (dot_S1x1024x64_S1x1024x64_S1x1024x1024_2_2_1_1_0_0.rhsIdx j q 2).val = (q ⟨0, by decide⟩).val :=
  dot_S1x1024x64_S1x1024x64_S1x1024x1024_2_2_1_1_0_0.rhsIdx_val_of_single rfl j q
end Dots

/-- The scores' contraction: entry `(0, r, c)` sums, over the 64 columns, the left row `r` times the right row `c`. -/
theorem qk_apply (x y : FVec Ideal S1x1024x64 .bf16) (r c : Fin 1024) :
    matmul dot_S1x1024x64_S1x1024x64_S1x1024x1024_2_2_1_1_0_0 none x y (constant (F := Ideal) S1x1024x1024 .f32 0x00000000#32) (ix3 (0 : Fin 1) r c)
      = ∑ k : Fin 64, x (ix3 (0 : Fin 1) r k) * y (ix3 (0 : Fin 1) c k) :=
  Contract1.matmul_zero dot_S1x1024x64_S1x1024x64_S1x1024x1024_2_2_1_1_0_0 64 rfl rfl none x y (ix3 (0 : Fin 1) r c)
    (fun k => ix3 (0 : Fin 1) r k) (fun k => ix3 (0 : Fin 1) c k)
    (fun k q hq => funext fun a => Fin.ext (by
      match a with
      | ⟨0, _⟩ => exact qk_lhs0 _ _
      | ⟨1, _⟩ => exact qk_lhs1 _ _
      | ⟨2, _⟩ => exact (qk_lhs2 _ _).trans hq))
    (fun k q hq => funext fun a => Fin.ext (by
      match a with
      | ⟨0, _⟩ => exact qk_rhs0 _ _
      | ⟨1, _⟩ => exact qk_rhs1 _ _
      | ⟨2, _⟩ => exact (qk_rhs2 _ _).trans hq))

section Dots2
variable (j : S1x1024x64.Idx) (q : dot_S1x1024x1024_S1x1024x64_S1x1024x64_2_1_1_2_0_0.contr.Idx)

theorem pv_lhs0 : (dot_S1x1024x1024_S1x1024x64_S1x1024x64_2_1_1_2_0_0.lhsIdx j q 0).val = (j 0).val := by
  unfold DotDims.lhsIdx
  rw [dif_pos (show (0 : Fin S1x1024x1024.rank) ∈ dot_S1x1024x1024_S1x1024x64_S1x1024x64_2_1_1_2_0_0.lhsBatch by decide)]
  rfl
theorem pv_lhs1 : (dot_S1x1024x1024_S1x1024x64_S1x1024x64_2_1_1_2_0_0.lhsIdx j q 1).val = (j 1).val := by
  unfold DotDims.lhsIdx
  rw [dif_neg (show ¬(1 : Fin S1x1024x1024.rank) ∈ dot_S1x1024x1024_S1x1024x64_S1x1024x64_2_1_1_2_0_0.lhsBatch by decide),
    dif_pos (show (1 : Fin S1x1024x1024.rank) ∈ dot_S1x1024x1024_S1x1024x64_S1x1024x64_2_1_1_2_0_0.lhsNonContracting by decide)]
  rfl
theorem pv_lhs2 : (dot_S1x1024x1024_S1x1024x64_S1x1024x64_2_1_1_2_0_0.lhsIdx j q 2).val = (q ⟨0, by decide⟩).val :=
  dot_S1x1024x1024_S1x1024x64_S1x1024x64_2_1_1_2_0_0.lhsIdx_val_of_single rfl j q
theorem pv_rhs0 : (dot_S1x1024x1024_S1x1024x64_S1x1024x64_2_1_1_2_0_0.rhsIdx j q 0).val = (j 0).val := by
  unfold DotDims.rhsIdx
  rw [dif_pos (show (0 : Fin S1x1024x64.rank) ∈ dot_S1x1024x1024_S1x1024x64_S1x1024x64_2_1_1_2_0_0.rhsBatch by decide)]
  rfl
theorem pv_rhs1 : (dot_S1x1024x1024_S1x1024x64_S1x1024x64_2_1_1_2_0_0.rhsIdx j q 1).val = (q ⟨0, by decide⟩).val :=
  dot_S1x1024x1024_S1x1024x64_S1x1024x64_2_1_1_2_0_0.rhsIdx_val_of_single rfl j q
theorem pv_rhs2 : (dot_S1x1024x1024_S1x1024x64_S1x1024x64_2_1_1_2_0_0.rhsIdx j q 2).val = (j 2).val := by
  unfold DotDims.rhsIdx
  rw [dif_neg (show ¬(2 : Fin S1x1024x64.rank) ∈ dot_S1x1024x1024_S1x1024x64_S1x1024x64_2_1_1_2_0_0.rhsBatch by decide),
    dif_pos (show (2 : Fin S1x1024x64.rank) ∈ dot_S1x1024x1024_S1x1024x64_S1x1024x64_2_1_1_2_0_0.rhsNonContracting by decide)]
  rfl
end Dots2

/-- The weights-times-values contraction: entry `(0, r, h)` sums, over the 1024 keys, the weight `(0, r, c)` times
    the value `(0, c, h)`. -/
theorem pv_apply (p : FVec Ideal S1x1024x1024 .bf16) (v : FVec Ideal S1x1024x64 .bf16) (r : Fin 1024) (h : Fin 64) :
    matmul dot_S1x1024x1024_S1x1024x64_S1x1024x64_2_1_1_2_0_0 none p v (constant (F := Ideal) S1x1024x64 .f32 0x00000000#32) (ix3 (0 : Fin 1) r h)
      = ∑ c : Fin 1024, p (ix3 (0 : Fin 1) r c) * v (ix3 (0 : Fin 1) c h) :=
  Contract1.matmul_zero dot_S1x1024x1024_S1x1024x64_S1x1024x64_2_1_1_2_0_0 1024 rfl rfl none p v (ix3 (0 : Fin 1) r h)
    (fun c => ix3 (0 : Fin 1) r c) (fun c => ix3 (0 : Fin 1) c h)
    (fun k q hq => funext fun a => Fin.ext (by
      match a with
      | ⟨0, _⟩ => exact pv_lhs0 _ _
      | ⟨1, _⟩ => exact pv_lhs1 _ _
      | ⟨2, _⟩ => exact (pv_lhs2 _ _).trans hq))
    (fun k q hq => funext fun a => Fin.ext (by
      match a with
      | ⟨0, _⟩ => exact pv_rhs0 _ _
      | ⟨1, _⟩ => exact (pv_rhs1 _ _).trans hq
      | ⟨2, _⟩ => exact pv_rhs2 _ _))

/-! ### The unmasked tile -/

theorem pay10_apply (x0 x1 : Vec Ideal S1x1024x64 .bf16) (r c : Fin 1024) :
    k1_pay10 (F := Ideal) x0 x1 (ix3 (0 : Fin 1) r c) = tI x0 x1 r c := by
  simp only [k1_pay10, shapeCast_self]
  refine (qk_apply _ _ r c).trans ?_
  refine Finset.sum_congr rfl fun k _ => ?_
  show x0 (ix3 (0 : Fin 1) r k) * Ideal.ofBits .bf16 0x4100#16 * x1 (ix3 (0 : Fin 1) c k) = _
  rw [ofBits_eight]

theorem pay11_apply (x0 x1 : Vec Ideal S1x1024x64 .bf16) (mS : Vec Ideal S1x1024x1 .f32) (r : Fin 1024) :
    k1_pay11 (F := Ideal) x0 x1 mS (ix3 (0 : Fin 1) r (0 : Fin 1))
      = max (mS (ix3 (0 : Fin 1) r (0 : Fin 1))) (Row.tmax (tI x0 x1 r)) := by
  simp only [k1_pay11]
  rw [maximumf_apply]
  refine congrArg (max (mS (ix3 (0 : Fin 1) r (0 : Fin 1)))) ?_
  refine (Cert.GQA.Lay.shapeCast_ab_ab1_apply _ shapeCasts_S1x1024_S1x1024x1 (0 : Fin 1) r (0 : Fin 1)).trans ?_
  refine (rowMax3 _ _ reduces_S1x1024x1024_S1x1024 _ _ (0 : Fin 1) r).trans ?_
  show Finset.fold max (Ideal.ofBits .f32 0xFF800000#32) (fun k => k1_pay10 (F := Ideal) x0 x1 (ix3 (0 : Fin 1) r k))
    Finset.univ = Finset.fold max ⊥ (tI x0 x1 r) Finset.univ
  rw [ofBits_neg_inf, funext (pay10_apply x0 x1 r)]

/-- The state after one more tile, field by field, at the scratch arrays' state. -/
theorem upd_m_st (mS lS : Vec Ideal S1x1024x1 .f32) (aS : Vec Ideal S1x1024x64 .f32) (r : Fin 1024)
    (t : Fin 1024 → EReal) (u : Fin 1024 → Fin 64 → EReal) :
    (Row.upd (st mS lS aS r) t u).m = max (mS (ix3 (0 : Fin 1) r (0 : Fin 1))) (Row.tmax t) := rfl

theorem upd_l_st (mS lS : Vec Ideal S1x1024x1 .f32) (aS : Vec Ideal S1x1024x64 .f32) (r : Fin 1024)
    (t : Fin 1024 → EReal) (u : Fin 1024 → Fin 64 → EReal) :
    (Row.upd (st mS lS aS r) t u).l
      = Ideal.exp (mS (ix3 (0 : Fin 1) r (0 : Fin 1)) - max (mS (ix3 (0 : Fin 1) r (0 : Fin 1))) (Row.tmax t)) * lS (ix3 (0 : Fin 1) r (0 : Fin 1))
        + ∑ j : Fin 1024, Ideal.exp (t j - max (mS (ix3 (0 : Fin 1) r (0 : Fin 1))) (Row.tmax t)) := rfl

theorem upd_acc_st (mS lS : Vec Ideal S1x1024x1 .f32) (aS : Vec Ideal S1x1024x64 .f32) (r : Fin 1024)
    (t : Fin 1024 → EReal) (u : Fin 1024 → Fin 64 → EReal) (h : Fin 64) :
    (Row.upd (st mS lS aS r) t u).acc h
      = Ideal.exp (mS (ix3 (0 : Fin 1) r (0 : Fin 1)) - max (mS (ix3 (0 : Fin 1) r (0 : Fin 1))) (Row.tmax t)) * aS (ix3 (0 : Fin 1) r h)
        + ∑ j : Fin 1024, Ideal.exp (t j - max (mS (ix3 (0 : Fin 1) r (0 : Fin 1))) (Row.tmax t)) * u j h := rfl

theorem pay12_apply (x0 x1 : Vec Ideal S1x1024x64 .bf16) (mS mS' : Vec Ideal S1x1024x1 .f32) (r : Fin 1024) :
    k1_pay12 (F := Ideal) x0 x1 mS mS' (ix3 (0 : Fin 1) r (0 : Fin 1))
      = Ideal.exp (mS' (ix3 (0 : Fin 1) r (0 : Fin 1)) - k1_pay11 (F := Ideal) x0 x1 mS (ix3 (0 : Fin 1) r (0 : Fin 1))) := rfl

theorem pay13_apply (x0 x1 : Vec Ideal S1x1024x64 .bf16) (mS : Vec Ideal S1x1024x1 .f32) (r c : Fin 1024) :
    k1_pay13 (F := Ideal) x0 x1 mS (ix3 (0 : Fin 1) r c)
      = Ideal.exp (tI x0 x1 r c - k1_pay11 (F := Ideal) x0 x1 mS (ix3 (0 : Fin 1) r (0 : Fin 1))) := by
  simp only [k1_pay13]
  exact congrArg Ideal.exp (congrArg₂ (· - ·) (pay10_apply x0 x1 r c)
    (Cert.GQA.Lay.broadcastTo_ab1_abd_apply _ broadcasts_S1x1024x1_S1x1024x1024 (0 : Fin 1) r c))

/-- The running maximum after an unmasked tile. -/
theorem pay5_apply (x0 x1 x2 : Vec Ideal S1x1024x64 .bf16) (mS lS : Vec Ideal S1x1024x1 .f32)
    (aS : Vec Ideal S1x1024x64 .f32) (r : Fin 1024) :
    k1_pay5 (F := Ideal) (k1_pay11 (F := Ideal) x0 x1 mS) (ix3 (0 : Fin 1) r (0 : Fin 1))
      = (Row.upd (st mS lS aS r) (tI x0 x1 r) (uV x2)).m := by
  simp only [k1_pay5, shapeCast_self]
  exact pay11_apply x0 x1 mS r

/-- The running denominator after an unmasked tile. -/
theorem pay14_apply (x0 x1 x2 : Vec Ideal S1x1024x64 .bf16) (mS lS : Vec Ideal S1x1024x1 .f32)
    (aS : Vec Ideal S1x1024x64 .f32) (r : Fin 1024) :
    k1_pay14 (F := Ideal) x0 x1 mS mS lS (ix3 (0 : Fin 1) r (0 : Fin 1))
      = (Row.upd (st mS lS aS r) (tI x0 x1 r) (uV x2)).l := by
  simp only [k1_pay14, shapeCast_self]
  rw [addf_apply, mulf_apply, upd_l_st]
  refine congrArg₂ (· + ·) (congrArg₂ (· * ·) ?_ rfl) ?_
  · rw [pay12_apply, pay11_apply]
  · refine (Cert.GQA.Lay.shapeCast_ab_ab1_apply _ shapeCasts_S1x1024_S1x1024x1 (0 : Fin 1) r (0 : Fin 1)).trans ?_
    refine (rowSum3 _ reduces_S1x1024x1024_S1x1024 _ _ (0 : Fin 1) r).trans ?_
    refine Finset.sum_congr rfl fun c _ => ?_
    rw [pay13_apply, pay11_apply]

/-- The running numerator after an unmasked tile. -/
theorem pay4_apply (x0 x1 x2 : Vec Ideal S1x1024x64 .bf16) (mS lS : Vec Ideal S1x1024x1 .f32)
    (aS : Vec Ideal S1x1024x64 .f32) (r : Fin 1024) (h : Fin 64) :
    k1_pay4 (F := Ideal) (k1_pay15 (F := Ideal) x2) (k1_pay16 (F := Ideal) x0 x1 mS mS aS)
        (k1_pay17 (F := Ideal) x0 x1 mS) (ix3 (0 : Fin 1) r h)
      = (Row.upd (st mS lS aS r) (tI x0 x1 r) (uV x2)).acc h := by
  simp only [k1_pay4, k1_pay15, k1_pay16, k1_pay17, shapeCast_self]
  rw [addf_apply, mulf_apply, upd_acc_st]
  refine congrArg₂ (· + ·) (congrArg₂ (· * ·) ?_ rfl) ?_
  · refine (Cert.GQA.Lay.broadcastTo_ab1_abd_apply _ broadcasts_S1x1024x1_S1x1024x64 (0 : Fin 1) r h).trans ?_
    rw [pay12_apply, pay11_apply]
  · refine (pv_apply _ _ r h).trans ?_
    refine Finset.sum_congr rfl fun c _ => ?_
    rw [truncf_apply, pay13_apply, pay11_apply]
    rfl

/-! ### The diagonal tile -/

/-- The mask's comparison on a diagonal tile: with both grid words `q`, column `q·1024 + c` is at most row
    `q·1024 + r`, compared as signed words, exactly when `c ≤ r`. -/
theorem mask_apply (a1 a2 : BitVec 32) (q : ℕ) (ha1 : a1 = BitVec.ofNat 32 q) (ha2 : a2 = BitVec.ofNat 32 q) (hq : q < 2) (r c : Fin 1024) :
    cmpi .sle (addi (broadcast S1x1024x1024 (Scalar.muli a2 1024#32)) (iota .tc S1x1024x1024 32 [2] iota_S1x1024x1024_d2_w32))
        (addi (broadcast S1x1024x1024 (Scalar.muli a1 1024#32)) (iota .tc S1x1024x1024 32 [1] iota_S1x1024x1024_d1_w32))
        (ix3 (0 : Fin 1) r c)
      = if c.val ≤ r.val then 1#1 else 0#1 := by
  subst ha1 ha2
  show Scalar.cmpi .sle
      (Scalar.addi (Scalar.muli (BitVec.ofNat 32 q) 1024#32)
        (iota .tc S1x1024x1024 32 [2] iota_S1x1024x1024_d2_w32 (ix3 (0 : Fin 1) r c)))
      (Scalar.addi (Scalar.muli (BitVec.ofNat 32 q) 1024#32)
        (iota .tc S1x1024x1024 32 [1] iota_S1x1024x1024_d1_w32 (ix3 (0 : Fin 1) r c))) = _
  rw [iota_single_apply, iota_single_apply]
  show Scalar.cmpi .sle (Scalar.addi (Scalar.muli (BitVec.ofNat 32 q) 1024#32) (BitVec.ofNat 32 c.val))
      (Scalar.addi (Scalar.muli (BitVec.ofNat 32 q) 1024#32) (BitVec.ofNat 32 r.val)) = _
  have hc := c.isLt
  have hr := r.isLt
  have hQ : Affine.IsInt (Scalar.muli (BitVec.ofNat 32 q) 1024#32) ((q : Int) * 1024) :=
    Affine.muli (Affine.ofNat q ⟨rfl, by omega⟩) (Affine.ofNat 1024 ⟨rfl, by omega⟩) ⟨by push_cast; ring, by omega, by omega⟩
  have hC : Affine.IsInt (Scalar.addi (Scalar.muli (BitVec.ofNat 32 q) 1024#32) (BitVec.ofNat 32 c.val))
      ((q : Int) * 1024 + (c.val : Int)) :=
    Affine.addi hQ (Affine.ofNat c.val ⟨rfl, by omega⟩) ⟨rfl, by omega, by omega⟩
  have hR : Affine.IsInt (Scalar.addi (Scalar.muli (BitVec.ofNat 32 q) 1024#32) (BitVec.ofNat 32 r.val))
      ((q : Int) * 1024 + (r.val : Int)) :=
    Affine.addi hQ (Affine.ofNat r.val ⟨rfl, by omega⟩) ⟨rfl, by omega, by omega⟩
  split
  · exact Affine.sle_holds hC hR (by omega)
  · exact eq_zero_of_ne_one (Affine.sle_fails hC hR (by omega))

theorem pay18_apply (a1 a2 : BitVec 32) (q : ℕ) (ha1 : a1 = BitVec.ofNat 32 q) (ha2 : a2 = BitVec.ofNat 32 q) (hq : q < 2)
    (x0 x1 : Vec Ideal S1x1024x64 .bf16) (r c : Fin 1024) :
    k1_pay18 (F := Ideal) a1 a2 x0 x1 (ix3 (0 : Fin 1) r c) = tD x0 x1 r c := by
  simp only [k1_pay18]
  rw [select_apply, mask_apply a1 a2 q ha1 ha2 hq r c]
  unfold tD
  split
  · rw [select_one]; exact pay10_apply x0 x1 r c
  · rw [select_zero]; rfl

theorem pay19_apply (a1 a2 : BitVec 32) (q : ℕ) (ha1 : a1 = BitVec.ofNat 32 q) (ha2 : a2 = BitVec.ofNat 32 q) (hq : q < 2)
    (x0 x1 : Vec Ideal S1x1024x64 .bf16) (mS : Vec Ideal S1x1024x1 .f32) (r : Fin 1024) :
    k1_pay19 (F := Ideal) a1 a2 x0 x1 mS (ix3 (0 : Fin 1) r (0 : Fin 1))
      = max (mS (ix3 (0 : Fin 1) r (0 : Fin 1))) (Row.tmax (tD x0 x1 r)) := by
  simp only [k1_pay19]
  rw [maximumf_apply]
  refine congrArg (max (mS (ix3 (0 : Fin 1) r (0 : Fin 1)))) ?_
  refine (Cert.GQA.Lay.shapeCast_ab_ab1_apply _ shapeCasts_S1x1024_S1x1024x1 (0 : Fin 1) r (0 : Fin 1)).trans ?_
  refine (rowMax3 _ _ reduces_S1x1024x1024_S1x1024 _ _ (0 : Fin 1) r).trans ?_
  show Finset.fold max (Ideal.ofBits .f32 0xFF800000#32)
    (fun k => k1_pay18 (F := Ideal) a1 a2 x0 x1 (ix3 (0 : Fin 1) r k)) Finset.univ
      = Finset.fold max ⊥ (tD x0 x1 r) Finset.univ
  rw [ofBits_neg_inf, funext (pay18_apply a1 a2 q ha1 ha2 hq x0 x1 r)]

theorem pay20_apply (a1 a2 : BitVec 32) (x0 x1 : Vec Ideal S1x1024x64 .bf16) (mS mS' : Vec Ideal S1x1024x1 .f32)
    (r : Fin 1024) :
    k1_pay20 (F := Ideal) a1 a2 x0 x1 mS mS' (ix3 (0 : Fin 1) r (0 : Fin 1))
      = Ideal.exp (mS' (ix3 (0 : Fin 1) r (0 : Fin 1)) - k1_pay19 (F := Ideal) a1 a2 x0 x1 mS (ix3 (0 : Fin 1) r (0 : Fin 1))) := rfl

theorem pay21_apply (a1 a2 : BitVec 32) (q : ℕ) (ha1 : a1 = BitVec.ofNat 32 q) (ha2 : a2 = BitVec.ofNat 32 q) (hq : q < 2)
    (x0 x1 : Vec Ideal S1x1024x64 .bf16) (mS : Vec Ideal S1x1024x1 .f32) (r c : Fin 1024) :
    k1_pay21 (F := Ideal) a1 a2 x0 x1 mS (ix3 (0 : Fin 1) r c)
      = Ideal.exp (tD x0 x1 r c - k1_pay19 (F := Ideal) a1 a2 x0 x1 mS (ix3 (0 : Fin 1) r (0 : Fin 1))) := by
  simp only [k1_pay21]
  exact congrArg Ideal.exp (congrArg₂ (· - ·) (pay18_apply a1 a2 q ha1 ha2 hq x0 x1 r c)
    (Cert.GQA.Lay.broadcastTo_ab1_abd_apply _ broadcasts_S1x1024x1_S1x1024x1024 (0 : Fin 1) r c))

/-- The running maximum after the diagonal tile. -/
theorem pay8_apply (a1 a2 : BitVec 32) (q : ℕ) (ha1 : a1 = BitVec.ofNat 32 q) (ha2 : a2 = BitVec.ofNat 32 q) (hq : q < 2)
    (x0 x1 x2 : Vec Ideal S1x1024x64 .bf16) (mS lS : Vec Ideal S1x1024x1 .f32)
    (aS : Vec Ideal S1x1024x64 .f32) (r : Fin 1024) :
    k1_pay8 (F := Ideal) (k1_pay19 (F := Ideal) a1 a2 x0 x1 mS) (ix3 (0 : Fin 1) r (0 : Fin 1))
      = (Row.upd (st mS lS aS r) (tD x0 x1 r) (uV x2)).m := by
  simp only [k1_pay8, shapeCast_self]
  exact pay19_apply a1 a2 q ha1 ha2 hq x0 x1 mS r

/-- The running denominator after the diagonal tile. -/
theorem pay6_apply (a1 a2 : BitVec 32) (q : ℕ) (ha1 : a1 = BitVec.ofNat 32 q) (ha2 : a2 = BitVec.ofNat 32 q) (hq : q < 2)
    (x0 x1 x2 : Vec Ideal S1x1024x64 .bf16) (mS lS : Vec Ideal S1x1024x1 .f32)
    (aS : Vec Ideal S1x1024x64 .f32) (r : Fin 1024) :
    k1_pay6 (F := Ideal) (k1_pay22 (F := Ideal) a1 a2 x0 x1 mS mS lS) (ix3 (0 : Fin 1) r (0 : Fin 1))
      = (Row.upd (st mS lS aS r) (tD x0 x1 r) (uV x2)).l := by
  simp only [k1_pay6, k1_pay22, shapeCast_self]
  rw [addf_apply, mulf_apply, upd_l_st]
  refine congrArg₂ (· + ·) (congrArg₂ (· * ·) ?_ rfl) ?_
  · rw [pay20_apply, pay19_apply a1 a2 q ha1 ha2 hq]
  · refine (Cert.GQA.Lay.shapeCast_ab_ab1_apply _ shapeCasts_S1x1024_S1x1024x1 (0 : Fin 1) r (0 : Fin 1)).trans ?_
    refine (rowSum3 _ reduces_S1x1024x1024_S1x1024 _ _ (0 : Fin 1) r).trans ?_
    refine Finset.sum_congr rfl fun c _ => ?_
    rw [pay21_apply a1 a2 q ha1 ha2 hq, pay19_apply a1 a2 q ha1 ha2 hq]

/-- The running numerator after the diagonal tile. -/
theorem pay7_apply (a1 a2 : BitVec 32) (q : ℕ) (ha1 : a1 = BitVec.ofNat 32 q) (ha2 : a2 = BitVec.ofNat 32 q) (hq : q < 2)
    (x0 x1 x2 : Vec Ideal S1x1024x64 .bf16) (mS lS : Vec Ideal S1x1024x1 .f32)
    (aS : Vec Ideal S1x1024x64 .f32) (r : Fin 1024) (h : Fin 64) :
    k1_pay7 (F := Ideal) (k1_pay20 (F := Ideal) a1 a2 x0 x1 mS mS) (k1_pay21 (F := Ideal) a1 a2 x0 x1 mS) x2 aS
        (ix3 (0 : Fin 1) r h)
      = (Row.upd (st mS lS aS r) (tD x0 x1 r) (uV x2)).acc h := by
  simp only [k1_pay7, shapeCast_self]
  rw [addf_apply, mulf_apply, upd_acc_st]
  refine congrArg₂ (· + ·) (congrArg₂ (· * ·) ?_ rfl) ?_
  · refine (Cert.GQA.Lay.broadcastTo_ab1_abd_apply _ broadcasts_S1x1024x1_S1x1024x64 (0 : Fin 1) r h).trans ?_
    rw [pay20_apply, pay19_apply a1 a2 q ha1 ha2 hq]
  · refine (pv_apply _ _ r h).trans ?_
    refine Finset.sum_congr rfl fun c _ => ?_
    rw [truncf_apply, pay21_apply a1 a2 q ha1 ha2 hq, pay19_apply a1 a2 q ha1 ha2 hq]
    rfl

end Cert.KernelIdeal.AttnPay

end
-- ==== Proof.AttnOnline.lean ====
/-
  The row-wise mathematics of the softmax-weighted sum accumulated tile by tile.

  A score is an extended real that is a real number or ⊥ (never ⊤); a value is a real number. Against a real
  shift M a score x has the real weight  w x M = exp (x - M)  (0 for x = ⊥), and
  exp (M₁ - M₂) · w x M₁ = w x M₂.  With these, the running state after a tile is a triple of coerced reals,
  the one-pass form is a coerced real quotient, and the two agree.
-/
import proofs.«180255_j27049704030330_2_alg».proof.Proof.AttnSpec

noncomputable section

namespace Cert.Attn.Row

open Idealize.ShloMosaic

/-! ### Scores that are real or ⊥ -/

/-- A real number or ⊥ is exactly an extended real other than ⊤. -/
theorem ne_top_of_bot_or_real {x : EReal} (h : x = ⊥ ∨ ∃ r : ℝ, x = (r : EReal)) : x ≠ ⊤ := by
  rcases h with h | ⟨r, h⟩
  · rw [h]; exact bot_ne_top
  · rw [h]; exact EReal.coe_ne_top r

/-- A real value is the coercion of its real part. -/
theorem coe_toReal_of_real {x : EReal} (h : ∃ r : ℝ, x = (r : EReal)) : ((x.toReal : ℝ) : EReal) = x := by
  obtain ⟨r, rfl⟩ := h
  rw [EReal.toReal_coe]

/-- The coercion of a finite sum of reals is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ### The real weight of a score -/

/-- The weight of a score `x` against the real shift `M`: `exp (x - M)`, as a real number. -/
def w (x : EReal) (M : ℝ) : ℝ := (Ideal.exp (x - (M : EReal))).toReal

theorem w_bot (M : ℝ) : w ⊥ M = 0 := by
  unfold w
  rw [EReal.bot_sub, Ideal.exp_bot, EReal.toReal_zero]

theorem w_coe (r M : ℝ) : w (r : EReal) M = Real.exp (r - M) := by
  unfold w
  rw [← EReal.coe_sub, Ideal.exp_coe, EReal.toReal_coe]

/-- The shifted exponential of a score is the coercion of its weight. -/
theorem exp_sub_eq {x : EReal} (hx : x ≠ ⊤) (M : ℝ) : Ideal.exp (x - (M : EReal)) = ((w x M : ℝ) : EReal) := by
  induction x using EReal.rec with
  | bot => rw [w_bot, EReal.bot_sub, Ideal.exp_bot, EReal.coe_zero]
  | top => exact absurd rfl hx
  | coe r => rw [w_coe, ← EReal.coe_sub, Ideal.exp_coe]

theorem w_nonneg {x : EReal} (hx : x ≠ ⊤) (M : ℝ) : 0 ≤ w x M := by
  induction x using EReal.rec with
  | bot => rw [w_bot]
  | top => exact absurd rfl hx
  | coe r => rw [w_coe]; exact (Real.exp_pos _).le

theorem w_pos (r M : ℝ) : 0 < w (r : EReal) M := by
  rw [w_coe]; exact Real.exp_pos _

/-- Moving the shift: `exp (M₁ - M₂) · exp (x - M₁) = exp (x - M₂)`, both sides `0` at `x = ⊥`. -/
theorem w_rescale {x : EReal} (hx : x ≠ ⊤) (M₁ M₂ : ℝ) : Real.exp (M₁ - M₂) * w x M₁ = w x M₂ := by
  induction x using EReal.rec with
  | bot => rw [w_bot, w_bot, mul_zero]
  | top => exact absurd rfl hx
  | coe r => rw [w_coe, w_coe, ← Real.exp_add]; congr 1; ring

/-- A tile with a real score has a positive total weight. -/
theorem sum_w_pos {n : ℕ} (t : Fin n → EReal) (ht : ∀ j, t j ≠ ⊤) (hne : ∃ j, ∃ r : ℝ, t j = (r : EReal)) (M : ℝ) :
    0 < ∑ j, w (t j) M := by
  obtain ⟨j, r, hj⟩ := hne
  refine Finset.sum_pos' (fun i _ => w_nonneg (ht i) M) ⟨j, Finset.mem_univ j, ?_⟩
  rw [hj]; exact w_pos r M

/-! ### The largest entry of a tile -/

theorem le_tmax {n : ℕ} (t : Fin n → EReal) (j : Fin n) : t j ≤ tmax t :=
  (Finset.le_fold_max _).mpr (Or.inr ⟨j, Finset.mem_univ j, le_rfl⟩)

theorem tmax_le {n : ℕ} (t : Fin n → EReal) (c : EReal) (h : ∀ j, t j ≤ c) : tmax t ≤ c :=
  (Finset.fold_max_le _).mpr ⟨bot_le, fun j _ => h j⟩

theorem tmax_ne_top {n : ℕ} (t : Fin n → EReal) (ht : ∀ j, t j ≠ ⊤) : tmax t ≠ ⊤ :=
  ((Finset.fold_max_lt _).mpr ⟨bot_lt_top, fun j _ => lt_top_iff_ne_top.mpr (ht j)⟩).ne

theorem tmax_ne_bot {n : ℕ} (t : Fin n → EReal) (hne : ∃ j, ∃ r : ℝ, t j = (r : EReal)) : tmax t ≠ ⊥ := by
  obtain ⟨j, r, hj⟩ := hne
  have h : (r : EReal) ≤ tmax t := hj ▸ le_tmax t j
  exact (lt_of_lt_of_le (EReal.bot_lt_coe r) h).ne'

/-- The largest entry of a tile of scores with a real score among them is a real number. -/
theorem tmax_real {n : ℕ} (t : Fin n → EReal) (ht : ∀ j, t j ≠ ⊤) (hne : ∃ j, ∃ r : ℝ, t j = (r : EReal)) :
    ∃ M : ℝ, tmax t = (M : EReal) :=
  ⟨(tmax t).toReal, (EReal.coe_toReal (tmax_ne_top t ht) (tmax_ne_bot t hne)).symm⟩

/-- A wholly masked tile has largest entry `⊥`. -/
theorem tmax_const_bot (n : ℕ) : tmax (fun _ : Fin n => (⊥ : EReal)) = ⊥ :=
  le_bot_iff.mp (tmax_le _ ⊥ fun _ => le_rfl)

/-- The largest entry of two tiles side by side is the larger of their largest entries. -/
theorem tmax_append {n₁ n₂ : ℕ} (t₁ : Fin n₁ → EReal) (t₂ : Fin n₂ → EReal) :
    tmax (Fin.append t₁ t₂) = max (tmax t₁) (tmax t₂) := by
  apply le_antisymm
  · refine tmax_le _ _ fun j => ?_
    refine Fin.addCases (fun i => ?_) (fun i => ?_) j
    · rw [Fin.append_left]; exact le_max_of_le_left (le_tmax t₁ i)
    · rw [Fin.append_right]; exact le_max_of_le_right (le_tmax t₂ i)
  · refine max_le (tmax_le _ _ fun i => ?_) (tmax_le _ _ fun i => ?_)
    · have := le_tmax (Fin.append t₁ t₂) (Fin.castAdd n₂ i); rwa [Fin.append_left] at this
    · have := le_tmax (Fin.append t₁ t₂) (Fin.natAdd n₁ i); rwa [Fin.append_right] at this

theorem append_ne_top {n₁ n₂ : ℕ} (t₁ : Fin n₁ → EReal) (t₂ : Fin n₂ → EReal)
    (h₁ : ∀ j, t₁ j ≠ ⊤) (h₂ : ∀ j, t₂ j ≠ ⊤) (j : Fin (n₁ + n₂)) : Fin.append t₁ t₂ j ≠ ⊤ := by
  refine Fin.addCases (fun i => ?_) (fun i => ?_) j
  · rw [Fin.append_left]; exact h₁ i
  · rw [Fin.append_right]; exact h₂ i

theorem append_real {n₁ n₂ : ℕ} (x₁ : Fin n₁ → EReal) (x₂ : Fin n₂ → EReal)
    (h₁ : ∀ j, ∃ r : ℝ, x₁ j = (r : EReal)) (h₂ : ∀ j, ∃ r : ℝ, x₂ j = (r : EReal)) (j : Fin (n₁ + n₂)) :
    ∃ r : ℝ, Fin.append x₁ x₂ j = (r : EReal) := by
  refine Fin.addCases (fun i => ?_) (fun i => ?_) j
  · rw [Fin.append_left]; exact h₁ i
  · rw [Fin.append_right]; exact h₂ i

/-! ### The running state, the result and the one-pass form as coerced reals -/

theorem upd_l {H n : ℕ} (s : St H) (t : Fin n → EReal) (u : Fin n → Fin H → EReal)
    (hm : s.m ≠ ⊤) (ht : ∀ j, t j ≠ ⊤) {L M : ℝ} (hL : s.l = (L : EReal))
    (hM : max s.m (tmax t) = (M : EReal)) :
    (upd s t u).l = ((w s.m M * L + ∑ j, w (t j) M : ℝ) : EReal) := by
  show Ideal.exp (s.m - max s.m (tmax t)) * s.l + ∑ j : Fin n, Ideal.exp (t j - max s.m (tmax t)) = _
  rw [hM, hL, exp_sub_eq hm, EReal.coe_add, EReal.coe_mul, coe_sum]
  congr 1
  exact Finset.sum_congr rfl fun j _ => exp_sub_eq (ht j) M

theorem upd_acc {H n : ℕ} (s : St H) (t : Fin n → EReal) (u : Fin n → Fin H → EReal)
    (hm : s.m ≠ ⊤) (ht : ∀ j, t j ≠ ⊤) (hu : ∀ j h, ∃ r : ℝ, u j h = (r : EReal)) (h : Fin H)
    {A M : ℝ} (hA : s.acc h = (A : EReal)) (hM : max s.m (tmax t) = (M : EReal)) :
    (upd s t u).acc h = ((w s.m M * A + ∑ j, w (t j) M * (u j h).toReal : ℝ) : EReal) := by
  show Ideal.exp (s.m - max s.m (tmax t)) * s.acc h
    + ∑ j : Fin n, Ideal.exp (t j - max s.m (tmax t)) * u j h = _
  rw [hM, hA, exp_sub_eq hm, EReal.coe_add, EReal.coe_mul, coe_sum]
  congr 1
  refine Finset.sum_congr rfl fun j _ => ?_
  obtain ⟨r, hr⟩ := hu j h
  rw [hr, EReal.toReal_coe, exp_sub_eq (ht j) M, EReal.coe_mul]

theorem fin_eq {H : ℕ} (s : St H) (h : Fin H) {A Z : ℝ} (hA : s.acc h = (A : EReal)) (hl : s.l = (Z : EReal))
    (hZ : Z ≠ 0) : fin s h = ((A * (1 / Z) : ℝ) : EReal) := by
  show Ideal.div (s.acc h) s.l = _
  rw [hA, hl, Ideal.div_coe hZ, EReal.coe_mul]

theorem ref_eq {H N : ℕ} (t : Fin N → EReal) (u : Fin N → Fin H → EReal) (ht : ∀ j, t j ≠ ⊤)
    (hu : ∀ j h, ∃ r : ℝ, u j h = (r : EReal)) {M : ℝ} (hM : tmax t = (M : EReal))
    (hZ : (∑ k, w (t k) M) ≠ 0) (h : Fin H) :
    ref t u h = (((∑ j, w (t j) M * (u j h).toReal) * (1 / ∑ k, w (t k) M) : ℝ) : EReal) := by
  have hM' : max ⊥ (tmax t) = (M : EReal) := by rw [hM]; exact max_eq_right bot_le
  have hZe : (∑ k : Fin N, Ideal.exp (t k - (M : EReal))) = ((∑ k, w (t k) M : ℝ) : EReal) := by
    rw [coe_sum]; exact Finset.sum_congr rfl fun k _ => exp_sub_eq (ht k) M
  show ∑ j : Fin N, Ideal.div (Ideal.exp (t j - max ⊥ (tmax t)))
      (∑ k : Fin N, Ideal.exp (t k - max ⊥ (tmax t))) * u j h = _
  rw [hM', hZe]
  conv_rhs => rw [Finset.sum_mul, coe_sum]
  refine Finset.sum_congr rfl fun j _ => ?_
  obtain ⟨r, hr⟩ := hu j h
  rw [hr, EReal.toReal_coe, Ideal.div_coe hZ, exp_sub_eq (ht j) M, ← EReal.coe_mul, ← EReal.coe_mul]
  congr 1; ring

/-! ### Two tiles side by side -/

/-- The total weight of two tiles against the later shift: the first tile's, accumulated against its own shift from
    the empty state, is rescaled. -/
theorem sum_w_append {n₁ n₂ : ℕ} (t₁ : Fin n₁ → EReal) (t₂ : Fin n₂ → EReal) (ht1 : ∀ j, t₁ j ≠ ⊤) (M₁ M₂ : ℝ) :
    w (M₁ : EReal) M₂ * (w ⊥ M₁ * 0 + ∑ j, w (t₁ j) M₁) + ∑ j, w (t₂ j) M₂
      = ∑ j : Fin (n₁ + n₂), w (Fin.append t₁ t₂ j) M₂ := by
  rw [Fin.sum_univ_add]
  simp only [Fin.append_left, Fin.append_right]
  rw [w_bot, zero_mul, zero_add, w_coe, Finset.mul_sum]
  congr 1
  exact Finset.sum_congr rfl fun j _ => w_rescale (ht1 j) M₁ M₂

/-- The same for the weighted values. -/
theorem sum_wu_append {n₁ n₂ : ℕ} (t₁ : Fin n₁ → EReal) (t₂ : Fin n₂ → EReal) (ht1 : ∀ j, t₁ j ≠ ⊤) (M₁ M₂ : ℝ)
    (x₁ : Fin n₁ → EReal) (x₂ : Fin n₂ → EReal) :
    w (M₁ : EReal) M₂ * (w ⊥ M₁ * 0 + ∑ j, w (t₁ j) M₁ * (x₁ j).toReal) + ∑ j, w (t₂ j) M₂ * (x₂ j).toReal
      = ∑ j : Fin (n₁ + n₂), w (Fin.append t₁ t₂ j) M₂ * (Fin.append x₁ x₂ j).toReal := by
  rw [Fin.sum_univ_add]
  simp only [Fin.append_left, Fin.append_right]
  rw [w_bot, zero_mul, zero_add, w_coe, Finset.mul_sum]
  congr 1
  refine Finset.sum_congr rfl fun j _ => ?_
  rw [← mul_assoc, w_rescale (ht1 j) M₁ M₂]

/-- (A) Two tiles: the state after both, read out, is the one-pass form over the two tiles side by side. -/
theorem fin_upd_upd_eq_ref {H n₁ n₂ : ℕ} (t₁ : Fin n₁ → EReal) (t₂ : Fin n₂ → EReal)
    (u₁ : Fin n₁ → Fin H → EReal) (u₂ : Fin n₂ → Fin H → EReal)
    (h1 : ∀ j, t₁ j = ⊥ ∨ ∃ r : ℝ, t₁ j = (r : EReal)) (h2 : ∀ j, t₂ j = ⊥ ∨ ∃ r : ℝ, t₂ j = (r : EReal))
    (hne : ∃ j, ∃ r : ℝ, t₁ j = (r : EReal))
    (hu1 : ∀ j h, ∃ r : ℝ, u₁ j h = (r : EReal)) (hu2 : ∀ j h, ∃ r : ℝ, u₂ j h = (r : EReal)) (h : Fin H) :
    fin (upd (upd init t₁ u₁) t₂ u₂) h
      = ref (Fin.append t₁ t₂) (fun j h' => Fin.append (fun a => u₁ a h') (fun a => u₂ a h') j) h := by
  have ht1 : ∀ j, t₁ j ≠ ⊤ := fun j => ne_top_of_bot_or_real (h1 j)
  have ht2 : ∀ j, t₂ j ≠ ⊤ := fun j => ne_top_of_bot_or_real (h2 j)
  obtain ⟨M₁, hM1⟩ := tmax_real t₁ ht1 hne
  have hne' : ∃ j, ∃ r : ℝ, Fin.append t₁ t₂ j = (r : EReal) := by
    obtain ⟨j, r, hj⟩ := hne
    exact ⟨Fin.castAdd n₂ j, r, by rw [Fin.append_left]; exact hj⟩
  have htt := append_ne_top t₁ t₂ ht1 ht2
  obtain ⟨M₂, hM2⟩ := tmax_real (Fin.append t₁ t₂) htt hne'
  have hM12 : max (M₁ : EReal) (tmax t₂) = (M₂ : EReal) := by rw [← hM1, ← tmax_append]; exact hM2
  -- after the first tile
  have hm1 : max (init : St H).m (tmax t₁) = (M₁ : EReal) := by rw [hM1]; exact max_eq_right bot_le
  have hs1m : (upd (init : St H) t₁ u₁).m = (M₁ : EReal) := hm1
  have hs1l : (upd (init : St H) t₁ u₁).l = ((w ⊥ M₁ * 0 + ∑ j, w (t₁ j) M₁ : ℝ) : EReal) :=
    upd_l (init : St H) t₁ u₁ bot_ne_top ht1 (L := 0) EReal.coe_zero.symm hm1
  have hs1a : (upd (init : St H) t₁ u₁).acc h = ((w ⊥ M₁ * 0 + ∑ j, w (t₁ j) M₁ * (u₁ j h).toReal : ℝ) : EReal) :=
    upd_acc (init : St H) t₁ u₁ bot_ne_top ht1 hu1 h (A := 0) EReal.coe_zero.symm hm1
  -- after the second
  have hs1top : (upd (init : St H) t₁ u₁).m ≠ ⊤ := by rw [hs1m]; exact EReal.coe_ne_top M₁
  have hm2 : max (upd (init : St H) t₁ u₁).m (tmax t₂) = (M₂ : EReal) := by rw [hs1m]; exact hM12
  have hs2l := upd_l _ t₂ u₂ hs1top ht2 hs1l hm2
  have hs2a := upd_acc _ t₂ u₂ hs1top ht2 hu2 h hs1a hm2
  rw [hs1m, sum_w_append t₁ t₂ ht1] at hs2l
  rw [hs1m, sum_wu_append t₁ t₂ ht1 M₁ M₂ (fun a => u₁ a h) (fun a => u₂ a h)] at hs2a
  have hZ : (∑ j : Fin (n₁ + n₂), w (Fin.append t₁ t₂ j) M₂) ≠ 0 := (sum_w_pos (Fin.append t₁ t₂) htt hne' M₂).ne'
  rw [fin_eq _ h hs2a hs2l hZ,
    ref_eq (Fin.append t₁ t₂) _ htt
      (fun j h' => append_real _ _ (fun a => hu1 a h') (fun a => hu2 a h') j) hM2 hZ h]

/-! ### One tile, the rest masked -/

theorem sum_w_append_bot {n₁ : ℕ} (n₂ : ℕ) (t₁ : Fin n₁ → EReal) (M : ℝ) :
    w ⊥ M * 0 + ∑ j, w (t₁ j) M = ∑ j : Fin (n₁ + n₂), w (Fin.append t₁ (fun _ : Fin n₂ => (⊥ : EReal)) j) M := by
  rw [Fin.sum_univ_add]
  simp only [Fin.append_left, Fin.append_right]
  rw [w_bot, zero_mul, zero_add, Finset.sum_const_zero, add_zero]

theorem sum_wu_append_bot {n₁ n₂ : ℕ} (t₁ : Fin n₁ → EReal) (M : ℝ) (x₁ : Fin n₁ → EReal) (x₂ : Fin n₂ → EReal) :
    w ⊥ M * 0 + ∑ j, w (t₁ j) M * (x₁ j).toReal
      = ∑ j : Fin (n₁ + n₂), w (Fin.append t₁ (fun _ : Fin n₂ => (⊥ : EReal)) j) M * (Fin.append x₁ x₂ j).toReal := by
  rw [Fin.sum_univ_add]
  simp only [Fin.append_left, Fin.append_right]
  rw [w_bot, zero_mul, zero_add]
  simp only [zero_mul, Finset.sum_const_zero, add_zero]

/-- (B) One tile, the rest masked: the state after the one tile, read out, is the one-pass form over the tile
    followed by scores `⊥`, whatever real values stand beside those. -/
theorem fin_upd_eq_ref_masked {H n₁ n₂ : ℕ} (t₁ : Fin n₁ → EReal)
    (u₁ : Fin n₁ → Fin H → EReal) (u₂ : Fin n₂ → Fin H → EReal)
    (h1 : ∀ j, t₁ j = ⊥ ∨ ∃ r : ℝ, t₁ j = (r : EReal))
    (hne : ∃ j, ∃ r : ℝ, t₁ j = (r : EReal))
    (hu1 : ∀ j h, ∃ r : ℝ, u₁ j h = (r : EReal)) (hu2 : ∀ j h, ∃ r : ℝ, u₂ j h = (r : EReal)) (h : Fin H) :
    fin (upd init t₁ u₁) h
      = ref (Fin.append t₁ (fun _ : Fin n₂ => (⊥ : EReal)))
          (fun j h' => Fin.append (fun a => u₁ a h') (fun a => u₂ a h') j) h := by
  have ht1 : ∀ j, t₁ j ≠ ⊤ := fun j => ne_top_of_bot_or_real (h1 j)
  have ht2 : ∀ j : Fin n₂, (fun _ : Fin n₂ => (⊥ : EReal)) j ≠ ⊤ := fun _ => bot_ne_top
  obtain ⟨M₁, hM1⟩ := tmax_real t₁ ht1 hne
  have hne' : ∃ j, ∃ r : ℝ, Fin.append t₁ (fun _ : Fin n₂ => (⊥ : EReal)) j = (r : EReal) := by
    obtain ⟨j, r, hj⟩ := hne
    exact ⟨Fin.castAdd n₂ j, r, by rw [Fin.append_left]; exact hj⟩
  have htt := append_ne_top t₁ (fun _ : Fin n₂ => (⊥ : EReal)) ht1 ht2
  have hM : tmax (Fin.append t₁ (fun _ : Fin n₂ => (⊥ : EReal))) = (M₁ : EReal) := by
    rw [tmax_append, tmax_const_bot, hM1]; exact max_eq_left bot_le
  have hm1 : max (init : St H).m (tmax t₁) = (M₁ : EReal) := by rw [hM1]; exact max_eq_right bot_le
  have hs1l : (upd (init : St H) t₁ u₁).l = ((w ⊥ M₁ * 0 + ∑ j, w (t₁ j) M₁ : ℝ) : EReal) :=
    upd_l (init : St H) t₁ u₁ bot_ne_top ht1 (L := 0) EReal.coe_zero.symm hm1
  have hs1a : (upd (init : St H) t₁ u₁).acc h = ((w ⊥ M₁ * 0 + ∑ j, w (t₁ j) M₁ * (u₁ j h).toReal : ℝ) : EReal) :=
    upd_acc (init : St H) t₁ u₁ bot_ne_top ht1 hu1 h (A := 0) EReal.coe_zero.symm hm1
  rw [sum_w_append_bot n₂ t₁] at hs1l
  rw [sum_wu_append_bot t₁ M₁ (fun a => u₁ a h) (fun a => u₂ a h)] at hs1a
  have hZ : (∑ j : Fin (n₁ + n₂), w (Fin.append t₁ (fun _ : Fin n₂ => (⊥ : EReal)) j) M₁) ≠ 0 :=
    (sum_w_pos _ htt hne' M₁).ne'
  rw [fin_eq _ h hs1a hs1l hZ,
    ref_eq (Fin.append t₁ (fun _ : Fin n₂ => (⊥ : EReal))) _ htt
      (fun j h' => append_real _ _ (fun a => hu1 a h') (fun a => hu2 a h') j) hM hZ h]

/-! ### A scaled contraction -/

/-- (C) Scaling one factor of each product of a finite sum of real products scales the sum. -/
theorem sum_mul_eight_mul {H : ℕ} (q k : Fin H → EReal) (hq : ∀ h, ∃ r : ℝ, q h = (r : EReal))
    (hk : ∀ h, ∃ r : ℝ, k h = (r : EReal)) :
    (∑ h : Fin H, (q h * 8) * k h) = (∑ h, q h * k h) * 8 := by
  choose qr hqr using hq
  choose kr hkr using hk
  have h8 : (8 : EReal) = ((8 : ℝ) : EReal) := rfl
  have hL : ∀ h, q h * 8 * k h = ((qr h * kr h * 8 : ℝ) : EReal) := fun h => by
    rw [hqr, hkr, h8, ← EReal.coe_mul, ← EReal.coe_mul]; congr 1; ring
  have hR : ∀ h, q h * k h = ((qr h * kr h : ℝ) : EReal) := fun h => by
    rw [hqr, hkr, ← EReal.coe_mul]
  rw [Finset.sum_congr rfl fun h _ => hL h, Finset.sum_congr rfl fun h _ => hR h, ← coe_sum, ← coe_sum, h8,
    ← EReal.coe_mul, Finset.sum_mul]

end Cert.Attn.Row

end
-- ==== Proof.AttnRows.lean ====
/-
  The row-wise bridge, on the specification's own objects. A row of 2048 masked scores is its first 1024 keys followed
  by its last 1024. For a query row in the first tile the last 1024 keys are all masked, so accumulating the first
  tile alone and dividing gives the row's softmax-weighted sum; for a query row in the second tile, accumulating the
  first tile and then the second does. Scores and values are real numbers because the inputs are.
-/
import proofs.«180255_j27049704030330_2_alg».proof.Proof.AttnSpec
import proofs.«180255_j27049704030330_2_alg».proof.Proof.AttnOnline

noncomputable section

namespace Cert.Attn.Rows

open Idealize.ShloMosaic Idealize.ShloMosaic.ValueIdx Cert.Attn

/-- Key `j` of the first tile, and of the second, as a key of the whole row. -/
def lo (j : Fin 1024) : Fin 2048 := ⟨j.val, by omega⟩
def hi (j : Fin 1024) : Fin 2048 := ⟨1024 + j.val, by omega⟩

/-- A function of the 2048 keys is its first half followed by its second half. -/
theorem append_halves {α : Type} (f : Fin 2048 → α) :
    (Fin.append (fun j : Fin 1024 => f (lo j)) (fun j : Fin 1024 => f (hi j)) : Fin (1024 + 1024) → α) = f := by
  funext j
  refine Fin.addCases (fun a => ?_) (fun a => ?_) j
  · rw [Fin.append_left]; exact congrArg f (Fin.ext rfl)
  · rw [Fin.append_right]; exact congrArg f (Fin.ext rfl)

variable (x : (⟨3, ![4, 2048, 1024]⟩ : Shape).Idx → EReal) (wk wq wv : (⟨2, ![64, 1024]⟩ : Shape).Idx → EReal)

/-- A projection of real inputs by real weights is real. -/
theorem proj_real (w : (⟨2, ![64, 1024]⟩ : Shape).Idx → EReal) (hx : ∀ idx, ∃ r : ℝ, x idx = (r : EReal))
    (hw : ∀ idx, ∃ r : ℝ, w idx = (r : EReal)) (b : Fin 4) (t : Fin 2048) (h : Fin 64) :
    ∃ r : ℝ, proj x w b t h = (r : EReal) := by
  choose rx hrx using hx
  choose rw' hrw using hw
  refine ⟨∑ d : Fin 1024, rx (ix3 b t d) * rw' (ix2 h d), ?_⟩
  unfold proj
  rw [Row.coe_sum]
  exact Finset.sum_congr rfl fun d _ => by rw [hrx, hrw, EReal.coe_mul]

/-- A scaled score of real inputs is real. -/
theorem score_real (hx : ∀ idx, ∃ r : ℝ, x idx = (r : EReal)) (hq : ∀ idx, ∃ r : ℝ, wq idx = (r : EReal))
    (hk : ∀ idx, ∃ r : ℝ, wk idx = (r : EReal)) (b : Fin 4) (i j : Fin 2048) :
    ∃ r : ℝ, score x wq wk b i j = (r : EReal) := by
  choose rq hrq using fun h => proj_real x wq hx hq b i h
  choose rk hrk using fun h => proj_real x wk hx hk b j h
  refine ⟨(∑ h : Fin 64, rq h * rk h) * 8, ?_⟩
  unfold score
  rw [EReal.coe_mul, Row.coe_sum]
  congr 1
  exact Finset.sum_congr rfl fun h _ => by rw [hrq, hrk, EReal.coe_mul]

/-- A masked score is `⊥` or real. -/
theorem mscore_cases (hx : ∀ idx, ∃ r : ℝ, x idx = (r : EReal)) (hq : ∀ idx, ∃ r : ℝ, wq idx = (r : EReal))
    (hk : ∀ idx, ∃ r : ℝ, wk idx = (r : EReal)) (b : Fin 4) (i j : Fin 2048) :
    mscore x wq wk b i j = ⊥ ∨ ∃ r : ℝ, mscore x wq wk b i j = (r : EReal) := by
  unfold mscore
  split
  · exact Or.inr (score_real x wk wq hx hq hk b i j)
  · exact Or.inl rfl

/-- The kernel's tile score — the query scaled by 8 before the product — is the specification's. -/
theorem tile_score (hx : ∀ idx, ∃ r : ℝ, x idx = (r : EReal)) (hq : ∀ idx, ∃ r : ℝ, wq idx = (r : EReal))
    (hk : ∀ idx, ∃ r : ℝ, wk idx = (r : EReal)) (b : Fin 4) (i j : Fin 2048) :
    (∑ h : Fin 64, (proj x wq b i h * 8) * proj x wk b j h) = score x wq wk b i j :=
  Row.sum_mul_eight_mul (fun h => proj x wq b i h) (fun h => proj x wk b j h)
    (fun h => proj_real x wq hx hq b i h) (fun h => proj_real x wk hx hk b j h)

/-- A QUERY ROW OF THE FIRST TILE: the first tile accumulated alone, then the quotient. -/
theorem row_lo (hx : ∀ idx, ∃ r : ℝ, x idx = (r : EReal)) (hq : ∀ idx, ∃ r : ℝ, wq idx = (r : EReal))
    (hk : ∀ idx, ∃ r : ℝ, wk idx = (r : EReal)) (hv : ∀ idx, ∃ r : ℝ, wv idx = (r : EReal))
    (b : Fin 4) (R : Fin 2048) (hR : R.val < 1024) (h : Fin 64) :
    Row.fin (Row.upd Row.init (fun j : Fin 1024 => mscore x wq wk b R (lo j)) (fun j h' => proj x wv b (lo j) h')) h
      = G x wk wq wv b R h := by
  rw [Row.fin_upd_eq_ref_masked (n₂ := 1024) (fun j : Fin 1024 => mscore x wq wk b R (lo j))
    (fun j h' => proj x wv b (lo j) h') (fun j h' => proj x wv b (hi j) h')
    (fun j => mscore_cases x wk wq hx hq hk b R (lo j))
    ⟨⟨R.val, hR⟩, by
      obtain ⟨r, hr⟩ := score_real x wk wq hx hq hk b R (lo ⟨R.val, hR⟩)
      exact ⟨r, by unfold mscore; rw [if_pos (show (lo ⟨R.val, hR⟩).val ≤ R.val from le_refl _)]; exact hr⟩⟩
    (fun j h' => proj_real x wv hx hv b (lo j) h') (fun j h' => proj_real x wv hx hv b (hi j) h') h]
  unfold G
  have ht : (Fin.append (fun j : Fin 1024 => mscore x wq wk b R (lo j)) (fun _ : Fin 1024 => (⊥ : EReal)) : Fin (1024 + 1024) → EReal)
      = fun j : Fin 2048 => mscore x wq wk b R j := by
    rw [← append_halves (fun j : Fin 2048 => mscore x wq wk b R j)]
    congr 1
    funext j
    unfold mscore
    rw [if_neg (by show ¬ (1024 + j.val ≤ R.val); omega)]
  have hu : (fun (j : Fin (1024 + 1024)) (h' : Fin 64) => Fin.append (fun a : Fin 1024 => proj x wv b (lo a) h') (fun a : Fin 1024 => proj x wv b (hi a) h') j)
      = fun (j : Fin 2048) (h' : Fin 64) => proj x wv b j h' := by
    funext j h'
    exact congrFun (append_halves (fun j : Fin 2048 => proj x wv b j h')) j
  rw [ht, hu]

/-- A QUERY ROW OF THE SECOND TILE: the first tile, then the second, then the quotient. -/
theorem row_hi (hx : ∀ idx, ∃ r : ℝ, x idx = (r : EReal)) (hq : ∀ idx, ∃ r : ℝ, wq idx = (r : EReal))
    (hk : ∀ idx, ∃ r : ℝ, wk idx = (r : EReal)) (hv : ∀ idx, ∃ r : ℝ, wv idx = (r : EReal))
    (b : Fin 4) (R : Fin 2048) (hR : 1024 ≤ R.val) (h : Fin 64) :
    Row.fin (Row.upd (Row.upd Row.init (fun j : Fin 1024 => mscore x wq wk b R (lo j)) (fun j h' => proj x wv b (lo j) h'))
        (fun j : Fin 1024 => mscore x wq wk b R (hi j)) (fun j h' => proj x wv b (hi j) h')) h
      = G x wk wq wv b R h := by
  rw [Row.fin_upd_upd_eq_ref (fun j : Fin 1024 => mscore x wq wk b R (lo j)) (fun j : Fin 1024 => mscore x wq wk b R (hi j))
    (fun j h' => proj x wv b (lo j) h') (fun j h' => proj x wv b (hi j) h')
    (fun j => mscore_cases x wk wq hx hq hk b R (lo j)) (fun j => mscore_cases x wk wq hx hq hk b R (hi j))
    ⟨⟨0, by omega⟩, by
      obtain ⟨r, hr⟩ := score_real x wk wq hx hq hk b R (lo ⟨0, by omega⟩)
      exact ⟨r, by unfold mscore; rw [if_pos (by show 0 ≤ R.val; omega)]; exact hr⟩⟩
    (fun j h' => proj_real x wv hx hv b (lo j) h') (fun j h' => proj_real x wv hx hv b (hi j) h') h]
  unfold G
  have ht : (Fin.append (fun j : Fin 1024 => mscore x wq wk b R (lo j)) (fun j : Fin 1024 => mscore x wq wk b R (hi j)) : Fin (1024 + 1024) → EReal)
      = fun j : Fin 2048 => mscore x wq wk b R j := append_halves (fun j : Fin 2048 => mscore x wq wk b R j)
  have hu : (fun (j : Fin (1024 + 1024)) (h' : Fin 64) => Fin.append (fun a : Fin 1024 => proj x wv b (lo a) h') (fun a : Fin 1024 => proj x wv b (hi a) h') j)
      = fun (j : Fin 2048) (h' : Fin 64) => proj x wv b j h' := by
    funext j h'
    exact congrFun (append_halves (fun j : Fin 2048 => proj x wv b j h')) j
  rw [ht, hu]

end Cert.Attn.Rows

end
-- ==== Proof.KIAttnValue.lean ====
/-
  The attention region's value at the ideal instance. For region-entry contents whose q, k, v arrays are the
  projections of real inputs, the result array after the region is the causal attention function: every output block
  is stored at the last key tile of its query tile, and holds, row by row, the quotient of the numerator and
  denominator accumulated over the key tiles up to the diagonal — one masked tile for the first query tile, an
  unmasked tile followed by the masked diagonal tile for the second — which is the row's softmax-weighted sum.
-/
import proofs.«180255_j27049704030330_2_alg».proof.Proof.KIAttnPieces
import proofs.«180255_j27049704030330_2_alg».proof.Proof.KIAttnPay
import proofs.«180255_j27049704030330_2_alg».proof.Proof.KIAttnBlocks
import proofs.«180255_j27049704030330_2_alg».proof.Proof.AttnRows

set_option maxRecDepth 16384

noncomputable section

namespace Cert.KernelIdeal.AttnValue

open Cert.KernelIdeal Cert.KernelIdeal.Gen Cert.KernelIdeal.Frame Cert.KernelIdeal.AttnPay Cert.KernelIdeal.AttnBlocks
open Cert.Attn Cert.Attn.Rows
open Idealize.ShloMosaic Idealize.ShloMosaic.TcCoe Idealize.ShloMosaic.ValueIdx Idealize.SL.Sem

variable (V : (c : Dev nD) → (b : Ref sig .tc) → Buf (Elt Ideal) ((c : Thread nD τ).loc b)) (c : Dev nD)
  (x : S4x2048x1024.Idx → EReal) (wk wq wv : S64x1024.Idx → EReal)
  (hx : ∀ idx, ∃ r : ℝ, x idx = (r : EReal)) (hk : ∀ idx, ∃ r : ℝ, wk idx = (r : EReal))
  (hq : ∀ idx, ∃ r : ℝ, wq idx = (r : EReal)) (hv : ∀ idx, ∃ r : ℝ, wv idx = (r : EReal))
  (hQ : ∀ (b : Fin 4) (R : Fin 2048) (h : Fin 64), V c main_v0_0 (ix3 b R h) = proj x wq b R h)
  (hK : ∀ (b : Fin 4) (R : Fin 2048) (h : Fin 64), V c main_v0_1 (ix3 b R h) = proj x wk b R h)
  (hVv : ∀ (b : Fin 4) (R : Fin 2048) (h : Fin 64), V c main_v0_2 (ix3 b R h) = proj x wv b R h)

/-- Two running states with equal fields are equal. -/
theorem St_ext {H : ℕ} (s s' : Row.St H) (hm : s.m = s'.m) (hl : s.l = s'.l) (ha : ∀ h, s.acc h = s'.acc h) : s = s' := by
  cases s; cases s'
  simp only [Row.St.mk.injEq]
  exact ⟨hm, hl, funext ha⟩

/-- The grid words at the diagonal points: query tile and key tile coincide. -/
theorem words_diag : ∀ s : Fin cfg1.N, (s.val % 4 = 0 → (grid1.coords s 1).val = 0 ∧ (grid1.coords s 2).val = 0)
    ∧ (s.val % 4 = 3 → (grid1.coords s 1).val = 1 ∧ (grid1.coords s 2).val = 1) :=
  (by decide +kernel : ∀ s : Fin grid1.N, (s.val % 4 = 0 → (grid1.coords s 1).val = 0 ∧ (grid1.coords s 2).val = 0)
    ∧ (s.val % 4 = 3 → (grid1.coords s 1).val = 1 ∧ (grid1.coords s 2).val = 1))

include hx hk hq hQ hK in
/-- A tile's score at point `s`, from the q and k blocks there, is the specification's score of the rows they are. -/
theorem tile_I (s : Fin cfg1.N) (b : Fin 4) (hb : b.val = s.val / 4) (r j : Fin 1024) (R J : Fin 2048)
    (hR : R.val = ((s.val / 2) % 2) * 1024 + r.val) (hJ : J.val = (min (s.val % 2) ((s.val / 2) % 2)) * 1024 + j.val) :
    tI (iblk1 V c 0 s) (iblk1 V c 1 s) r j = score x wq wk b R J := by
  unfold tI
  refine (Finset.sum_congr rfl fun h _ => ?_).trans (tile_score x wk wq hx hq hk b R J)
  exact congrArg₂ (fun a b' : EReal => (a * 8) * b')
    ((iblk1_q V c s r h b R hb hR).trans (hQ b R h)) ((iblk1_k V c s j h b J hb hJ).trans (hK b J h))

include hVv in
/-- A tile's values at point `s` are the v rows they are. -/
theorem tile_V (s : Fin cfg1.N) (b : Fin 4) (hb : b.val = s.val / 4) (j : Fin 1024) (J : Fin 2048)
    (hJ : J.val = (min (s.val % 2) ((s.val / 2) % 2)) * 1024 + j.val) (h : Fin 64) :
    uV (iblk1 V c 2 s) j h = proj x wv b J h := by
  unfold uV
  exact (iblk1_v V c s j h b J hb hJ).trans (hVv b J h)

include hx hk hq hv hQ hK hVv in
/-- THE FIRST QUERY TILE: the block stored at a point 1 modulo 4 holds the attention function's rows. -/
theorem out_lo (t : Fin cfg1.N) (ht : t.val % 4 = 1) (r : Fin 1024) (h : Fin 64) (b : Fin 4) (R : Fin 2048)
    (hb : b.val = t.val / 4) (hR : R.val = r.val) :
    (outsAt1 V c t.val t.isLt).1 (ix3 (0 : Fin 1) r h) = G x wk wq wv b R h := by
  have hN : t.val < 16 := lt_of_lt_of_eq t.isLt (show cfg1.N = 16 from N_1)
  let s : Fin cfg1.N := ⟨t.val - 1, Nat.lt_of_le_of_lt (Nat.sub_le _ _) t.isLt⟩
  have hs : s.val % 4 = 0 := by show (t.val - 1) % 4 = 0; omega
  have hbs : b.val = s.val / 4 := by show b.val = (t.val - 1) / 4; omega
  have hp : outsAt1 V c (t.val - 1) (Nat.lt_of_le_of_lt (Nat.sub_le _ _) t.isLt)
      = stepA V c s (caseA s hs).1 (caseA s hs).2.1 (caseA s hs).2.2.1 (caseA s hs).2.2.2 := outsAt1_A V c s hs
  rw [outsAt1_B V c t ht, stepB_out, hp, stepA_acc, stepA_l]
  obtain ⟨hw1, hw2⟩ := (words_diag s).1 hs
  have ha1 : BitVec.ofNat 32 (grid1.coords s 1).val = BitVec.ofNat 32 0 := by rw [hw1]
  have ha2 : BitVec.ofNat 32 (grid1.coords s 2).val = BitVec.ofNat 32 0 := by rw [hw2]
  refine (pay9_apply (k1_pay8 (F := Ideal) (k1_pay19 (F := Ideal) (BitVec.ofNat 32 (grid1.coords s 1).val) (BitVec.ofNat 32 (grid1.coords s 2).val) (iblk1 V c 0 s) (iblk1 V c 1 s) (k1_pay1 (F := Ideal)))) _ _ r h).trans ?_
  have hst : st (k1_pay8 (F := Ideal) (k1_pay19 (F := Ideal) (BitVec.ofNat 32 (grid1.coords s 1).val) (BitVec.ofNat 32 (grid1.coords s 2).val) (iblk1 V c 0 s) (iblk1 V c 1 s) (k1_pay1 (F := Ideal))))
      (k1_pay6 (F := Ideal) (k1_pay22 (F := Ideal) (BitVec.ofNat 32 (grid1.coords s 1).val) (BitVec.ofNat 32 (grid1.coords s 2).val) (iblk1 V c 0 s) (iblk1 V c 1 s) (k1_pay1 (F := Ideal)) (k1_pay1 (F := Ideal)) (k1_pay2 (F := Ideal))))
      (k1_pay7 (F := Ideal) (k1_pay20 (F := Ideal) (BitVec.ofNat 32 (grid1.coords s 1).val) (BitVec.ofNat 32 (grid1.coords s 2).val) (iblk1 V c 0 s) (iblk1 V c 1 s) (k1_pay1 (F := Ideal)) (k1_pay1 (F := Ideal)))
        (k1_pay21 (F := Ideal) (BitVec.ofNat 32 (grid1.coords s 1).val) (BitVec.ofNat 32 (grid1.coords s 2).val) (iblk1 V c 0 s) (iblk1 V c 1 s) (k1_pay1 (F := Ideal))) (iblk1 V c 2 s) (k1_pay3 (F := Ideal))) r
      = Row.upd Row.init (tD (iblk1 V c 0 s) (iblk1 V c 1 s) r) (uV (iblk1 V c 2 s)) := by
    have hinit : st (k1_pay1 (F := Ideal)) (k1_pay2 (F := Ideal)) (k1_pay3 (F := Ideal)) r = Row.init := init_eq r
    rw [← hinit]
    exact St_ext _ _ (pay8_apply _ _ 0 ha1 ha2 (by omega) _ _ _ _ _ _ r) (pay6_apply _ _ 0 ha1 ha2 (by omega) _ _ _ _ _ _ r)
      (fun h' => pay7_apply _ _ 0 ha1 ha2 (by omega) _ _ _ _ _ _ r h')
  rw [hst]
  have htD : tD (iblk1 V c 0 s) (iblk1 V c 1 s) r = fun j : Fin 1024 => mscore x wq wk b R (lo j) := by
    funext j
    unfold tD mscore
    have hc : (j.val ≤ r.val) = ((lo j).val ≤ R.val) := by rw [hR]; rfl
    rw [tile_I V c x wk wq hx hk hq hQ hK s b hbs r j R (lo j) (by show R.val = ((t.val - 1) / 2 % 2) * 1024 + r.val; omega)
      (by show j.val = (min ((t.val - 1) % 2) ((t.val - 1) / 2 % 2)) * 1024 + j.val; omega)]
    simp only [hc]
  have huV : uV (iblk1 V c 2 s) = fun (j : Fin 1024) (h' : Fin 64) => proj x wv b (lo j) h' := by
    funext j h'
    exact tile_V V c x wv hVv s b hbs j (lo j)
      (by show j.val = (min ((t.val - 1) % 2) ((t.val - 1) / 2 % 2)) * 1024 + j.val; omega) h'
  rw [htD, huV]
  exact row_lo x wk wq wv hx hq hk hv b R (by omega) h

include hx hk hq hv hQ hK hVv in
/-- THE SECOND QUERY TILE: the block stored at a point 3 modulo 4 holds the attention function's rows. -/
theorem out_hi (t : Fin cfg1.N) (ht : t.val % 4 = 3) (r : Fin 1024) (h : Fin 64) (b : Fin 4) (R : Fin 2048)
    (hb : b.val = t.val / 4) (hR : R.val = 1024 + r.val) :
    (outsAt1 V c t.val t.isLt).1 (ix3 (0 : Fin 1) r h) = G x wk wq wv b R h := by
  have hN : t.val < 16 := lt_of_lt_of_eq t.isLt (show cfg1.N = 16 from N_1)
  let s : Fin cfg1.N := ⟨t.val - 1, Nat.lt_of_le_of_lt (Nat.sub_le _ _) t.isLt⟩
  have hs : s.val % 4 = 2 := by show (t.val - 1) % 4 = 2; omega
  have hbs : b.val = s.val / 4 := by show b.val = (t.val - 1) / 4; omega
  have hp : outsAt1 V c (t.val - 1) (Nat.lt_of_le_of_lt (Nat.sub_le _ _) t.isLt)
      = stepC V c s (caseC s hs).1 (caseC s hs).2.1 (caseC s hs).2.2.1 (caseC s hs).2.2.2 := outsAt1_C V c s hs
  rw [outsAt1_D V c t ht, stepD_out, hp, stepC_m, stepC_l, stepC_acc]
  obtain ⟨hw1, hw2⟩ := (words_diag t).2 ht
  have ha1 : BitVec.ofNat 32 (grid1.coords t 1).val = BitVec.ofNat 32 1 := by rw [hw1]
  have ha2 : BitVec.ofNat 32 (grid1.coords t 2).val = BitVec.ofNat 32 1 := by rw [hw2]
  refine (pay9_apply (k1_pay8 (F := Ideal) (k1_pay19 (F := Ideal) (BitVec.ofNat 32 (grid1.coords t 1).val) (BitVec.ofNat 32 (grid1.coords t 2).val) (iblk1 V c 0 t) (iblk1 V c 1 t) (k1_pay5 (F := Ideal) (k1_pay11 (F := Ideal) (iblk1 V c 0 s) (iblk1 V c 1 s) (k1_pay1 (F := Ideal)))))) _ _ r h).trans ?_
  have hst : st (k1_pay8 (F := Ideal) (k1_pay19 (F := Ideal) (BitVec.ofNat 32 (grid1.coords t 1).val) (BitVec.ofNat 32 (grid1.coords t 2).val) (iblk1 V c 0 t) (iblk1 V c 1 t) (k1_pay5 (F := Ideal) (k1_pay11 (F := Ideal) (iblk1 V c 0 s) (iblk1 V c 1 s) (k1_pay1 (F := Ideal))))))
      (k1_pay6 (F := Ideal) (k1_pay22 (F := Ideal) (BitVec.ofNat 32 (grid1.coords t 1).val) (BitVec.ofNat 32 (grid1.coords t 2).val) (iblk1 V c 0 t) (iblk1 V c 1 t) (k1_pay5 (F := Ideal) (k1_pay11 (F := Ideal) (iblk1 V c 0 s) (iblk1 V c 1 s) (k1_pay1 (F := Ideal)))) (k1_pay5 (F := Ideal) (k1_pay11 (F := Ideal) (iblk1 V c 0 s) (iblk1 V c 1 s) (k1_pay1 (F := Ideal)))) (k1_pay14 (F := Ideal) (iblk1 V c 0 s) (iblk1 V c 1 s) (k1_pay1 (F := Ideal)) (k1_pay1 (F := Ideal)) (k1_pay2 (F := Ideal)))))
      (k1_pay7 (F := Ideal) (k1_pay20 (F := Ideal) (BitVec.ofNat 32 (grid1.coords t 1).val) (BitVec.ofNat 32 (grid1.coords t 2).val) (iblk1 V c 0 t) (iblk1 V c 1 t) (k1_pay5 (F := Ideal) (k1_pay11 (F := Ideal) (iblk1 V c 0 s) (iblk1 V c 1 s) (k1_pay1 (F := Ideal)))) (k1_pay5 (F := Ideal) (k1_pay11 (F := Ideal) (iblk1 V c 0 s) (iblk1 V c 1 s) (k1_pay1 (F := Ideal))))) (k1_pay21 (F := Ideal) (BitVec.ofNat 32 (grid1.coords t 1).val) (BitVec.ofNat 32 (grid1.coords t 2).val) (iblk1 V c 0 t) (iblk1 V c 1 t) (k1_pay5 (F := Ideal) (k1_pay11 (F := Ideal) (iblk1 V c 0 s) (iblk1 V c 1 s) (k1_pay1 (F := Ideal))))) (iblk1 V c 2 t) (k1_pay4 (F := Ideal) (k1_pay15 (F := Ideal) (iblk1 V c 2 s)) (k1_pay16 (F := Ideal) (iblk1 V c 0 s) (iblk1 V c 1 s) (k1_pay1 (F := Ideal)) (k1_pay1 (F := Ideal)) (k1_pay3 (F := Ideal))) (k1_pay17 (F := Ideal) (iblk1 V c 0 s) (iblk1 V c 1 s) (k1_pay1 (F := Ideal))))) r
      = Row.upd (Row.upd Row.init (tI (iblk1 V c 0 s) (iblk1 V c 1 s) r) (uV (iblk1 V c 2 s))) (tD (iblk1 V c 0 t) (iblk1 V c 1 t) r) (uV (iblk1 V c 2 t)) := by
    have hinit : st (k1_pay1 (F := Ideal)) (k1_pay2 (F := Ideal)) (k1_pay3 (F := Ideal)) r = Row.init := init_eq r
    have h1 : st (k1_pay5 (F := Ideal) (k1_pay11 (F := Ideal) (iblk1 V c 0 s) (iblk1 V c 1 s) (k1_pay1 (F := Ideal)))) (k1_pay14 (F := Ideal) (iblk1 V c 0 s) (iblk1 V c 1 s) (k1_pay1 (F := Ideal)) (k1_pay1 (F := Ideal)) (k1_pay2 (F := Ideal))) (k1_pay4 (F := Ideal) (k1_pay15 (F := Ideal) (iblk1 V c 2 s)) (k1_pay16 (F := Ideal) (iblk1 V c 0 s) (iblk1 V c 1 s) (k1_pay1 (F := Ideal)) (k1_pay1 (F := Ideal)) (k1_pay3 (F := Ideal))) (k1_pay17 (F := Ideal) (iblk1 V c 0 s) (iblk1 V c 1 s) (k1_pay1 (F := Ideal)))) r = Row.upd Row.init (tI (iblk1 V c 0 s) (iblk1 V c 1 s) r) (uV (iblk1 V c 2 s)) := by
      rw [← hinit]
      exact St_ext _ _ (pay5_apply _ _ _ _ _ _ r) (pay14_apply _ _ _ _ _ _ r) (fun h' => pay4_apply _ _ _ _ _ _ r h')
    rw [← h1]
    exact St_ext _ _ (pay8_apply _ _ 1 ha1 ha2 (by omega) _ _ _ _ _ _ r) (pay6_apply _ _ 1 ha1 ha2 (by omega) _ _ _ _ _ _ r)
      (fun h' => pay7_apply _ _ 1 ha1 ha2 (by omega) _ _ _ _ _ _ r h')
  rw [hst]
  have htI : tI (iblk1 V c 0 s) (iblk1 V c 1 s) r = fun j : Fin 1024 => mscore x wq wk b R (lo j) := by
    funext j
    unfold mscore
    rw [if_pos (by show j.val ≤ R.val; omega)]
    exact tile_I V c x wk wq hx hk hq hQ hK s b hbs r j R (lo j) (by show R.val = ((t.val - 1) / 2 % 2) * 1024 + r.val; omega)
      (by show j.val = (min ((t.val - 1) % 2) ((t.val - 1) / 2 % 2)) * 1024 + j.val; omega)
  have htD : tD (iblk1 V c 0 t) (iblk1 V c 1 t) r = fun j : Fin 1024 => mscore x wq wk b R (hi j) := by
    funext j
    unfold tD mscore
    have hc : (j.val ≤ r.val) = ((hi j).val ≤ R.val) := by
      rw [hR]; show (j.val ≤ r.val) = (1024 + j.val ≤ 1024 + r.val); exact propext (by omega)
    rw [tile_I V c x wk wq hx hk hq hQ hK t b hb r j R (hi j) (by omega)
      (by show 1024 + j.val = (min (t.val % 2) (t.val / 2 % 2)) * 1024 + j.val; omega)]
    simp only [hc]
  have huV1 : uV (iblk1 V c 2 s) = fun (j : Fin 1024) (h' : Fin 64) => proj x wv b (lo j) h' := by
    funext j h'
    exact tile_V V c x wv hVv s b hbs j (lo j)
      (by show j.val = (min ((t.val - 1) % 2) ((t.val - 1) / 2 % 2)) * 1024 + j.val; omega) h'
  have huV2 : uV (iblk1 V c 2 t) = fun (j : Fin 1024) (h' : Fin 64) => proj x wv b (hi j) h' := by
    funext j h'
    exact tile_V V c x wv hVv t b hb j (hi j)
      (by show 1024 + j.val = (min (t.val % 2) (t.val / 2 % 2)) * 1024 + j.val; omega) h'
  rw [htI, htD, huV1, huV2]
  exact row_hi x wk wq wv hx hq hk hv b R (by omega) h

end Cert.KernelIdeal.AttnValue

end
-- ==== Proof.KIFinite.lean ====
/-
  The precondition makes every entry of the four argument arrays a real number.

  The printed precondition is the conjunction of four tests, one per argument array: every entry's absolute value is
  below +∞. A conjunction of bits that is one has every bit one; a reduction by "and" over all axes that is one has a
  one at every index; and an extended real whose absolute value is below +∞ is neither infinity, so it is a real.
-/
import proofs.«180255_j27049704030330_2_alg».proof.Defs
import proofs.«180255_j27049704030330_2_alg».proof.Proof.Gen.Pre_finite_inputs
import Idealize.ShloMosaic.Lib.ReduceAll
import Idealize.ShloMosaic.Lib.ValueIdx
import Idealize.ShloMosaic.PureOps.Ideal.Laws

noncomputable section

namespace Cert.Attn.Finite

open Idealize.ShloMosaic Idealize.ShloMosaic.TcCoe Idealize.SL.Sem

/-- The scalar shape has one index. -/
instance : Subsingleton Cert.Pre_finite_inputs.S_.Idx := ⟨fun _ _ => funext fun d => d.elim0⟩

/-- The bound's pattern denotes +∞. -/
theorem ofBits_posInf : Ideal.ofBits .f32 0x7F800000#32 = (⊤ : EReal) := by
  simp [Ideal.ofBits, Ideal.ieee]

/-- An extended real whose absolute value compares below +∞ is a real number. -/
theorem real_of_abs_lt (x : EReal)
    (h : Ideal.cmp .olt (max x (-x)) (Ideal.ofBits .f32 0x7F800000#32) = 1#1) : ∃ r : ℝ, x = (r : EReal) := by
  rw [ofBits_posInf] at h
  induction x using EReal.rec with
  | bot => simp [Ideal.cmp] at h
  | coe r => exact ⟨r, rfl⟩
  | top => simp [Ideal.cmp] at h

/-- Under the precondition each of the four argument arrays holds real numbers only, on every device. -/
theorem finite_of_pre (m : (ℓ : Loc Cert.KernelIdeal.nD Cert.KernelIdeal.τ Cert.KernelIdeal.sig) → Buf (Elt Ideal) ℓ)
    (hpre : Cert.Pre_KernelIdeal m) (c : Dev Cert.KernelIdeal.nD) :
    (∀ idx, ∃ r : ℝ, m ((c.tc : Thread Cert.KernelIdeal.nD Cert.KernelIdeal.τ).loc Cert.KernelIdeal.main_arg0) idx = (r : EReal))
    ∧ (∀ idx, ∃ r : ℝ, m ((c.tc : Thread Cert.KernelIdeal.nD Cert.KernelIdeal.τ).loc Cert.KernelIdeal.main_arg1) idx = (r : EReal))
    ∧ (∀ idx, ∃ r : ℝ, m ((c.tc : Thread Cert.KernelIdeal.nD Cert.KernelIdeal.τ).loc Cert.KernelIdeal.main_arg2) idx = (r : EReal))
    ∧ (∀ idx, ∃ r : ℝ, m ((c.tc : Thread Cert.KernelIdeal.nD Cert.KernelIdeal.τ).loc Cert.KernelIdeal.main_arg3) idx = (r : EReal)) := by
  have h0 := congrFun (hpre c) ValueIdx.ix0
  dsimp only [Cert.Pre_finite_inputs.fn, Cert.Pre_finite_inputs.fn_part1] at h0
  obtain ⟨h012, h3⟩ := IntOp.andi_eq_one.1 h0
  obtain ⟨h01, h2⟩ := IntOp.andi_eq_one.1 h012
  obtain ⟨h0', h1⟩ := IntOp.andi_eq_one.1 h01
  refine ⟨fun idx => ?_, fun idx => ?_, fun idx => ?_, fun idx => ?_⟩
  · exact real_of_abs_lt _ (Host.reduce_andi_all _ _ _ _ _ h0' idx)
  · exact real_of_abs_lt _ (Host.reduce_andi_all _ _ _ _ _ h1 idx)
  · exact real_of_abs_lt _ (Host.reduce_andi_all _ _ _ _ _ h2 idx)
  · exact real_of_abs_lt _ (Host.reduce_andi_all _ _ _ _ _ h3 idx)

end Cert.Attn.Finite

end
-- ==== Proof.KIValue.lean ====
/-
  The idealized kernel's run with its result named: under the precondition (every input a real number) the result
  array ends holding the causal attention function of the four arguments. The projection region leaves q, k, v at the
  projections of x by Wq, Wk, Wv; the attention region, entered on those, leaves the attention function.
-/
import proofs.«180255_j27049704030330_2_alg».proof.Proof.KIRun
import proofs.«180255_j27049704030330_2_alg».proof.Proof.KIProjValue
import proofs.«180255_j27049704030330_2_alg».proof.Proof.KIAttnFinal
import proofs.«180255_j27049704030330_2_alg».proof.Proof.KIAttnValue
import proofs.«180255_j27049704030330_2_alg».proof.Proof.KIFinite

set_option maxRecDepth 16384

noncomputable section

namespace Cert.KernelIdeal.Value

open Cert.KernelIdeal Cert.KernelIdeal.Gen Cert.KernelIdeal.Frame
open Cert.Attn
open Idealize.ShloMosaic Idealize.ShloMosaic.TcCoe Idealize.ShloMosaic.ValueIdx Idealize.SL.Sem

variable (m : (ℓ : Loc nD τ sig) → Buf (Elt Ideal) ℓ)

/-- The attention function of the launch contents of the four arguments, as the result buffer's contents. -/
abbrev Gm (c : Dev nD) : S4x2048x64.Idx → EReal := fun idx =>
  G (m ((c.tc : Thread nD τ).loc main_arg0)) (m ((c.tc : Thread nD τ).loc main_arg1)) (m ((c.tc : Thread nD τ).loc main_arg2))
    (m ((c.tc : Thread nD τ).loc main_arg3)) (idx 0) (idx 1) (idx 2)

/-- What the attention pipeline's write-backs leave in the result array is the attention function. -/
theorem final (hpre : Cert.Pre_KernelIdeal m) (c : Dev nD) : (dat1 (V2 m) c).arrAt 3 cfg1.N = Gm m c := by
  obtain ⟨hx, hk, hq, hv⟩ := Cert.Attn.Finite.finite_of_pre m hpre c
  have hQ : ∀ (b : Fin 4) (R : Fin 2048) (h : Fin 64), V2 m c main_v0_0 (ix3 b R h)
      = proj (m ((c.tc : Thread nD τ).loc main_arg0)) (m ((c.tc : Thread nD τ).loc main_arg2)) b R h := fun b R h =>
    congrFun ((W2_arr m c 4).trans (Cert.KernelIdeal.ProjValue.q_final (V1 m) c)) (ix3 b R h)
  have hK : ∀ (b : Fin 4) (R : Fin 2048) (h : Fin 64), V2 m c main_v0_1 (ix3 b R h)
      = proj (m ((c.tc : Thread nD τ).loc main_arg0)) (m ((c.tc : Thread nD τ).loc main_arg1)) b R h := fun b R h =>
    congrFun ((W2_arr m c 5).trans (Cert.KernelIdeal.ProjValue.k_final (V1 m) c)) (ix3 b R h)
  have hVv : ∀ (b : Fin 4) (R : Fin 2048) (h : Fin 64), V2 m c main_v0_2 (ix3 b R h)
      = proj (m ((c.tc : Thread nD τ).loc main_arg0)) (m ((c.tc : Thread nD τ).loc main_arg3)) b R h := fun b R h =>
    congrFun ((W2_arr m c 6).trans (Cert.KernelIdeal.ProjValue.v_final (V1 m) c)) (ix3 b R h)
  exact Cert.KernelIdeal.AttnFinal.attn_final_of (V2 m) c (Gm m c)
    (fun t ht r h b R hb hR => Cert.KernelIdeal.AttnValue.out_lo (V2 m) c _ _ _ _ hx hk hq hv hQ hK hVv t ht r h b R hb hR)
    (fun t ht r h b R hb hR => Cert.KernelIdeal.AttnValue.out_hi (V2 m) c _ _ _ _ hx hk hq hv hQ hK hVv t ht r h b R hb hR)

/-- THE RUN WITH THE RESULT NAMED. -/
theorem run (ρ : Dev nD → PrngReg) (hpre : Cert.Pre_KernelIdeal m) :
    θ_run (defs (F := Ideal)) (onTc (τ := τ) (main (F := Ideal))) ⟨m, fun _ => 0, ρ⟩ (fun r => ∀ c : Dev nD,
      r.2.mem ((c.tc : Thread nD τ).loc main_v1) = Gm m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run (defs (F := Ideal)) _ _).mono (fun r h c => ⟨(h c).1.trans (final m hpre c), (h c).2⟩) (run_main (F := Ideal) m ρ)

end Cert.KernelIdeal.Value

end
-- ==== Proof.RefValue.lean ====
/-
  The reference's result, read index by index off its run, is the attention function `Cert.Attn.G` of the arguments.

  The reference forms the three projections of `x`, the batched product of the query and key projections scaled by
  eight, replaces the entries above the diagonal by the least extended real, and takes the row-wise shifted softmax
  of the result to weight the value projection's rows. Each stage is read at an index given by its coordinates, in
  program order; the last reading is `G`.
-/
import proofs.«180255_j27049704030330_2_alg».proof.Proof.Gen.ReferenceIdeal.Run
import proofs.«180255_j27049704030330_2_alg».proof.Proof.Gen.ReferenceIdeal.Read
import proofs.«180255_j27049704030330_2_alg».proof.Proof.AttnSpec
import proofs.«180255_j27049704030330_2_alg».proof.Proof.LibContract
import proofs.«180255_j27049704030330_2_alg».proof.Proof.LibLay3

noncomputable section

namespace Cert.Attn.RefValue

open Idealize.ShloMosaic Idealize.ShloMosaic.ValueIdx
open Cert.ReferenceIdeal Cert.ReferenceIdeal.Read

/-! ## Constants and the causal bit -/

/-- The scale's pattern denotes the real number eight. -/
theorem ofBits_eight : Ideal.ofBits .f32 0x41000000#32 = (8 : EReal) := by
  have h : Ideal.ofBits .f32 0x41000000#32 = ((8 : ℝ) : EReal) := by
    simp [Ideal.ofBits, Ideal.ieee, -EReal.coe_mul]; norm_num
  exact h

/-- The masked entries' and the maximum's starting pattern denotes the least extended real. -/
theorem ofBits_negInf : Ideal.ofBits .f32 0xFF800000#32 = (⊥ : EReal) := by
  simp [Ideal.ofBits, Ideal.ieee]

/-- A 32-bit word built from a number below 2048 is that number as a signed integer. -/
theorem toInt_small (n : ℕ) (hn : n < 2048) : (BitVec.ofNat 32 n).toInt = (n : Int) := by
  have h1 : (BitVec.ofNat 32 n).toNat = n := by rw [BitVec.toNat_ofNat]; omega
  rw [BitVec.toInt_eq_toNat_of_lt (by rw [h1]; omega), h1]

/-- The lower-triangle comparison "row + 0 ≥ column" on the two coordinate words: the bit is set exactly when the
    column is at most the row. -/
theorem tril_bit (i j : Fin 2048) :
    IntOp.cmpi .sge (IntOp.addi (BitVec.ofNat 32 i.val) 0#32) (BitVec.ofNat 32 j.val) = if j.val ≤ i.val then 1#1 else 0#1 := by
  have e : (BitVec.ofNat 32 j.val).sle (BitVec.ofNat 32 i.val) = decide (j.val ≤ i.val) := by
    rw [BitVec.sle_eq_decide, toInt_small _ j.isLt, toInt_small _ i.isLt]
    congr 1
    apply propext
    omega
  simp only [IntOp.cmpi, IntOp.addi, BitVec.add_zero, e]
  by_cases h : j.val ≤ i.val
  · simp [h]
  · simp [h]

/-! ## The three projections -/

section
variable (x0 : (⟨S4x2048x1024, .f32⟩ : BufTy).Contents (Elt Ideal)) (x1 x2 x3 : (⟨S64x1024, .f32⟩ : BufTy).Contents (Elt Ideal))

/-- The first product is the projection of `x` by the first weight. -/
theorem v0_apply (b : Fin 4) (t : Fin 2048) (h : Fin 64) :
    val_main_v0 (F := Ideal) x0 x1 (ix3 b t h) = proj x0 x1 b t h := by
  rw [val_main_v0_apply]
  refine Finset.sum_congr rfl fun k _ => ?_
  rw [show lidx_main_v0 (ix3 b t h) k = ix3 b t k from eq_ix3 _, show ridx_main_v0 (ix3 b t h) k = ix2 h k from eq_ix2 _]

/-- The second product is the projection of `x` by the second weight. -/
theorem v1_apply (b : Fin 4) (t : Fin 2048) (h : Fin 64) :
    val_main_v1 (F := Ideal) x0 x2 (ix3 b t h) = proj x0 x2 b t h := by
  rw [val_main_v1_apply]
  refine Finset.sum_congr rfl fun k _ => ?_
  rw [show lidx_main_v1 (ix3 b t h) k = ix3 b t k from eq_ix3 _, show ridx_main_v1 (ix3 b t h) k = ix2 h k from eq_ix2 _]

/-- The third product is the projection of `x` by the third weight. -/
theorem v2_apply (b : Fin 4) (t : Fin 2048) (h : Fin 64) :
    val_main_v2 (F := Ideal) x0 x3 (ix3 b t h) = proj x0 x3 b t h := by
  rw [val_main_v2_apply]
  refine Finset.sum_congr rfl fun k _ => ?_
  rw [show lidx_main_v2 (ix3 b t h) k = ix3 b t k from eq_ix3 _, show ridx_main_v2 (ix3 b t h) k = ix2 h k from eq_ix2 _]

/-! ## The scaled scores -/

/-- The batched product of the query and key projections over the head axis. -/
theorem v3_apply (b : Fin 4) (i j : Fin 2048) :
    val_main_v3 (F := Ideal) x0 x1 x2 (ix3 b i j) = ∑ h : Fin 64, proj x0 x2 b i h * proj x0 x1 b j h := by
  rw [val_main_v3_apply]
  refine Finset.sum_congr rfl fun h _ => ?_
  rw [show lidx_main_v3 (ix3 b i j) h = ix3 b i h from eq_ix3 _, show ridx_main_v3 (ix3 b i j) h = ix3 b j h from eq_ix3 _,
    v1_apply, v0_apply]

/-- Times the broadcast eight: the scaled score. -/
theorem v5_apply (b : Fin 4) (i j : Fin 2048) :
    val_main_v5 (F := Ideal) x0 x1 x2 (ix3 b i j) = score x0 x2 x1 b i j := by
  rw [val_main_v5_apply, val_main_v4_apply, val_main_cst_apply, v3_apply]
  show (∑ h : Fin 64, proj x0 x2 b i h * proj x0 x1 b j h) * Ideal.ofBits .f32 0x41000000#32 = _
  rw [ofBits_eight]
  rfl
end

/-! ## The causal mask -/

/-- The lower-triangle function's result bit at row `i`, column `j`: set exactly when `j ≤ i`. -/
theorem v7_apply (i j : Fin 2048) :
    val_main_v7 (F := Ideal) (ix2 i j) = if j.val ≤ i.val then 1#1 else 0#1 := by
  rw [val_main_v7_apply, val_main_call0_v4_apply, val_main_call0_v2_apply, val_main_call0_v0_apply,
    val_main_call0_v1_apply, val_main_call0_c_apply, val_main_call0_v3_apply, val_main_v6_apply, val_main_c_apply,
    val_main_call0_v5_apply, val_main_call0_c_0_apply]
  show Scalar.select (IntOp.cmpi .sge (IntOp.addi (BitVec.ofNat 32 i.val) 0#32) (BitVec.ofNat 32 j.val)) 1#1 0#1 = _
  rw [tril_bit]
  by_cases h : j.val ≤ i.val
  · rw [if_pos h, select_one]
  · rw [if_neg h, select_zero]

section
variable (x0 : (⟨S4x2048x1024, .f32⟩ : BufTy).Contents (Elt Ideal)) (x1 x2 x3 : (⟨S64x1024, .f32⟩ : BufTy).Contents (Elt Ideal))

/-- Choosing between the scaled score and the least extended real by the mask bit: the masked score. -/
theorem v8_apply (b : Fin 4) (i j : Fin 2048) :
    val_main_v8 (F := Ideal) x0 x1 x2 (ix3 b i j) = mscore x0 x2 x1 b i j := by
  rw [val_main_v8_apply, val_main_call1_v0_apply, show idx_main_call1_v0 (ix3 b i j) = ix2 i j from eq_ix2 _, v7_apply,
    v5_apply, val_main_call1_v1_apply, val_main_cst_0_apply]
  unfold mscore
  by_cases h : j.val ≤ i.val
  · rw [if_pos h, if_pos h, select_one]
  · rw [if_neg h, if_neg h, select_zero]
    exact ofBits_negInf

/-! ## The row maximum -/

/-- Dropping the last axis of the score array leaves the (batch, row) array. -/
theorem red_h : S4x2048x2048.Reduces [2] S4x2048 := by decide

/-- The (batch, row) index with column `k` put back. -/
theorem lift_row (b : Fin 4) (i : Fin 2048) (k : Fin (S4x2048x2048.size 2)) :
    red_h.lift (ix2 b i) k = ix3 b i (⟨k.val, k.isLt⟩ : Fin 2048) := by
  funext c; apply Fin.ext
  fin_cases c <;> rfl

/-- The maximum-reduce over the columns from the least extended real: the row's largest masked score. -/
theorem v9_apply (b : Fin 4) (i : Fin 2048) :
    val_main_v9 (F := Ideal) x0 x1 x2 (ix2 b i) = Row.tmax (fun j : Fin 2048 => mscore x0 x2 x1 b i j) := by
  have key := Host.reduce_eq_fold_single (FloatOps.maximumf (F := Ideal) (φ := .f32)) (val_main_v8 (F := Ideal) x0 x1 x2)
    (val_main_cst_1 (F := Ideal)) Gen.reducesTo_S4x2048x2048_S4x2048_d2 red_h Gen.h_S_ (ix2 b i)
  refine key.trans ?_
  have hf : (val_main_v8 (F := Ideal) x0 x1 x2 ∘ red_h.lift (ix2 b i)) = fun k : Fin 2048 => mscore x0 x2 x1 b i k :=
    funext fun k => by
      show val_main_v8 (F := Ideal) x0 x1 x2 (red_h.lift (ix2 b i) k) = _
      rw [lift_row, v8_apply]
      rfl
  show Finset.fold max (Ideal.ofBits .f32 0xFF800000#32) (val_main_v8 (F := Ideal) x0 x1 x2 ∘ red_h.lift (ix2 b i))
      (Finset.univ : Finset (Fin 2048)) = Finset.fold max ⊥ (fun j : Fin 2048 => mscore x0 x2 x1 b i j) Finset.univ
  rw [hf, ofBits_negInf]
  rfl

/-- The maximum with the broadcast least extended real. -/
theorem v11_apply (b : Fin 4) (i : Fin 2048) :
    val_main_v11 (F := Ideal) x0 x1 x2 (ix2 b i) = max ⊥ (Row.tmax (fun j : Fin 2048 => mscore x0 x2 x1 b i j)) := by
  rw [val_main_v11_apply, val_main_v10_apply, val_main_cst_2_apply, v9_apply]
  show max (Ideal.ofBits .f32 0xFF800000#32) _ = _
  rw [ofBits_negInf]

/-- The row's maximum broadcast back along the columns. -/
theorem v13_apply (b : Fin 4) (i j : Fin 2048) :
    val_main_v13 (F := Ideal) x0 x1 x2 (ix3 b i j) = max ⊥ (Row.tmax (fun j : Fin 2048 => mscore x0 x2 x1 b i j)) := by
  rw [val_main_v13_apply, show idx_main_v13 (ix3 b i j) = ix3 b i (0 : Fin 1) from eq_ix3 _, val_main_v12_apply,
    show idx_main_v12 (ix3 b i (0 : Fin 1)) = ix2 b i from eq_ix2 _, v11_apply]

/-! ## The shifted softmax -/

/-- The exponential of the masked score less the row's maximum. -/
theorem v15_apply (b : Fin 4) (i j : Fin 2048) :
    val_main_v15 (F := Ideal) x0 x1 x2 (ix3 b i j)
      = Ideal.exp (mscore x0 x2 x1 b i j - max ⊥ (Row.tmax (fun j : Fin 2048 => mscore x0 x2 x1 b i j))) := by
  rw [val_main_v15_apply, val_main_v14_apply, v8_apply, v13_apply]
  rfl

/-- The row's sum of the exponentials, from zero. -/
theorem v16_apply (b : Fin 4) (i : Fin 2048) :
    val_main_v16 (F := Ideal) x0 x1 x2 (ix2 b i)
      = ∑ k : Fin 2048, Ideal.exp (mscore x0 x2 x1 b i k - max ⊥ (Row.tmax (fun j : Fin 2048 => mscore x0 x2 x1 b i j))) := by
  rw [val_main_v16_apply, val_main_cst_3_apply]
  show Ideal.ofBits .f32 0x00000000#32 + _ = _
  rw [Ideal.ofBits_zero_f32, zero_add]
  refine Finset.sum_congr rfl fun k _ => ?_
  rw [show idx_main_v16 (ix2 b i) k = ix3 b i k from eq_ix3 _, v15_apply]

/-- The row's sum broadcast back along the columns. -/
theorem v18_apply (b : Fin 4) (i j : Fin 2048) :
    val_main_v18 (F := Ideal) x0 x1 x2 (ix3 b i j)
      = ∑ k : Fin 2048, Ideal.exp (mscore x0 x2 x1 b i k - max ⊥ (Row.tmax (fun j : Fin 2048 => mscore x0 x2 x1 b i j))) := by
  rw [val_main_v18_apply, show idx_main_v18 (ix3 b i j) = ix3 b i (0 : Fin 1) from eq_ix3 _, val_main_v17_apply,
    show idx_main_v17 (ix3 b i (0 : Fin 1)) = ix2 b i from eq_ix2 _, v16_apply]

/-- The softmax weight of column `j` in row `i`. -/
theorem v19_apply (b : Fin 4) (i j : Fin 2048) :
    val_main_v19 (F := Ideal) x0 x1 x2 (ix3 b i j)
      = Ideal.div (Ideal.exp (mscore x0 x2 x1 b i j - max ⊥ (Row.tmax (fun j : Fin 2048 => mscore x0 x2 x1 b i j))))
          (∑ k : Fin 2048, Ideal.exp (mscore x0 x2 x1 b i k - max ⊥ (Row.tmax (fun j : Fin 2048 => mscore x0 x2 x1 b i j)))) := by
  rw [val_main_v19_apply, v15_apply, v18_apply]
  rfl

/-! ## The result -/

/-- The reference's result, entry by entry, is the attention function of the four arguments. -/
theorem ref_is_G (b : Fin 4) (i : Fin 2048) (h : Fin 64) :
    val_main_v20 (F := Ideal) x0 x1 x2 x3 (ix3 b i h) = Cert.Attn.G x0 x1 x2 x3 b i h := by
  rw [val_main_v20_apply]
  unfold Cert.Attn.G Row.ref
  refine Finset.sum_congr rfl fun k _ => ?_
  rw [show lidx_main_v20 (ix3 b i h) k = ix3 b i k from eq_ix3 _, show ridx_main_v20 (ix3 b i h) k = ix3 b k h from eq_ix3 _,
    v19_apply, v2_apply]

end

/-! ## The reference's run -/

section
open Idealize.ShloMosaic.TcCoe Idealize.SL.Sem

/-- The whole result array is `G` at each index's coordinates. -/
theorem val_v20_eq_G (x0 : (⟨S4x2048x1024, .f32⟩ : BufTy).Contents (Elt Ideal)) (x1 x2 x3 : (⟨S64x1024, .f32⟩ : BufTy).Contents (Elt Ideal)) :
    val_main_v20 (F := Ideal) x0 x1 x2 x3 = fun idx => Cert.Attn.G x0 x1 x2 x3 (idx 0) (idx 1) (idx 2) := by
  funext idx
  exact (congrArg (val_main_v20 (F := Ideal) x0 x1 x2 x3) (eq_ix3 idx)).trans (ref_is_G x0 x1 x2 x3 (idx 0) (idx 1) (idx 2))

/-- The reference runs and leaves its four argument arrays as they were. -/
theorem ref_frame (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run (defs (F := Ideal)) _ _).mono (fun _ h c => (h c).2) (Cert.ReferenceIdeal.Value.run (F := Ideal) m ρ)

/-- The reference runs, its result array ends as `G` of the four argument arrays it started from, index by index, and
    the argument arrays are left as they were. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v20)
        = (fun idx => Cert.Attn.G (m ((c.tc : Thread nD τ).loc main_arg0)) (m ((c.tc : Thread nD τ).loc main_arg1))
            (m ((c.tc : Thread nD τ).loc main_arg2)) (m ((c.tc : Thread nD τ).loc main_arg3)) (idx 0) (idx 1) (idx 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run (defs (F := Ideal)) _ _).mono
    (fun _ h c => ⟨((h c).1.trans (val_main_v20_eq m c)).trans (val_v20_eq_G _ _ _ _), (h c).2⟩)
    (Cert.ReferenceIdeal.Value.run (F := Ideal) m ρ)

end

end Cert.Attn.RefValue

end
-- ==== Proof.KIPreserves.lean ====
/-
  The one rewrite the idealization made: the kernel's finite stand-in for "no score", the f32 word 0xFF333332
  (−0.7 of the largest finite f32), carries the name "neg_big", and over the extended reals that name denotes ⊥,
  as the table of named constants says; at every shape its splat is constantly ⊥ and so is the scalar.
-/
import proofs.«180255_j27049704030330_2_alg».proof.Defs
import Idealize.ShloMosaic.PureOps.IdealRules

namespace Cert.Attn.Preserves

open Idealize.ShloMosaic

theorem preserves : Cert.preserves_Kernel_KernelIdeal :=
  IdealRules.named_const.statement Cert.KernelIdeal.κ "neg_big" .f32 0xFF333332#32 ⊥ rfl

end Cert.Attn.Preserves
-- ==== Proof.lean ====
/-
  The certificate of the causal-attention kernel against its reference.

  Both programs compute, for x : [4, 2048, 1024] and weights Wk, Wq, Wv : [64, 1024], the projections q, k, v of x and
  then, per batch and query row i, the softmax over the keys j ≤ i of the scores (q i · k j) · 8 weighting the rows of
  v. The reference does it in one pass over all 2048 keys with the later keys masked to -∞. The kernel does it in two
  launches: a projection kernel over (batch, row tile), then an attention kernel over (batch, query tile, key tile)
  that keeps a running maximum, denominator and numerator per row, rescaling them as each key tile is met, skipping
  the key tiles after the diagonal, masking the diagonal tile with a finite stand-in read as -∞, and dividing at the
  last key tile. Over the extended reals, with every input a real number, the rescaled accumulation is the one-pass
  softmax-weighted sum (exp (m₁ - M) · exp (s - m₁) = exp (s - M) for real scores, both 0 at -∞), and scaling the
  query by 8 before the product is scaling the product.

  The frames of the two kernel programs come from running each kernel body at every grid point — the attention body
  in one of four ways according to the point's position modulo 4 — with the three scratch buffers carried from point
  to point; the reference's frame and value from its run read operation by operation.
-/
import proofs.«180255_j27049704030330_2_alg».proof.Defs
import proofs.«180255_j27049704030330_2_alg».proof.Proof.Gen.Kernel
import proofs.«180255_j27049704030330_2_alg».proof.Proof.Gen.KernelIdeal
import proofs.«180255_j27049704030330_2_alg».proof.Proof.Gen.ReferenceIdeal
import proofs.«180255_j27049704030330_2_alg».proof.Proof.Gen.Pre_finite_inputs
import proofs.«180255_j27049704030330_2_alg».proof.Proof.KRun
import proofs.«180255_j27049704030330_2_alg».proof.Proof.KIValue
import proofs.«180255_j27049704030330_2_alg».proof.Proof.RefValue
import proofs.«180255_j27049704030330_2_alg».proof.Proof.KIPreserves
import Idealize.ShloMosaic.Adequacy
import Idealize.ShloMosaic.Init

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  fun m ρ _ => Cert.Kernel.Frame.frame (F := Bits) m ρ,
  fun m ρ _ => Cert.KernelIdeal.Frame.frame (F := Ideal) m ρ,
  fun m ρ _ => Cert.Attn.RefValue.ref_frame m ρ,
  Cert.Attn.Preserves.preserves,
  fun m g m' g' hpre hagree => ⟨fun c => Cert.KernelIdeal.Value.Gm m c, Cert.KernelIdeal.Value.run m g hpre,
    (θ_run (Cert.ReferenceIdeal.defs (F := Ideal)) _ _).mono (fun _ h c => ⟨by
      rw [(h c).1, (hagree c).1, (hagree c).2.1, (hagree c).2.2.1, (hagree c).2.2.2]; rfl, (h c).2⟩)
      (Cert.Attn.RefValue.ref_run m' g')⟩⟩

end Cert.Proof

end
